-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x512 : Shape := ⟨2, ![8192, 512]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S512x8192 : Shape := ⟨2, ![512, 8192]⟩
abbrev S8192x8192 : Shape := ⟨2, ![8192, 8192]⟩

class Facts : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  transposes_S8192x512_S512x8192_1_0 : S8192x512.Transposes [1, 0] S512x8192
  bcast_S_S8192x1024 : S_.BroadcastsInDim S8192x1024 (![] : Fin 0 → Fin S8192x1024.rank)
  reducesTo_S8192x1024_S_d0_1 : S8192x1024.ReducesTo [0, 1] S_
  bcast_S_S8192x512 : S_.BroadcastsInDim S8192x512 (![] : Fin 0 → Fin S8192x512.rank)
  reducesTo_S8192x512_S_d0_1 : S8192x512.ReducesTo [0, 1] S_
  bcast_S_S1024x1024 : S_.BroadcastsInDim S1024x1024 (![] : Fin 0 → Fin S1024x1024.rank)
  reducesTo_S1024x1024_S_d0_1 : S1024x1024.ReducesTo [0, 1] S_
  reducesTo_S8192x8192_S8192_d1 : S8192x8192.ReducesTo [1] S8192
  reducesTo_S8192x1_S_d0_1 : S8192x1.ReducesTo [0, 1] S_
  dot_S8192x512_S512x8192_S8192x8192_1_0_0_1_n_n_wf : DotDims.WF S8192x512 S512x8192 S8192x8192 [1] [0] [0] [1] [] []

variable [Facts]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def fn_part1 {F : FTy → Type} [FloatOps F] (main_arg2 : FVec F S1024x1024 .f32) (main_v9 : FVec F S8192x8192 .f32) (main_v13 : IVec S_ 1) (main_v17 : IVec S_ 1) : IVec S_ 1 :=
  let main_v18 : IVec S_ 1 := andi main_v13 main_v17
  let main_v19 : FVec F S1024x1024 .f32 := Host.absf main_arg2
  let main_cst_4 : FVec F S_ .f32 := constant S_ .f32 0x7F800000#32
  let main_v20 : FVec F S1024x1024 .f32 := broadcastInDim S1024x1024 ![] bcast_S_S1024x1024 main_cst_4
  let main_v21 : IVec S1024x1024 1 := cmpf .olt main_v19 main_v20
  let main_c_5 : IVec S_ 1 := constantI S_ 1 1#1
  let main_v22 : IVec S_ 1 := (fun x v => Host.reduce IntOp.andi x v reducesTo_S1024x1024_S_d0_1 h_S_) main_v21 main_c_5
  let main_v23 : IVec S_ 1 := andi main_v18 main_v22
  let main_cst_6 : FVec F S_ .f32 := constant S_ .f32 0x00000000#32
  let main_v24 : FVec F S8192 .f32 := (fun x v => Host.reduceAdd x v reducesTo_S8192x8192_S8192_d1 h_S_) main_v9 main_cst_6
  let main_v25 : FVec F S8192x1 .f32 := broadcastInDim S8192x1 ![0] bcast_S8192_S8192x1_0 main_v24
  let main_cst_7 : FVec F S_ .f32 := constant S_ .f32 0x00000000#32
  let main_v26 : FVec F S8192x1 .f32 := broadcastInDim S8192x1 ![] bcast_S_S8192x1 main_cst_7
  let main_v27 : IVec S8192x1 1 := cmpf .une main_v25 main_v26
  let main_c_8 : IVec S_ 1 := constantI S_ 1 1#1
  let main_v28 : IVec S_ 1 := (fun x v => Host.reduce IntOp.andi x v reducesTo_S8192x1_S_d0_1 h_S_) main_v27 main_c_8
  let main_v29 : IVec S_ 1 := andi main_v23 main_v28
  main_v29

def fn {F : FTy → Type} [FloatOps F] (main_arg0 : FVec F S8192x1024 .f32) (main_arg1 : FVec F S8192x512 .f32) (main_arg2 : FVec F S1024x1024 .f32) : IVec S_ 1 :=
  let main_v0 : FVec F S8192x512 .f32 := mulf main_arg1 main_arg1
  let main_cst : FVec F S_ .f32 := constant S_ .f32 0x00000000#32
  let main_v1 : FVec F S8192 .f32 := (fun x v => Host.reduceAdd x v reducesTo_S8192x512_S8192_d1 h_S_) main_v0 main_cst
  let main_v2 : FVec F S8192x1 .f32 := broadcastInDim S8192x1 ![0] bcast_S8192_S8192x1_0 main_v1
  let main_v3 : FVec F S8192x1 .f32 := Host.sqrt main_v2
  let main_cst_0 : FVec F S_ .f32 := constant S_ .f32 0x2B8CBCCC#32
  let main_v4 : FVec F S8192x1 .f32 := broadcastInDim S8192x1 ![] bcast_S_S8192x1 main_cst_0
  let main_v5 : FVec F S8192x1 .f32 := maximumf main_v3 main_v4
  let main_v6 : FVec F S8192x512 .f32 := broadcastInDim S8192x512 ![0, 1] bcast_S8192x1_S8192x512_0_1 main_v5
  let main_v7 : FVec F S8192x512 .f32 := Host.divf main_arg1 main_v6
  let main_v8 : FVec F S512x8192 .f32 := (transpose S512x8192 [1, 0] · transposes_S8192x512_S512x8192_1_0) main_v7
  let main_v9 : FVec F S8192x8192 .f32 := (fun l r => Host.dotGeneral dot_S8192x512_S512x8192_S8192x8192_1_0_0_1_n_n none l r) main_v7 main_v8
  let main_v10 : FVec F S8192x1024 .f32 := Host.absf main_arg0
  let main_cst_1 : FVec F S_ .f32 := constant S_ .f32 0x7F800000#32
  let main_v11 : FVec F S8192x1024 .f32 := broadcastInDim S8192x1024 ![] bcast_S_S8192x1024 main_cst_1
  let main_v12 : IVec S8192x1024 1 := cmpf .olt main_v10 main_v11
  let main_c : IVec S_ 1 := constantI S_ 1 1#1
  let main_v13 : IVec S_ 1 := (fun x v => Host.reduce IntOp.andi x v reducesTo_S8192x1024_S_d0_1 h_S_) main_v12 main_c
  let main_v14 : FVec F S8192x512 .f32 := Host.absf main_arg1
  let main_cst_2 : FVec F S_ .f32 := constant S_ .f32 0x7F800000#32
  let main_v15 : FVec F S8192x512 .f32 := broadcastInDim S8192x512 ![] bcast_S_S8192x512 main_cst_2
  let main_v16 : IVec S8192x512 1 := cmpf .olt main_v14 main_v15
  let main_c_3 : IVec S_ 1 := constantI S_ 1 1#1
  let main_v17 : IVec S_ 1 := (fun x v => Host.reduce IntOp.andi x v reducesTo_S8192x512_S_d0_1 h_S_) main_v16 main_c_3
  fn_part1 (F := F) main_arg2 main_v9 main_v13 main_v17
-- ==== Kernel.lean ====
abbrev S8192x1024 : Shape := ⟨2, ![8192, 1024]⟩
abbrev S8192x512 : Shape := ⟨2, ![8192, 512]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S512 : Shape := ⟨1, ![512]⟩
abbrev S1x512 : Shape := ⟨2, ![1, 512]⟩
abbrev S512x1024 : Shape := ⟨2, ![512, 1024]⟩
abbrev S1024x512 : Shape := ⟨2, ![1024, 512]⟩
abbrev S1024x1 : Shape := ⟨2, ![1024, 1]⟩

abbrev nBuf : Space → Nat
  | .hbm => 27
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S1024x1024, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S512, .f32⟩
  | .hbm, ⟨15, _⟩ => ⟨S1x512, .f32⟩
  | .hbm, ⟨16, _⟩ => ⟨S8192x512, .f32⟩
  | .hbm, ⟨17, _⟩ => ⟨S8192x512, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S8192x512, .bf16⟩
  | .hbm, ⟨22, _⟩ => ⟨S8192x1024, .bf16⟩
  | .hbm, ⟨23, _⟩ => ⟨S1024x1024, .bf16⟩
  | .hbm, ⟨24, _⟩ => ⟨S512x1024, .f32⟩
  | .hbm, ⟨25, _⟩ => ⟨S512x1024, .bf16⟩
  | .hbm, ⟨26, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S1024x512, .bf16⟩
  | .local _ .vmem, ⟨7, _⟩ => ⟨S1024x512, .bf16⟩
  | .local _ .vmem, ⟨8, _⟩ => ⟨S512x1024, .bf16⟩
  | .local _ .vmem, ⟨9, _⟩ => ⟨S1024x1, .f32⟩
  | .local _ .vmem, ⟨10, _⟩ => ⟨S1024x1, .f32⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  reducesTo_S8192x512_S512_d0 : S8192x512.ReducesTo [0] S512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  dot_S1024x512_S1024x1024_S512x1024_0_0_1_1_n_n_wf : DotDims.WF S1024x512 S1024x1024 S512x1024 [0] [0] [1] [1] [] []
  dot_S1024x512_S512x1024_S1024x1024_1_0_0_1_n_n_wf : DotDims.WF S1024x512 S512x1024 S1024x1024 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .bf16 = 32 ∨ (Rect.block (s := S8192x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .f32 = 32 ∨ (Rect.block (s := S512x1024) S512x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .bf16 = 32 ∨ (Rect.block (s := S8192x512) S1024x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S512x1024.size a
  hwx1_1 : ∀ i : grid1.Coords, EltTy.bits .bf16 = 32 ∨ (Rect.block (s := S512x1024) S512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S8192x1024.size a
  hwx1_4 : ∀ i : grid1.Coords, EltTy.bits .f32 = 32 ∨ (Rect.block (s := S8192x1024) S1024x1024.size (cc1_transform_4 i) (hinb1_4 i)).WholeWords (EltTy.packing .f32)

variable [Facts₀]

def dot_S1024x512_S1024x1024_S512x1024_0_0_1_1_n_n : DotDims S1024x512 S1024x1024 S512x1024 where
  lhsContracting := [0]
  rhsContracting := [0]
  lhsNonContracting := [1]
  rhsNonContracting := [1]
  lhsBatch := []
  rhsBatch := []
  wf := dot_S1024x512_S1024x1024_S512x1024_0_0_1_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v11) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S512x1024.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v11) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S512x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8192x1024 : Shape := ⟨2, ![8192, 1024]⟩
abbrev S8192x512 : Shape := ⟨2, ![8192, 512]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S512x8192 : Shape := ⟨2, ![512, 8192]⟩
abbrev S8192x8192 : Shape := ⟨2, ![8192, 8192]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S1024x1024, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x512, .f32⟩
  | .hbm, ⟨12, _⟩ => ⟨S8192x512, .f32⟩
  | .hbm, ⟨13, _⟩ => ⟨S512x8192, .f32⟩
  | .hbm, ⟨14, _⟩ => ⟨S8192x8192, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x8192, .f32⟩
  | .hbm, ⟨19, _⟩ => ⟨S8192x8192, .f32⟩
  | .hbm, ⟨20, _⟩ => ⟨S8192x1024, .f32⟩
  | .hbm, ⟨21, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  transposes_S8192x512_S512x8192_1_0 : S8192x512.Transposes [1, 0] S512x8192
  reducesTo_S8192x8192_S8192_d1 : S8192x8192.ReducesTo [1] S8192
  bcast_S8192x1_S8192x8192_0_1 : S8192x1.BroadcastsInDim S8192x8192 (![0, 1] : Fin 2 → Fin S8192x8192.rank)
  dot_S8192x512_S512x8192_S8192x8192_1_0_0_1_n_n_wf : DotDims.WF S8192x512 S512x8192 S8192x8192 [1] [0] [0] [1] [] []
  dot_S8192x8192_S8192x1024_S8192x1024_1_0_0_1_n_n_wf : DotDims.WF S8192x8192 S8192x1024 S8192x1024 [1] [0] [0] [1] [] []
  dot_S8192x1024_S1024x1024_S8192x1024_1_0_0_1_n_n_wf : DotDims.WF S8192x1024 S1024x1024 S8192x1024 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.BR0Run.lean ====
/- The runs of the body of pallas_call 0 shared by its frame half: the body's branch condition in closed form, the
   staging and scratch memrefs, the region invariant with the scratch named, and the whole-body run in each of the two
   control cases (the first point, where the scratch is zero-filled; the later points, where it is carried). -/
import proofs.«142103_j4440996184607_1_alg».proof.Proof.Gen.Kernel.Launch
import proofs.«142103_j4440996184607_1_alg».proof.Proof.Gen.Kernel.Skeleton
import proofs.«142103_j4440996184607_1_alg».proof.Proof.Gen.Kernel.Points
import Idealize.ShloMosaic.Lib.Pipeline.FrameBody
import Idealize.ShloMosaic.Lib.Ring
import Idealize.ShloMosaic.Lib.Tactic

-- membership in a rectangle of large extents: the elaborator's structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! ## The body's branch condition -/

/-- The condition of the body's one `scf.if`, from the grid coordinates (the skeleton's scalar chain substituted). -/
abbrev cond0_0 (i : grid0.Coords) : Prop := (Scalar.cmpi .ne (Scalar.extui (Scalar.cmpi .eq (BitVec.ofNat 32 (i 0).val) 0#32)) 0#32) = 1#1
/-- It holds at the first point only: decided over the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## No window is idle anywhere (the configuration states no idle point) -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl

/-! ## The staging and scratch memrefs -/

/-- The one staging buffer of output window 2, through which its contents are stated. -/
abbrev VO0_2 : View sig .tc .vmem S512x1024 .f32 := (Memref.whole cc0_stg2_0 : Memref sig .tc .vmem S512x1024 .f32).view
/-- Each window's current staging memref at point `t`, spelled as the pipeline passes it, and its wholeness. -/
abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
/-- The scratch operand: a whole scoped buffer of the kernel's own, passed beside the windows. -/
abbrev scM0_0 : Memref sig .tc .vmem S512x1024 .f32 := Memref.whole cc0_scratch0
/-- The scratch the kernel carries between points, as a view: what it holds is stated through it. -/
abbrev VS0_0 : View sig .tc .vmem S512x1024 .f32 := scM0_0.view

/-- The core's scoped buffers that are neither a staging buffer of this region nor its scratch (the other region's
    staging buffers), each whole at some contents: the body never touches them. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The region invariant of the class with the scratch operand as a memref owned at some contents, beside the
    scoped buffers the body never touches and the generator register. -/
theorem PhiA0_eq (c : Dev nD) :
    (Pipeline.ΦA spec0 c : sProp 𝕄)
      = iprop(iprop((∃ d, owns (c : Thread nD τ) scM0_0 fullShare d) ∗ restS0 (F := F) c) ∗ (∃ r, prngReg c r)) := by
  unfold Pipeline.ΦA restS0; rw [scopedRest0_eq]; simp only [scM0_0, owns_whole]; try rfl

/-! ## The kernel body on any whole memrefs: a subtype the run finds -/

-- (the run's proof term is large: the definition's epilogue walks it past the default budget)
set_option maxHeartbeats 1000000 in
/-- What the body's stores leave in the output's staging memref and in the scratch, as pieces (last first) AT THE FIRST
    POINT (the `scf.if` taken: the scratch is zero-filled first), WITH the proof that on whole memrefs — the inputs' at their
    contents, the output's and the scratch at anything — the body runs to the continuation holding the inputs' as they
    were and the output's buffer and the scratch with their pieces written. The pieces are the witness the run finds. -/
noncomputable def kernelRun0_A (c : Dev nD) (i : grid0.Coords) (arg1 : Memref sig .tc .vmem S1024x512 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (hc0 : cond0_0 i)
    (x0 : Vec F S1024x512 .bf16) (x1 : Vec F S1024x1024 .bf16) :
    Σ' (L2 : List (View.Piece (Elt F) S512x1024 .f32)), { LS0 : List (View.Piece (Elt F) S512x1024 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__t_kernel i arg1 harg1 arg2 harg2 arg3 harg3 arg4 harg4) K } := by
  refine ⟨?_, ?_, fun E K => ?run⟩
  case run =>
    simp only [cc0__t_kernel_eq_skeleton]; unfold cc0__t_kernel_skel
    unfold owns
    iintro ⟨⟨%f0, %hf0, H0⟩, ⟨%f1, %hf1, H1⟩, ⟨%d2, %f2, -, H2⟩, ⟨%ds0, %fs0, -, HS0⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

-- (the run's proof term is large: the definition's epilogue walks it past the default budget)
set_option maxHeartbeats 1000000 in
/-- What the body's stores leave in the output's staging memref and in the scratch, as pieces (last first) AT A LATER
    POINT (the `scf.if` not taken), WITH the proof that on whole memrefs — the inputs' at their contents, the output's at
    anything, the scratch at the contents `xs0` the point before left — the body runs to the continuation holding the
    inputs' as they were and the output's buffer and the scratch with their pieces written. -/
noncomputable def kernelRun0_B (c : Dev nD) (i : grid0.Coords) (arg1 : Memref sig .tc .vmem S1024x512 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (hc0 : ¬cond0_0 i)
    (x0 : Vec F S1024x512 .bf16) (x1 : Vec F S1024x1024 .bf16) (xs0 : Vec F S512x1024 .f32) :
    Σ' (L2 : List (View.Piece (Elt F) S512x1024 .f32)), { LS0 : List (View.Piece (Elt F) S512x1024 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__t_kernel i arg1 harg1 arg2 harg2 arg3 harg3 arg4 harg4) K } := by
  refine ⟨?_, ?_, fun E K => ?run⟩
  case run =>
    simp only [cc0__t_kernel_eq_skeleton]; unfold cc0__t_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Hand

end
-- ==== Proof.BR0.lean ====
/- The body half of the frame proof of pallas_call 0, at the buffer contents `V` the region is entered with: each window's
   block, what the two control cases leave in the output's staging buffer and in the scratch the body carries between
   points, these contents point by point (`outsAt0`), the region invariant naming the scratch's contents (`PhiS0`), the
   proof data, the body obligation, and the invariant's entry and exit. -/
import proofs.«142103_j4440996184607_1_alg».proof.Proof.BR0Run
import Idealize.ShloMosaic.Lib.Pipeline.Value

-- membership in a rectangle of large extents: the elaborator's structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the output's buffer and in the scratch -/

/-- The first point's pieces for the output tile its block, so they cover it. -/
theorem cover0_A_2 (c : Dev nD) (i : grid0.Coords) (arg1 : Memref sig .tc .vmem S1024x512 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (hc0 : cond0_0 i)
    (x0 : Vec F S1024x512 .bf16) (x1 : Vec F S1024x1024 .bf16) (y : S512x1024.Idx) :
    ∃ pc ∈ (kernelRun0_A c i arg1 harg1 arg2 harg2 arg3 harg3 arg4 harg4 hc0 x0 x1).1, y ∈ pc.1.set :=
  View.cover_of_tiledL (kernelRun0_A c i arg1 harg1 arg2 harg2 arg3 harg3 arg4 harg4 hc0 x0 x1).1 S512x1024.size (by sl_kernel_rfl) y

/-- What the first point leaves in the output's staging buffer: its pieces read back over junk. -/
def out0_A_2 (c : Dev nD) (i : grid0.Coords) (arg1 : Memref sig .tc .vmem S1024x512 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (hc0 : cond0_0 i)
    (x0 : Vec F S1024x512 .bf16) (x1 : Vec F S1024x1024 .bf16) : Vec F S512x1024 .f32 :=
  VO0_2.read (Elt F) (VO0_2.writes (Elt F) VO0_2.junk (kernelRun0_A c i arg1 harg1 arg2 harg2 arg3 harg3 arg4 harg4 hc0 x0 x1).1)

/-- The first point's pieces for the scratch cover it. -/
theorem scover0_A_0 (c : Dev nD) (i : grid0.Coords) (arg1 : Memref sig .tc .vmem S1024x512 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (hc0 : cond0_0 i)
    (x0 : Vec F S1024x512 .bf16) (x1 : Vec F S1024x1024 .bf16) (y : S512x1024.Idx) :
    ∃ pc ∈ (kernelRun0_A c i arg1 harg1 arg2 harg2 arg3 harg3 arg4 harg4 hc0 x0 x1).2.1, y ∈ pc.1.set :=
  View.cover_of_tiledL (kernelRun0_A c i arg1 harg1 arg2 harg2 arg3 harg3 arg4 harg4 hc0 x0 x1).2.1 S512x1024.size (by sl_kernel_rfl) y

/-- What the first point leaves in the scratch: its pieces read back over junk. -/
def sout0_A_0 (c : Dev nD) (i : grid0.Coords) (arg1 : Memref sig .tc .vmem S1024x512 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (hc0 : cond0_0 i)
    (x0 : Vec F S1024x512 .bf16) (x1 : Vec F S1024x1024 .bf16) : Vec F S512x1024 .f32 :=
  VS0_0.read (Elt F) (VS0_0.writes (Elt F) VS0_0.junk (kernelRun0_A c i arg1 harg1 arg2 harg2 arg3 harg3 arg4 harg4 hc0 x0 x1).2.1)

/-- A later point's pieces for the output tile its block, so they cover it. -/
theorem cover0_B_2 (c : Dev nD) (i : grid0.Coords) (arg1 : Memref sig .tc .vmem S1024x512 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (hc0 : ¬cond0_0 i)
    (x0 : Vec F S1024x512 .bf16) (x1 : Vec F S1024x1024 .bf16) (xs0 : Vec F S512x1024 .f32) (y : S512x1024.Idx) :
    ∃ pc ∈ (kernelRun0_B c i arg1 harg1 arg2 harg2 arg3 harg3 arg4 harg4 hc0 x0 x1 xs0).1, y ∈ pc.1.set :=
  View.cover_of_tiledL (kernelRun0_B c i arg1 harg1 arg2 harg2 arg3 harg3 arg4 harg4 hc0 x0 x1 xs0).1 S512x1024.size (by sl_kernel_rfl) y

/-- What a later point leaves in the output's staging buffer: its pieces read back over junk. -/
def out0_B_2 (c : Dev nD) (i : grid0.Coords) (arg1 : Memref sig .tc .vmem S1024x512 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (hc0 : ¬cond0_0 i)
    (x0 : Vec F S1024x512 .bf16) (x1 : Vec F S1024x1024 .bf16) (xs0 : Vec F S512x1024 .f32) : Vec F S512x1024 .f32 :=
  VO0_2.read (Elt F) (VO0_2.writes (Elt F) VO0_2.junk (kernelRun0_B c i arg1 harg1 arg2 harg2 arg3 harg3 arg4 harg4 hc0 x0 x1 xs0).1)

/-- A later point's pieces for the scratch cover it. -/
theorem scover0_B_0 (c : Dev nD) (i : grid0.Coords) (arg1 : Memref sig .tc .vmem S1024x512 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (hc0 : ¬cond0_0 i)
    (x0 : Vec F S1024x512 .bf16) (x1 : Vec F S1024x1024 .bf16) (xs0 : Vec F S512x1024 .f32) (y : S512x1024.Idx) :
    ∃ pc ∈ (kernelRun0_B c i arg1 harg1 arg2 harg2 arg3 harg3 arg4 harg4 hc0 x0 x1 xs0).2.1, y ∈ pc.1.set :=
  View.cover_of_tiledL (kernelRun0_B c i arg1 harg1 arg2 harg2 arg3 harg3 arg4 harg4 hc0 x0 x1 xs0).2.1 S512x1024.size (by sl_kernel_rfl) y

/-- What a later point leaves in the scratch: its pieces read back over junk. -/
def sout0_B_0 (c : Dev nD) (i : grid0.Coords) (arg1 : Memref sig .tc .vmem S1024x512 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (hc0 : ¬cond0_0 i)
    (x0 : Vec F S1024x512 .bf16) (x1 : Vec F S1024x1024 .bf16) (xs0 : Vec F S512x1024 .f32) : Vec F S512x1024 .f32 :=
  VS0_0.read (Elt F) (VS0_0.writes (Elt F) VS0_0.junk (kernelRun0_B c i arg1 harg1 arg2 harg2 arg3 harg3 arg4 harg4 hc0 x0 x1 xs0).2.1)

/-! ## What the output's buffer and the scratch hold after each point -/

/-- The branch is taken at the first point. -/
theorem hcond0_0_zero (hn : 0 < cfg0.N) : cond0_0 (grid0.coords ⟨0, hn⟩) := (hcond0_0 ⟨0, hn⟩).mpr (Nat.zero_mod _)
/-- The branch is not taken at any later point. -/
theorem hcond0_0_succ (n : ℕ) (hn : n + 1 < cfg0.N) : ¬cond0_0 (grid0.coords ⟨n + 1, hn⟩) := fun h => by
  have h1 := (hcond0_0 ⟨n + 1, hn⟩).mp h
  have hN : n + 1 < 8 := lt_of_lt_of_eq hn (show cfg0.N = 8 from N_0)
  (try dsimp only at h1); omega

/-- THE ACCUMULATION. What the output's staging buffer and the scratch hold after the body at position `n` (a pair: the
    output's buffer, then the scratch): the first point's case run at the point's memrefs and input blocks; a later
    point's case run over what the point before left in the scratch. -/
def outsAt0 (c : Dev nD) : (n : ℕ) → n < cfg0.N → Vec F S512x1024 .f32 × Vec F S512x1024 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) (hcond0_0_zero hn) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) (hcond0_0_zero hn) (iblk0 V c 0 ⟨0, hn⟩) (iblk0 V c 1 ⟨0, hn⟩))
  | n + 1, hn => (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (hcond0_0_succ n hn) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (hcond0_0_succ n hn) (iblk0 V c 0 ⟨n + 1, hn⟩) (iblk0 V c 1 ⟨n + 1, hn⟩) (outsAt0 c n (Nat.lt_of_succ_lt hn)).2)

/-- `outsAt0` at the first point: that case's contents. -/
theorem outsAt0_A (c : Dev nD) (t : Fin cfg0.N) (h0 : t.val % 8 = 0) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (iblk0 V c 0 t) (iblk0 V c 1 t)) := by
  obtain ⟨n, hn⟩ := t
  cases n with
  | zero => exact rfl
  | succ n => exact (by exfalso; have hN : n + 1 < 8 := lt_of_lt_of_eq hn (show cfg0.N = 8 from N_0); (try dsimp only at h0); omega)

/-- `outsAt0` at a later point: that case's contents, over what the point before left. -/
theorem outsAt0_B (c : Dev nD) (t : Fin cfg0.N) (h0 : ¬t.val % 8 = 0) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact rfl

/-- The region invariant before position `n`: before the first point the class's (every scratch at anything);
    afterwards the scratch at what the point before left in it, beside the scoped buffers the body never touches and the
    generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restS0 (F := F) c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the carried scratch at that point's contents. -/
theorem PhiS0_succ (c : Dev nD) (n : ℕ) (hn : n < cfg0.N) :
    PhiS0 V c (n + 1) hn = iprop(iprop(owns (c : Thread nD τ) scM0_0 fullShare ((outsAt0 V c n hn).2) ∗ restS0 (F := F) c) ∗ (∃ r, prngReg c r)) := rfl

/-- Before a point that is not the first: the carried scratch at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ restS0 (F := F) c) ∗ (∃ r, prngReg c r)) := by
  cases n with
  | zero => exact absurd rfl hz
  | succ n => rfl

/-! ## The pipeline's proof data -/

/-- The proof data of pipeline 0 on core `c`: the arrays as the region finds them (`V`); after the body at point `t`
    each input's buffer at its block and the output's at `outsAt0`'s first component; the invariant `PhiS0`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

/-- The proof data's arrays are the region-entry contents (the definition projected, by `dsimp`). -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns (no window is idle anywhere: each buffer at what the body leaves). -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 4800000 in
/-- The body at the first point: the inputs' memrefs hold their blocks; the invariant hands the body the scratch at
    anything and takes it back at this point's contents; the output's buffer is covered by the body's last store. -/
theorem sound_body0_A (c : Dev nD) (t : Fin cfg0.N) (h0 : t.val % 8 = 0) :
    bodyPre0 V c t ⊢ wp frame (wpE (defs₀ (F := F)) Variants.none c none) Set.univ (bodyAt0 t) (fun _ => bodyPost0 V c t) := by
  have hN : t.val < 8 := lt_of_lt_of_eq t.isLt (show cfg0.N = 8 from N_0)
  have hz : t.val = 0 := by omega
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [PhiS0_castSucc V c t, PhiS0_zero V c _ _ hz, PhiA0_eq]
  rw [after0_0, after0_1, after0_2]
  rw [outsAt0_A V c t h0]
  unfold out0_A_2 sout0_A_0; (try dsimp only)
  iintro ⟨⟨⟨HS0, Hr⟩, Hg⟩, Ho, ⟨%d0, H0⟩, ⟨%d1, H1⟩, ⟨%d2, H2⟩⟩
  iapply ((kernelRun0_A c (grid0.coords t) _ _ _ _ _ _ _ _ ((hcond0_0 t).mpr h0) (iblk0 V c 0 t) (iblk0 V c 1 t)).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover0_A_0 c _ _ _ _ _ _ _ _ _ _ _ _)
      iexact Hr
    iexact Hg
  isplitl [Ho]; · iexact Ho
  isplitl [H0]; · iexact H0
  isplitl [H1]; · iexact H1
  unfold owns; iexists _; isplitr
  swap; · iexact H2
  ipureintro; exact View.read_writes_of_cover _ _ _ _ _ (cover0_A_2 c _ _ _ _ _ _ _ _ _ _ _ _)

set_option maxHeartbeats 4800000 in
/-- The body at a later point: the invariant hands the body the scratch at what the point before left. -/
theorem sound_body0_B (c : Dev nD) (t : Fin cfg0.N) (h0 : ¬t.val % 8 = 0) :
    bodyPre0 V c t ⊢ wp frame (wpE (defs₀ (F := F)) Variants.none c none) Set.univ (bodyAt0 t) (fun _ => bodyPost0 V c t) := by
  have hz : t.val ≠ 0 := fun h => h0 (by rw [h])
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [PhiS0_castSucc V c t, PhiS0_pos V c _ _ hz]
  rw [after0_0, after0_1, after0_2]
  rw [outsAt0_B V c t h0]
  unfold out0_B_2 sout0_B_0; (try dsimp only)
  iintro ⟨⟨⟨HS0, Hr⟩, Hg⟩, Ho, ⟨%d0, H0⟩, ⟨%d1, H1⟩, ⟨%d2, H2⟩⟩
  iapply ((kernelRun0_B c (grid0.coords t) _ _ _ _ _ _ _ _ (fun h => h0 ((hcond0_0 t).mp h)) (iblk0 V c 0 t) (iblk0 V c 1 t) _).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover0_B_0 c _ _ _ _ _ _ _ _ _ _ _ _ _)
      iexact Hr
    iexact Hg
  isplitl [Ho]; · iexact Ho
  isplitl [H0]; · iexact H0
  isplitl [H1]; · iexact H1
  unfold owns; iexists _; isplitr
  swap; · iexact H2
  ipureintro; exact View.read_writes_of_cover _ _ _ _ _ (cover0_B_2 c _ _ _ _ _ _ _ _ _ _ _ _ _)

/-- The body at any point: the closed form says which case the point is in. -/
theorem sound_body0 (c : Dev nD) (t : Fin cfg0.N) :
    bodyPre0 V c t ⊢ wp frame (wpE (defs₀ (F := F)) Variants.none c none) Set.univ (bodyAt0 t) (fun _ => bodyPost0 V c t) := by
  by_cases h0 : t.val % 8 = 0
  · exact sound_body0_A V c t h0
  · exact sound_body0_B V c t h0

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region (`ΦA`) is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives `ΦA` back: the carried scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 8 := N_0; omega)

/-! ## The contents as the body's payloads (for the value proof: plain equations) -/

/-- The first point leaves in the output's buffer the payload over the zero fill and the input blocks: the last store's
    payload is what the scratch then held, read back through the whole-shape rectangle. -/
theorem out0_A_2_eq (c : Dev nD) (i : grid0.Coords) (arg1 : Memref sig .tc .vmem S1024x512 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (hc0 : cond0_0 i)
    (x0 : Vec F S1024x512 .bf16) (x1 : Vec F S1024x1024 .bf16) :
    out0_A_2 c i arg1 harg1 arg2 harg2 arg3 harg3 arg4 harg4 hc0 x0 x1 = k0_pay2 (k0_pay1 (F := F)) x0 x1 := by
  have hz : (![0, 0] : Fin 2 → ℕ) = fun _ => 0 := by funext a; fin_cases a <;> rfl
  unfold out0_A_2
  rw [View.read_writes_eq_canon _ _ _ (cover0_A_2 c i arg1 harg1 arg2 harg2 arg3 harg3 arg4 harg4 hc0 x0 x1)]
  unfold kernelRun0_A; dsimp only
  sl_unfold_words
  refine (View.canon_cons_unit_zero hz _ _ _).trans ?_
  simp only [View.readCov_cons_toLoadRect, View.readAt_eq_ld, harg1.read_unread, harg2.read_unread, harg4.read_unread, View.ld_unit_zero (S := S1024x512) hz, View.ld_unit_zero (S := S1024x1024) hz, View.ld_unit_zero (S := S512x1024) hz]

/-- The first point leaves the same in the scratch. -/
theorem sout0_A_0_eq (c : Dev nD) (i : grid0.Coords) (arg1 : Memref sig .tc .vmem S1024x512 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (hc0 : cond0_0 i)
    (x0 : Vec F S1024x512 .bf16) (x1 : Vec F S1024x1024 .bf16) :
    sout0_A_0 c i arg1 harg1 arg2 harg2 arg3 harg3 arg4 harg4 hc0 x0 x1 = k0_pay2 (k0_pay1 (F := F)) x0 x1 := by
  have hz : (![0, 0] : Fin 2 → ℕ) = fun _ => 0 := by funext a; fin_cases a <;> rfl
  unfold sout0_A_0
  rw [View.read_writes_eq_canon _ _ _ (scover0_A_0 c i arg1 harg1 arg2 harg2 arg3 harg3 arg4 harg4 hc0 x0 x1)]
  unfold kernelRun0_A; dsimp only
  sl_unfold_words
  refine (View.canon_cons_unit_zero hz _ _ _).trans ?_
  simp only [View.readCov_cons_toLoadRect, View.readAt_eq_ld, harg1.read_unread, harg2.read_unread, harg4.read_unread, View.ld_unit_zero (S := S1024x512) hz, View.ld_unit_zero (S := S1024x1024) hz, View.ld_unit_zero (S := S512x1024) hz]

/-- A later point leaves in the output's buffer the payload over what the scratch held and the input blocks. -/
theorem out0_B_2_eq (c : Dev nD) (i : grid0.Coords) (arg1 : Memref sig .tc .vmem S1024x512 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (hc0 : ¬cond0_0 i)
    (x0 : Vec F S1024x512 .bf16) (x1 : Vec F S1024x1024 .bf16) (xs0 : Vec F S512x1024 .f32) :
    out0_B_2 c i arg1 harg1 arg2 harg2 arg3 harg3 arg4 harg4 hc0 x0 x1 xs0 = k0_pay2 xs0 x0 x1 := by
  have hz : (![0, 0] : Fin 2 → ℕ) = fun _ => 0 := by funext a; fin_cases a <;> rfl
  unfold out0_B_2
  rw [View.read_writes_eq_canon _ _ _ (cover0_B_2 c i arg1 harg1 arg2 harg2 arg3 harg3 arg4 harg4 hc0 x0 x1 xs0)]
  unfold kernelRun0_B; dsimp only
  sl_unfold_words
  refine (View.canon_cons_unit_zero hz _ _ _).trans ?_
  simp only [View.readCov_cons_toLoadRect, View.readAt_eq_ld, harg1.read_unread, harg2.read_unread, harg4.read_unread, View.ld_unit_zero (S := S1024x512) hz, View.ld_unit_zero (S := S1024x1024) hz, View.ld_unit_zero (S := S512x1024) hz]

/-- A later point leaves the same in the scratch. -/
theorem sout0_B_0_eq (c : Dev nD) (i : grid0.Coords) (arg1 : Memref sig .tc .vmem S1024x512 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (hc0 : ¬cond0_0 i)
    (x0 : Vec F S1024x512 .bf16) (x1 : Vec F S1024x1024 .bf16) (xs0 : Vec F S512x1024 .f32) :
    sout0_B_0 c i arg1 harg1 arg2 harg2 arg3 harg3 arg4 harg4 hc0 x0 x1 xs0 = k0_pay2 xs0 x0 x1 := by
  have hz : (![0, 0] : Fin 2 → ℕ) = fun _ => 0 := by funext a; fin_cases a <;> rfl
  unfold sout0_B_0
  rw [View.read_writes_eq_canon _ _ _ (scover0_B_0 c i arg1 harg1 arg2 harg2 arg3 harg3 arg4 harg4 hc0 x0 x1 xs0)]
  unfold kernelRun0_B; dsimp only
  sl_unfold_words
  refine (View.canon_cons_unit_zero hz _ _ _).trans ?_
  simp only [View.readCov_cons_toLoadRect, View.readAt_eq_ld, harg1.read_unread, harg2.read_unread, harg4.read_unread, View.ld_unit_zero (S := S1024x512) hz, View.ld_unit_zero (S := S1024x1024) hz, View.ld_unit_zero (S := S512x1024) hz]

/-- After the first point the output's buffer and the scratch both hold the payload over the zero fill and the
    point's input blocks. -/
theorem outsAt0_zero (c : Dev nD) (h : 0 < cfg0.N) :
    outsAt0 V c 0 h = (k0_pay2 (k0_pay1 (F := F)) (iblk0 V c 0 ⟨0, h⟩) (iblk0 V c 1 ⟨0, h⟩), k0_pay2 (k0_pay1 (F := F)) (iblk0 V c 0 ⟨0, h⟩) (iblk0 V c 1 ⟨0, h⟩)) := by
  rw [outsAt0, out0_A_2_eq, sout0_A_0_eq]

/-- After a later point both hold the payload over what the scratch held after the point before and the point's input
    blocks. -/
theorem outsAt0_succ (c : Dev nD) (n : ℕ) (h : n + 1 < cfg0.N) :
    outsAt0 V c (n + 1) h = (k0_pay2 (outsAt0 V c n (Nat.lt_of_succ_lt h)).2 (iblk0 V c 0 ⟨n + 1, h⟩) (iblk0 V c 1 ⟨n + 1, h⟩), k0_pay2 (outsAt0 V c n (Nat.lt_of_succ_lt h)).2 (iblk0 V c 0 ⟨n + 1, h⟩) (iblk0 V c 1 ⟨n + 1, h⟩)) := by
  rw [outsAt0, out0_B_2_eq, sout0_B_0_eq]

end Cert.Kernel.Hand

end
-- ==== Proof.BR1.lean ====
/- The BODY half of the frame proof of region 1 (custom_call 1, `cc1__fused_kernel`), stated at a parameter `V`:
   the TensorCore's buffer contents when the region is entered. Each window's block at a point is read off its
   array in `V`; the four input windows' staging buffers hold their blocks at every point, fetched there or not;
   the body's one store covers the output window's staging buffer, so what the body leaves there is a closed
   function of the four input blocks; the proof data name exactly that, and the body obligation follows at a
   generic point. Written for any float instance. -/
import proofs.«142103_j4440996184607_1_alg».proof.Proof.Gen.Kernel.Launch
import proofs.«142103_j4440996184607_1_alg».proof.Proof.Gen.Kernel.Skeleton
import proofs.«142103_j4440996184607_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the elaborator's structural look recurses once per coordinate of
-- the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved;
    the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same of input window 1, whose block index is constant: it is fetched at the first point only, and holds
    that one block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same of input window 2. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- The same of input window 3, whose block index is constant. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole staging buffer -/

abbrev r1_0 : Rect S1024x512 := Rect.unit (s := S1024x512) ![0, 0] S1024x512.size inb_S1024x512_S1024x512_0_0
abbrev r1_1 : Rect S512x1024 := Rect.unit (s := S512x1024) ![0, 0] S512x1024.size inb_S512x1024_S512x1024_0_0
abbrev r1_2 : Rect S1024x1 := Rect.unit (s := S1024x1) ![0, 0] S1024x1.size inb_S1024x1_S1024x1_0_0
abbrev r1_3 : Rect S1024x1024 := Rect.unit (s := S1024x1024) ![0, 0] S1024x1024.size inb_S1024x1024_S1024x1024_0_0

/-! ## What the body leaves in the output window's buffer -/

/-- Window 4's staging buffer after the body, from the input windows' blocks: its one store as a piece, the
    payload the skeleton's. -/
def out1_4 (x0 : Vec F S1024x512 .bf16) (x1 : Vec F S512x1024 .bf16) (x2 : Vec F S1024x1 .f32) (x3 : Vec F S1024x1024 .bf16) : Vec F S1024x1024 .f32 :=
  View.canon [⟨r1_3, k1_pay1 (View.ld x0 r1_0) (View.ld x1 r1_1) (View.ld x2 r1_2) (View.ld x3 r1_3)⟩]

/-- The store tiles the buffer (checked by evaluation), so it covers it. -/
theorem cover1_4 (p0 : Vec F S1024x1024 .f32) (y : S1024x1024.Idx) :
    ∃ pc ∈ ([⟨r1_3, p0⟩] : List (View.Piece (Elt F) S1024x1024 .f32)), y ∈ pc.1.set :=
  View.cover_of_tiled [⟨r1_3, p0⟩] S1024x1024.size (by rfl) y

/-! ## The body's triple -/

set_option maxHeartbeats 1000000 in
/-- The kernel body on whole staging memrefs, the inputs' at read contents `xW` and the output's at anything, runs
    to the continuation holding the inputs' as they were and the output's at `out1_4` of the inputs': the printed
    function is its skeleton, which the symbolic executor runs. -/
theorem sound_kernel1 (c : Dev nD) (E : Set ℕ) (i : grid1.Coords) (arg1 : Memref sig .tc .vmem S1024x512 .bf16) (harg1 : arg1.IsWhole) (arg2 : Memref sig .tc .vmem S512x1024 .bf16) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1024 .f32) (harg5 : arg5.IsWhole)
    (x0 : Vec F S1024x512 .bf16) (x1 : Vec F S512x1024 .bf16) (x2 : Vec F S1024x1 .f32) (x3 : Vec F S1024x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__fused_kernel i arg1 harg1 arg2 harg2 arg3 harg3 arg4 harg4 arg5 harg5) K := by
  simp only [cc1__fused_kernel_eq_skeleton]; unfold cc1__fused_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core `c`: the arrays as the region finds them (`V`); after the body at point
    `t` each input's buffer at its block and the output's at `out1_4` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- The invariant is the same at every point, nothing is owed, every share is full. -/
theorem Φ_eq1 (c : Dev nD) (t : Fin (cfg1.N + 1)) : (dat1 V c).Φ t = Pipeline.ΦA spec1 c := rfl
theorem q_eq1 (c : Dev nD) (w : Fin cfg1.W) : (dat1 V c).q w = fullShare := rfl
theorem owed_eq1 (c : Dev nD) (t : Fin (cfg1.N + 1)) : (dat1 V c).owed t = 0 := rfl

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.BRun.lean ====
/- THE RUN of the whole program over the library's several-region launch theorem, for any float instance, and
   parametric in region 0's proof data: the buffer contents at every segment boundary as a fold from the launch
   memory (a host stretch: the contents after its operations; a region: its arrays at what its write-backs leave,
   every other buffer as entered), each argument array read back through the fold to its launch contents, every
   pipeline's proof data at its region's entry contents, a host segment per stretch and a region record per
   pallas_call over the thread state "every unscoped buffer at the boundary's contents, the generator register at
   some state, nothing owed", and the launch: every weakly fair execution terminates and every final memory holds
   every unscoped buffer at the last boundary's contents. Region 0's data enter through six facts: its arrays are
   the entry contents, its shares are full, it owes nothing, its body obligation, and its invariant at the first
   and after the last point is the class's (the scoped rest and the generator register). -/
import proofs.«142103_j4440996184607_1_alg».proof.Proof.BR1
import proofs.«142103_j4440996184607_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- region 0's proof data, at any entry contents
variable (dat0 : (V : (c : Dev nD) → (b : Ref sig .tc) → Buf (Elt F) ((c : Thread nD τ).loc b)) → (c : Dev nD) → Dat τ (Elt F) Unit ℕ (UR sig nD τ) ℕ cfg0 c)

/-! ## The buffer contents at each segment boundary: a fold through the program -/

/-- Core `c`'s buffers at launch. -/
abbrev W0 : Dev nD → Valuation τ sig (Elt F) := fun c b => (s₀ m ρ).mem ((c : Dev nD), b)
/-- After the first host stretch (the outlined norm function's operations). -/
abbrev W1 : Dev nD → Valuation τ sig (Elt F) := fun c => StableHlo.after hostOps0 (W0 m ρ c)
/-- After the second host stretch (region 0's entry). -/
abbrev W2 : Dev nD → Valuation τ sig (Elt F) := fun c => StableHlo.after hostOps0_1 (W1 m ρ c)
/-- The same read at the TensorCore's references (what region 0's proof data take). -/
abbrev V2 : (c : Dev nD) → (b : Ref sig .tc) → Buf (Elt F) ((c : Thread nD τ).loc b) := fun c b => W2 m ρ c b
/-- At region 0's exit: its arrays at what the pipeline leaves (the inputs as entered, the output's write-backs
    folded), every other buffer as entered. -/
def W3 (c : Dev nD) : Valuation τ sig (Elt F) :=
  Pipeline.withArrays spec0 c (W2 m ρ c) fun w => (dat0 (V2 m ρ) c).arrAt w cfg0.N
theorem W3_arr (c : Dev nD) (w : Fin cfg0.W) :
    W3 m ρ dat0 c (Proc.devRef .tc (Pipeline.arrRef spec0 w)) = (dat0 (V2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ dat0 c (Proc.devRef .tc b) = W2 m ρ c (Proc.devRef .tc b) := by
  unfold W3; exact Pipeline.withArrays_of_ne spec0 c _ _ b hb
/-- The same read at the TensorCore's references (region 0's exit contents). -/
abbrev V3 : (c : Dev nD) → (b : Ref sig .tc) → Buf (Elt F) ((c : Thread nD τ).loc b) := fun c b => W3 m ρ dat0 c b
/-- At region 0's exit each of its arrays holds what the pipeline leaves and every other buffer what it held at
    entry. -/
theorem hF0 (c : Dev nD) (w : Fin cfg0.W) : (dat0 (V2 m ρ) c).arrAt w cfg0.N = V3 m ρ dat0 c (Pipeline.arrRef spec0 w) :=
  (W3_arr m ρ dat0 c w).symm
theorem hrest0 (c : Dev nD) : ∀ b, b ∉ Finset.univ.image (Pipeline.arrRef spec0) → V3 m ρ dat0 c b = V2 m ρ c b :=
  fun b hb => W3_of_ne m ρ dat0 c b fun w e => hb (Finset.mem_image.mpr ⟨w, Finset.mem_univ _, e⟩)

/-- After the third host stretch (region 1's entry). -/
abbrev W4 : Dev nD → Valuation τ sig (Elt F) := fun c => StableHlo.after hostOps1 (W3 m ρ dat0 c)
/-- The same read at the TensorCore's references (what region 1's proof data take). -/
abbrev V4 : (c : Dev nD) → (b : Ref sig .tc) → Buf (Elt F) ((c : Thread nD τ).loc b) := fun c b => W4 m ρ dat0 c b
/-- At region 1's exit: its arrays at what the pipeline leaves, every other buffer as entered. -/
def W5 (c : Dev nD) : Valuation τ sig (Elt F) :=
  Pipeline.withArrays spec1 c (W4 m ρ dat0 c) fun w => (dat1 (V4 m ρ dat0) c).arrAt w cfg1.N
theorem W5_arr (c : Dev nD) (w : Fin cfg1.W) :
    W5 m ρ dat0 c (Proc.devRef .tc (Pipeline.arrRef spec1 w)) = (dat1 (V4 m ρ dat0) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ dat0 c (Proc.devRef .tc b) = W4 m ρ dat0 c (Proc.devRef .tc b) := by
  unfold W5; exact Pipeline.withArrays_of_ne spec1 c _ _ b hb
/-- The same read at the TensorCore's references (region 1's exit contents). -/
abbrev V5 : (c : Dev nD) → (b : Ref sig .tc) → Buf (Elt F) ((c : Thread nD τ).loc b) := fun c b => W5 m ρ dat0 c b
theorem hF1 (c : Dev nD) (w : Fin cfg1.W) : (dat1 (V4 m ρ dat0) c).arrAt w cfg1.N = V5 m ρ dat0 c (Pipeline.arrRef spec1 w) :=
  (W5_arr m ρ dat0 c w).symm
theorem hrest1 (c : Dev nD) : ∀ b, b ∉ Finset.univ.image (Pipeline.arrRef spec1) → V5 m ρ dat0 c b = V4 m ρ dat0 c b :=
  fun b hb => W5_of_ne m ρ dat0 c b fun w e => hb (Finset.mem_image.mpr ⟨w, Finset.mem_univ _, e⟩)

/-! ### The arguments end as launched: no host operation writes one and none is a window's array of either region,
    so the fold at an argument's buffer walks back to the launch memory -/

theorem W5_main_arg0 (c : Dev nD) : W5 m ρ dat0 c (Proc.devRef .tc main_arg0) = m ((c : Thread nD τ).loc main_arg0) :=
  calc W5 m ρ dat0 c (Proc.devRef .tc main_arg0)
    _ = W4 m ρ dat0 c (Proc.devRef .tc main_arg0) := W5_of_ne m ρ dat0 c main_arg0 (by decide)
    _ = W3 m ρ dat0 c (Proc.devRef .tc main_arg0) := StableHlo.after_of_writes_sub hostOps1 _ hostOps1_writes (by decide)
    _ = W2 m ρ c (Proc.devRef .tc main_arg0) := W3_of_ne m ρ dat0 c main_arg0 (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl
theorem W5_main_arg1 (c : Dev nD) : W5 m ρ dat0 c (Proc.devRef .tc main_arg1) = m ((c : Thread nD τ).loc main_arg1) :=
  calc W5 m ρ dat0 c (Proc.devRef .tc main_arg1)
    _ = W4 m ρ dat0 c (Proc.devRef .tc main_arg1) := W5_of_ne m ρ dat0 c main_arg1 (by decide)
    _ = W3 m ρ dat0 c (Proc.devRef .tc main_arg1) := StableHlo.after_of_writes_sub hostOps1 _ hostOps1_writes (by decide)
    _ = W2 m ρ c (Proc.devRef .tc main_arg1) := W3_of_ne m ρ dat0 c main_arg1 (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl
theorem W5_main_arg2 (c : Dev nD) : W5 m ρ dat0 c (Proc.devRef .tc main_arg2) = m ((c : Thread nD τ).loc main_arg2) :=
  calc W5 m ρ dat0 c (Proc.devRef .tc main_arg2)
    _ = W4 m ρ dat0 c (Proc.devRef .tc main_arg2) := W5_of_ne m ρ dat0 c main_arg2 (by decide)
    _ = W3 m ρ dat0 c (Proc.devRef .tc main_arg2) := StableHlo.after_of_writes_sub hostOps1 _ hostOps1_writes (by decide)
    _ = W2 m ρ c (Proc.devRef .tc main_arg2) := W3_of_ne m ρ dat0 c main_arg2 (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V2 m ρ) c
  | ⟨1, _⟩ => fun c => dat1 (V4 m ρ dat0) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- The same before the first region: no wait has been recorded yet (the launch deals the dues at the empty set and
    a host stretch records none), which is what lets region 0 be entered whatever bound its proof data put on the
    recorded pairs. -/
abbrev R₀ (c : Dev nD) : sProp 𝕄 := iprop((∃ r, prngReg c r) ∗ owes (c : Thread nD τ) (0 : CellTallies nD τ sig Unit) ∅)
/-- A host stretch as a segment over the unscoped references from the contents `W`, the rest `Rr` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) (Rr : Dev nD → sProp 𝕄) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

/-- Proof data that owe nothing before the first point take the core's dues at nothing, no wait recorded, -/
theorem owesAt_entry {cfg : Cfg sig Λ₀} {c : Dev nD} (dat : Dat τ (Elt F) Unit ℕ (UR sig nD τ) ℕ cfg c) (ho : dat.owed 0 = 0) :
    (owes (c : Thread nD τ) (0 : CellTallies nD τ sig Unit) ∅ : sProp 𝕄) ⊢ dat.owesAt () 0 := by
  unfold Pipeline.Dat.owesAt Pipeline.owesWithin
  rw [ho]
  iintro HO; iexists ∅; isplitr
  · ipureintro; simp
  iexact HO
/-- and proof data that owe nothing after the last point give them back at nothing, whatever was recorded. -/
theorem owesAt_exit {cfg : Cfg sig Λ₀} {c : Dev nD} (dat : Dat τ (Elt F) Unit ℕ (UR sig nD τ) ℕ cfg c) (ho : dat.owed (Fin.last cfg.N) = 0) :
    dat.owesAt () (Fin.last cfg.N) ⊢ (iprop(∃ W, owes (c : Thread nD τ) (0 : CellTallies nD τ sig Unit) W) : sProp 𝕄) := by
  unfold Pipeline.Dat.owesAt Pipeline.owesWithin
  rw [ho]
  iintro ⟨%W, -, HO⟩; iexists W; iexact HO

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W5 m ρ dat0 c) ∗ ∃ r, prngReg c r)

/-! ## The regions as segments -/

set_option backward.isDefEq.respectTransparency.types false in
/-- REGION 0 over the thread state: entered from every unscoped buffer at `W2`, left at `W3`. Its arrays split out
    of the unscoped buffers and put back at the exit contents; the generator register into the class invariant and
    out (through the given facts about region 0's invariant at the first and after the last point); nothing owed;
    no semaphore of the kernel's own. -/
def reg0 (hA0 : ∀ (V : (c : Dev nD) → (b : Ref sig .tc) → Buf (Elt F) ((c : Thread nD τ).loc b)) (c : Dev nD) (w : Fin cfg0.W), (dat0 V c).A w = V c (Pipeline.arrRef spec0 w))
    (hq0 : ∀ (V : (c : Dev nD) → (b : Ref sig .tc) → Buf (Elt F) ((c : Thread nD τ).loc b)) (c : Dev nD) (w : Fin cfg0.W), (dat0 V c).q w = fullShare)
    (howed0 : ∀ (V : (c : Dev nD) → (b : Ref sig .tc) → Buf (Elt F) ((c : Thread nD τ).loc b)) (c : Dev nD) (t : Fin (cfg0.N + 1)), (dat0 V c).owed t = 0)
    (hbody0 : ∀ (V : (c : Dev nD) → (b : Ref sig .tc) → Buf (Elt F) ((c : Thread nD τ).loc b)) (c : Dev nD), BodyObligation (dat0 V c) (defs₀ (F := F)) Variants.none () Set.univ)
    (hin0 : ∀ (V : (c : Dev nD) → (b : Ref sig .tc) → Buf (Elt F) ((c : Thread nD τ).loc b)) (c : Dev nD), (Pipeline.ΦA spec0 c : sProp 𝕄) ⊢ (dat0 V c).Φ 0)
    (hout0 : ∀ (V : (c : Dev nD) → (b : Ref sig .tc) → Buf (Elt F) ((c : Thread nD τ).loc b)) (c : Dev nD), (dat0 V c).Φ (Fin.last cfg0.N) ⊢ (Pipeline.ΦA spec0 c : sProp 𝕄)) :
    Pipeline.RegionSeg (pcfgs (F := F)) adm (pdats m ρ dat0) () defs₀ 𝒱₀ L lv 0 where
  win := launch0.win.to₀
  block_pos := launch0.block_pos
  stage_whole := launch0.stage_whole
  K := PEmpty
  osem k := k.elim
  ho := Pipeline.OwnSemFacts.none _
  hbody c := (hbody0 (V2 m ρ) c).loose
  hwaits := Pipeline.hwaits_of_owed_zero _ _ _ _ L lv 0 fun c t => howed0 (V2 m ρ) c t
  pre c := iprop(StableHlo.held (c : Thread nD τ) (Pipeline.ucRefs τ sig) (W2 m ρ c) ∗ R₀ c)
  post c := iprop(StableHlo.held (c : Thread nD τ) (Pipeline.ucRefs τ sig) (W3 m ρ dat0 c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := Pipeline.arrays_of_unscopedBufs (p := 0) (pcfgs (F := F)) adm (pdats m ρ dat0) launch0.win launch0.arr_whole c
      ((pdats m ρ dat0 0 c).share_full fun w => hq0 (V2 m ρ) c w) (V2 m ρ c) fun w => hA0 (V2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_entry (dat0 (V2 m ρ) c) (howed0 (V2 m ρ) c 0)); iexact HO
    isplitl [Hp]; · iexact Hp
    iexact Hrest
  hin c := by
    refine BIBase.Entails.trans ?_ (hin0 (V2 m ρ) c)
    unfold Pipeline.ΦA
    iintro ⟨Hp, -, Hr⟩
    isplitl [Hr]; · iexact Hr
    iexact Hp
  hout c := by
    rw [Pipeline.ownSems0_none]
    refine BIBase.Entails.trans (hout0 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ dat0) ((pdats m ρ dat0 0 c).share_full fun w => hq0 (V2 m ρ) c w)
      (V2 m ρ c) (V3 m ρ dat0 c) ((pdats m ρ dat0 0 c).arrAt · cfg0.N) (hF0 m ρ dat0 c) (hrest0 m ρ dat0 c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_exit (dat0 (V2 m ρ) c) (howed0 (V2 m ρ) c (Fin.last cfg0.N))); iexact HO

set_option backward.isDefEq.respectTransparency.types false in
/-- REGION 1 over the thread state: entered from every unscoped buffer at `W4`, left at `W5` (what the launch
    reads at the end). Its arrays split out of the unscoped buffers and put back at the exit contents; the generator
    register into the class invariant and out; nothing owed; no semaphore of the kernel's own. -/
def reg1 : Pipeline.RegionSeg (pcfgs (F := F)) adm (pdats m ρ dat0) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ dat0) c).loose
  hwaits := Pipeline.hwaits_of_owed_zero _ _ _ _ L lv 1 fun c t => owed_eq1 (V4 m ρ dat0) c t
  pre c := iprop(StableHlo.held (c : Thread nD τ) (Pipeline.ucRefs τ sig) (W4 m ρ dat0 c) ∗ R c)
  post c := iprop(Tₙ m ρ dat0 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V4 m ρ dat0 c)
  hentry c := by
    rw [Pipeline.ownSems0_none]
    have hsplit := Pipeline.arrays_of_unscopedBufs (p := 1) (pcfgs (F := F)) adm (pdats m ρ dat0) launch1.win launch1.arr_whole c
      ((pdats m ρ dat0 1 c).share_full fun w => q_eq1 (V4 m ρ dat0) c w) (V4 m ρ dat0 c) fun w => A_eq1 (V4 m ρ dat0) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ dat0 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ dat0 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ dat0) ((pdats m ρ dat0 1 c).share_full fun w => q_eq1 (V4 m ρ dat0) c w)
      (V4 m ρ dat0 c) (V5 m ρ dat0 c) ((pdats m ρ dat0 1 c).arrAt · cfg1.N) (hF1 m ρ dat0 c) (hrest1 m ρ dat0 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's 5 segments in order: a host segment per stretch from its boundary's contents, a region per
    pallas_call. -/
abbrev segs (hA0 : ∀ (V : (c : Dev nD) → (b : Ref sig .tc) → Buf (Elt F) ((c : Thread nD τ).loc b)) (c : Dev nD) (w : Fin cfg0.W), (dat0 V c).A w = V c (Pipeline.arrRef spec0 w))
    (hq0 : ∀ (V : (c : Dev nD) → (b : Ref sig .tc) → Buf (Elt F) ((c : Thread nD τ).loc b)) (c : Dev nD) (w : Fin cfg0.W), (dat0 V c).q w = fullShare)
    (howed0 : ∀ (V : (c : Dev nD) → (b : Ref sig .tc) → Buf (Elt F) ((c : Thread nD τ).loc b)) (c : Dev nD) (t : Fin (cfg0.N + 1)), (dat0 V c).owed t = 0)
    (hbody0 : ∀ (V : (c : Dev nD) → (b : Ref sig .tc) → Buf (Elt F) ((c : Thread nD τ).loc b)) (c : Dev nD), BodyObligation (dat0 V c) (defs₀ (F := F)) Variants.none () Set.univ)
    (hin0 : ∀ (V : (c : Dev nD) → (b : Ref sig .tc) → Buf (Elt F) ((c : Thread nD τ).loc b)) (c : Dev nD), (Pipeline.ΦA spec0 c : sProp 𝕄) ⊢ (dat0 V c).Φ 0)
    (hout0 : ∀ (V : (c : Dev nD) → (b : Ref sig .tc) → Buf (Elt F) ((c : Thread nD τ).loc b)) (c : Dev nD), (dat0 V c).Φ (Fin.last cfg0.N) ⊢ (Pipeline.ΦA spec0 c : sProp 𝕄)) :
    List (Pipeline.Seg (pcfgs (F := F)) adm (pdats m ρ dat0) () defs₀ 𝒱₀ L lv) :=
  [ .host (hseg hostOps0 hostOps0_sub hostOps0_fresh (W0 m ρ) R₀),
    .host (hseg hostOps0_1 hostOps0_1_sub hostOps0_1_fresh (W1 m ρ) R₀),
    .region (reg0 m ρ dat0 hA0 hq0 howed0 hbody0 hin0 hout0),
    .host (hseg hostOps1 hostOps1_sub hostOps1_fresh (W3 m ρ dat0) R),
    .region (reg1 m ρ dat0) ]

set_option backward.isDefEq.respectTransparency.types false in
/-- THE RUN, at any post `Q` that follows from "every unscoped buffer of every core holds the last boundary's
    contents": at the compiled mesh, from any memory with zero counters, every weakly fair execution of the program
    on the TensorCores terminates, nothing faulting, and every final state satisfies `Q`: the launch theorem over
    the segments, the last thread state read against the final state. -/
theorem run_post (hA0 : ∀ (V : (c : Dev nD) → (b : Ref sig .tc) → Buf (Elt F) ((c : Thread nD τ).loc b)) (c : Dev nD) (w : Fin cfg0.W), (dat0 V c).A w = V c (Pipeline.arrRef spec0 w))
    (hq0 : ∀ (V : (c : Dev nD) → (b : Ref sig .tc) → Buf (Elt F) ((c : Thread nD τ).loc b)) (c : Dev nD) (w : Fin cfg0.W), (dat0 V c).q w = fullShare)
    (howed0 : ∀ (V : (c : Dev nD) → (b : Ref sig .tc) → Buf (Elt F) ((c : Thread nD τ).loc b)) (c : Dev nD) (t : Fin (cfg0.N + 1)), (dat0 V c).owed t = 0)
    (hbody0 : ∀ (V : (c : Dev nD) → (b : Ref sig .tc) → Buf (Elt F) ((c : Thread nD τ).loc b)) (c : Dev nD), BodyObligation (dat0 V c) (defs₀ (F := F)) Variants.none () Set.univ)
    (hin0 : ∀ (V : (c : Dev nD) → (b : Ref sig .tc) → Buf (Elt F) ((c : Thread nD τ).loc b)) (c : Dev nD), (Pipeline.ΦA spec0 c : sProp 𝕄) ⊢ (dat0 V c).Φ 0)
    (hout0 : ∀ (V : (c : Dev nD) → (b : Ref sig .tc) → Buf (Elt F) ((c : Thread nD τ).loc b)) (c : Dev nD), (dat0 V c).Φ (Fin.last cfg0.N) ⊢ (Pipeline.ΦA spec0 c : sProp 𝕄))
    {Q : PUnit × MemSt nD τ sig (Elt F) → Prop}
    (hQ : ∀ s : MemSt nD τ sig (Elt F), (∀ c : Dev nD, ∀ b ∈ Pipeline.ucRefs τ sig, s.mem (((c : Thread nD τ)).1, b) = W5 m ρ dat0 c b) → Q (⟨⟩, s)) :
    θ_run defs (onTc (τ := τ) (main (F := F))) ⟨m, fun _ => 0, ρ⟩ Q :=
  Pipeline.θ_run_regions_kit (pcfgs (F := F)) adm (pdats m ρ dat0) () cellOf_inj emb₁ defs₀ 𝒱₀ L lv m ρ main (segs m ρ dat0 hA0 hq0 howed0 hbody0 hin0 hout0)
    (fun c Q => by
      rewrite [main_chain c, Pipeline.Seg.run_eq_chain,
        show (segs m ρ dat0 hA0 hq0 howed0 hbody0 hin0 hout0).map Pipeline.Seg.prog = [
          StableHlo.seq hostOps0,
          StableHlo.seq hostOps0_1,
          Prog.lift (.customCall (Pipeline.entry 0) ()),
          StableHlo.seq hostOps1,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R₀ c)) (Tₙ := Tₙ m ρ dat0)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexact HO)
    (QY := fun c s => ∀ b ∈ Pipeline.ucRefs τ sig, s.mem (((c : Thread nD τ)).1, b) = W5 m ρ dat0 c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ dat0 c) s')
      isplitl [Hh] <;> iassumption)
    (hQ := hQ)

/-- The run, at the reading of every unscoped buffer itself. -/
theorem run_all (hA0 : ∀ (V : (c : Dev nD) → (b : Ref sig .tc) → Buf (Elt F) ((c : Thread nD τ).loc b)) (c : Dev nD) (w : Fin cfg0.W), (dat0 V c).A w = V c (Pipeline.arrRef spec0 w))
    (hq0 : ∀ (V : (c : Dev nD) → (b : Ref sig .tc) → Buf (Elt F) ((c : Thread nD τ).loc b)) (c : Dev nD) (w : Fin cfg0.W), (dat0 V c).q w = fullShare)
    (howed0 : ∀ (V : (c : Dev nD) → (b : Ref sig .tc) → Buf (Elt F) ((c : Thread nD τ).loc b)) (c : Dev nD) (t : Fin (cfg0.N + 1)), (dat0 V c).owed t = 0)
    (hbody0 : ∀ (V : (c : Dev nD) → (b : Ref sig .tc) → Buf (Elt F) ((c : Thread nD τ).loc b)) (c : Dev nD), BodyObligation (dat0 V c) (defs₀ (F := F)) Variants.none () Set.univ)
    (hin0 : ∀ (V : (c : Dev nD) → (b : Ref sig .tc) → Buf (Elt F) ((c : Thread nD τ).loc b)) (c : Dev nD), (Pipeline.ΦA spec0 c : sProp 𝕄) ⊢ (dat0 V c).Φ 0)
    (hout0 : ∀ (V : (c : Dev nD) → (b : Ref sig .tc) → Buf (Elt F) ((c : Thread nD τ).loc b)) (c : Dev nD), (dat0 V c).Φ (Fin.last cfg0.N) ⊢ (Pipeline.ΦA spec0 c : sProp 𝕄)) :
    θ_run defs (onTc (τ := τ) (main (F := F))) ⟨m, fun _ => 0, ρ⟩ (fun r => ∀ c : Dev nD,
      ∀ b ∈ Pipeline.ucRefs τ sig, r.2.mem (((c : Thread nD τ)).1, b) = W5 m ρ dat0 c b) :=
  run_post m ρ dat0 hA0 hq0 howed0 hbody0 hin0 hout0 fun s h => h

/-- THE FRAME, at any float instance: every weakly fair execution terminates, nothing faulting, and every final
    state has the three argument arrays as launched. -/
theorem frame (hA0 : ∀ (V : (c : Dev nD) → (b : Ref sig .tc) → Buf (Elt F) ((c : Thread nD τ).loc b)) (c : Dev nD) (w : Fin cfg0.W), (dat0 V c).A w = V c (Pipeline.arrRef spec0 w))
    (hq0 : ∀ (V : (c : Dev nD) → (b : Ref sig .tc) → Buf (Elt F) ((c : Thread nD τ).loc b)) (c : Dev nD) (w : Fin cfg0.W), (dat0 V c).q w = fullShare)
    (howed0 : ∀ (V : (c : Dev nD) → (b : Ref sig .tc) → Buf (Elt F) ((c : Thread nD τ).loc b)) (c : Dev nD) (t : Fin (cfg0.N + 1)), (dat0 V c).owed t = 0)
    (hbody0 : ∀ (V : (c : Dev nD) → (b : Ref sig .tc) → Buf (Elt F) ((c : Thread nD τ).loc b)) (c : Dev nD), BodyObligation (dat0 V c) (defs₀ (F := F)) Variants.none () Set.univ)
    (hin0 : ∀ (V : (c : Dev nD) → (b : Ref sig .tc) → Buf (Elt F) ((c : Thread nD τ).loc b)) (c : Dev nD), (Pipeline.ΦA spec0 c : sProp 𝕄) ⊢ (dat0 V c).Φ 0)
    (hout0 : ∀ (V : (c : Dev nD) → (b : Ref sig .tc) → Buf (Elt F) ((c : Thread nD τ).loc b)) (c : Dev nD), (dat0 V c).Φ (Fin.last cfg0.N) ⊢ (Pipeline.ΦA spec0 c : sProp 𝕄)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_post m ρ dat0 hA0 hq0 howed0 hbody0 hin0 hout0 fun s h c =>
    ⟨(h c _ (mem_uc main_arg0 (by decide))).trans (W5_main_arg0 m ρ dat0 c),
     (h c _ (mem_uc main_arg1 (by decide))).trans (W5_main_arg1 m ρ dat0 c),
     (h c _ (mem_uc main_arg2 (by decide))).trans (W5_main_arg2 m ρ dat0 c)⟩

/-- The run, at the result: the output array of region 1 ends at what that region's write-backs leave in it, folded
    from its entry contents, and the three argument arrays as launched. -/
theorem run_value (hA0 : ∀ (V : (c : Dev nD) → (b : Ref sig .tc) → Buf (Elt F) ((c : Thread nD τ).loc b)) (c : Dev nD) (w : Fin cfg0.W), (dat0 V c).A w = V c (Pipeline.arrRef spec0 w))
    (hq0 : ∀ (V : (c : Dev nD) → (b : Ref sig .tc) → Buf (Elt F) ((c : Thread nD τ).loc b)) (c : Dev nD) (w : Fin cfg0.W), (dat0 V c).q w = fullShare)
    (howed0 : ∀ (V : (c : Dev nD) → (b : Ref sig .tc) → Buf (Elt F) ((c : Thread nD τ).loc b)) (c : Dev nD) (t : Fin (cfg0.N + 1)), (dat0 V c).owed t = 0)
    (hbody0 : ∀ (V : (c : Dev nD) → (b : Ref sig .tc) → Buf (Elt F) ((c : Thread nD τ).loc b)) (c : Dev nD), BodyObligation (dat0 V c) (defs₀ (F := F)) Variants.none () Set.univ)
    (hin0 : ∀ (V : (c : Dev nD) → (b : Ref sig .tc) → Buf (Elt F) ((c : Thread nD τ).loc b)) (c : Dev nD), (Pipeline.ΦA spec0 c : sProp 𝕄) ⊢ (dat0 V c).Φ 0)
    (hout0 : ∀ (V : (c : Dev nD) → (b : Ref sig .tc) → Buf (Elt F) ((c : Thread nD τ).loc b)) (c : Dev nD), (dat0 V c).Φ (Fin.last cfg0.N) ⊢ (Pipeline.ΦA spec0 c : sProp 𝕄)) :
    θ_run defs (onTc (τ := τ) (main (F := F))) ⟨m, fun _ => 0, ρ⟩ (fun r => ∀ c : Dev nD,
      r.2.mem ((c.tc : Thread nD τ).loc main_v16) = (dat1 (V4 m ρ dat0) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_post m ρ dat0 hA0 hq0 howed0 hbody0 hin0 hout0 fun s h c =>
    ⟨(h c _ (mem_uc main_v16 (by decide))).trans (W5_arr m ρ dat0 c 4),
     (h c _ (mem_uc main_arg0 (by decide))).trans (W5_main_arg0 m ρ dat0 c),
     (h c _ (mem_uc main_arg1 (by decide))).trans (W5_main_arg1 m ρ dat0 c),
     (h c _ (mem_uc main_arg2 (by decide))).trans (W5_main_arg2 m ρ dat0 c)⟩

end Cert.Kernel.Hand

end
-- ==== Proof.KR0Run.lean ====
/- The runs of the body of pallas_call 0 shared by its frame half: the body's branch condition in closed form, the
   staging and scratch memrefs, the region invariant with the scratch named, and the whole-body run in each of the two
   control cases (the first point, where the scratch is zero-filled; the later points, where it is carried). -/
import proofs.«142103_j4440996184607_1_alg».proof.Proof.Gen.KernelIdeal.Launch
import proofs.«142103_j4440996184607_1_alg».proof.Proof.Gen.KernelIdeal.Skeleton
import proofs.«142103_j4440996184607_1_alg».proof.Proof.Gen.KernelIdeal.Points
import Idealize.ShloMosaic.Lib.Pipeline.FrameBody
import Idealize.ShloMosaic.Lib.Ring
import Idealize.ShloMosaic.Lib.Tactic

-- membership in a rectangle of large extents: the elaborator's structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! ## The body's branch condition -/

/-- The condition of the body's one `scf.if`, from the grid coordinates (the skeleton's scalar chain substituted). -/
abbrev cond0_0 (i : grid0.Coords) : Prop := (Scalar.cmpi .ne (Scalar.extui (Scalar.cmpi .eq (BitVec.ofNat 32 (i 0).val) 0#32)) 0#32) = 1#1
/-- It holds at the first point only: decided over the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## No window is idle anywhere (the configuration states no idle point) -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl

/-! ## The staging and scratch memrefs -/

/-- The one staging buffer of output window 2, through which its contents are stated. -/
abbrev VO0_2 : View sig .tc .vmem S512x1024 .f32 := (Memref.whole cc0_stg2_0 : Memref sig .tc .vmem S512x1024 .f32).view
/-- Each window's current staging memref at point `t`, spelled as the pipeline passes it, and its wholeness. -/
abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
/-- The scratch operand: a whole scoped buffer of the kernel's own, passed beside the windows. -/
abbrev scM0_0 : Memref sig .tc .vmem S512x1024 .f32 := Memref.whole cc0_scratch0
/-- The scratch the kernel carries between points, as a view: what it holds is stated through it. -/
abbrev VS0_0 : View sig .tc .vmem S512x1024 .f32 := scM0_0.view

/-- The core's scoped buffers that are neither a staging buffer of this region nor its scratch (the other region's
    staging buffers), each whole at some contents: the body never touches them. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The region invariant of the class with the scratch operand as a memref owned at some contents, beside the
    scoped buffers the body never touches and the generator register. -/
theorem PhiA0_eq (c : Dev nD) :
    (Pipeline.ΦA spec0 c : sProp 𝕄)
      = iprop(iprop((∃ d, owns (c : Thread nD τ) scM0_0 fullShare d) ∗ restS0 (F := F) c) ∗ (∃ r, prngReg c r)) := by
  unfold Pipeline.ΦA restS0; rw [scopedRest0_eq]; simp only [scM0_0, owns_whole]; try rfl

/-! ## The kernel body on any whole memrefs: a subtype the run finds -/

-- (the run's proof term is large: the definition's epilogue walks it past the default budget)
set_option maxHeartbeats 1000000 in
/-- What the body's stores leave in the output's staging memref and in the scratch, as pieces (last first) AT THE FIRST
    POINT (the `scf.if` taken: the scratch is zero-filled first), WITH the proof that on whole memrefs — the inputs' at their
    contents, the output's and the scratch at anything — the body runs to the continuation holding the inputs' as they
    were and the output's buffer and the scratch with their pieces written. The pieces are the witness the run finds. -/
noncomputable def kernelRun0_A (c : Dev nD) (i : grid0.Coords) (arg1 : Memref sig .tc .vmem S1024x512 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (hc0 : cond0_0 i)
    (x0 : Vec F S1024x512 .bf16) (x1 : Vec F S1024x1024 .bf16) :
    Σ' (L2 : List (View.Piece (Elt F) S512x1024 .f32)), { LS0 : List (View.Piece (Elt F) S512x1024 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__t_kernel i arg1 harg1 arg2 harg2 arg3 harg3 arg4 harg4) K } := by
  refine ⟨?_, ?_, fun E K => ?run⟩
  case run =>
    simp only [cc0__t_kernel_eq_skeleton]; unfold cc0__t_kernel_skel
    unfold owns
    iintro ⟨⟨%f0, %hf0, H0⟩, ⟨%f1, %hf1, H1⟩, ⟨%d2, %f2, -, H2⟩, ⟨%ds0, %fs0, -, HS0⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

-- (the run's proof term is large: the definition's epilogue walks it past the default budget)
set_option maxHeartbeats 1000000 in
/-- What the body's stores leave in the output's staging memref and in the scratch, as pieces (last first) AT A LATER
    POINT (the `scf.if` not taken), WITH the proof that on whole memrefs — the inputs' at their contents, the output's at
    anything, the scratch at the contents `xs0` the point before left — the body runs to the continuation holding the
    inputs' as they were and the output's buffer and the scratch with their pieces written. -/
noncomputable def kernelRun0_B (c : Dev nD) (i : grid0.Coords) (arg1 : Memref sig .tc .vmem S1024x512 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (hc0 : ¬cond0_0 i)
    (x0 : Vec F S1024x512 .bf16) (x1 : Vec F S1024x1024 .bf16) (xs0 : Vec F S512x1024 .f32) :
    Σ' (L2 : List (View.Piece (Elt F) S512x1024 .f32)), { LS0 : List (View.Piece (Elt F) S512x1024 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__t_kernel i arg1 harg1 arg2 harg2 arg3 harg3 arg4 harg4) K } := by
  refine ⟨?_, ?_, fun E K => ?run⟩
  case run =>
    simp only [cc0__t_kernel_eq_skeleton]; unfold cc0__t_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Hand

end
-- ==== Proof.KR0.lean ====
/- The body half of the frame proof of pallas_call 0, at the buffer contents `V` the region is entered with: each window's
   block, what the two control cases leave in the output's staging buffer and in the scratch the body carries between
   points, these contents point by point (`outsAt0`), the region invariant naming the scratch's contents (`PhiS0`), the
   proof data, the body obligation, and the invariant's entry and exit. -/
import proofs.«142103_j4440996184607_1_alg».proof.Proof.KR0Run
import Idealize.ShloMosaic.Lib.Pipeline.Value

-- membership in a rectangle of large extents: the elaborator's structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the output's buffer and in the scratch -/

/-- The first point's pieces for the output tile its block, so they cover it. -/
theorem cover0_A_2 (c : Dev nD) (i : grid0.Coords) (arg1 : Memref sig .tc .vmem S1024x512 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (hc0 : cond0_0 i)
    (x0 : Vec F S1024x512 .bf16) (x1 : Vec F S1024x1024 .bf16) (y : S512x1024.Idx) :
    ∃ pc ∈ (kernelRun0_A c i arg1 harg1 arg2 harg2 arg3 harg3 arg4 harg4 hc0 x0 x1).1, y ∈ pc.1.set :=
  View.cover_of_tiledL (kernelRun0_A c i arg1 harg1 arg2 harg2 arg3 harg3 arg4 harg4 hc0 x0 x1).1 S512x1024.size (by sl_kernel_rfl) y

/-- What the first point leaves in the output's staging buffer: its pieces read back over junk. -/
def out0_A_2 (c : Dev nD) (i : grid0.Coords) (arg1 : Memref sig .tc .vmem S1024x512 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (hc0 : cond0_0 i)
    (x0 : Vec F S1024x512 .bf16) (x1 : Vec F S1024x1024 .bf16) : Vec F S512x1024 .f32 :=
  VO0_2.read (Elt F) (VO0_2.writes (Elt F) VO0_2.junk (kernelRun0_A c i arg1 harg1 arg2 harg2 arg3 harg3 arg4 harg4 hc0 x0 x1).1)

/-- The first point's pieces for the scratch cover it. -/
theorem scover0_A_0 (c : Dev nD) (i : grid0.Coords) (arg1 : Memref sig .tc .vmem S1024x512 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (hc0 : cond0_0 i)
    (x0 : Vec F S1024x512 .bf16) (x1 : Vec F S1024x1024 .bf16) (y : S512x1024.Idx) :
    ∃ pc ∈ (kernelRun0_A c i arg1 harg1 arg2 harg2 arg3 harg3 arg4 harg4 hc0 x0 x1).2.1, y ∈ pc.1.set :=
  View.cover_of_tiledL (kernelRun0_A c i arg1 harg1 arg2 harg2 arg3 harg3 arg4 harg4 hc0 x0 x1).2.1 S512x1024.size (by sl_kernel_rfl) y

/-- What the first point leaves in the scratch: its pieces read back over junk. -/
def sout0_A_0 (c : Dev nD) (i : grid0.Coords) (arg1 : Memref sig .tc .vmem S1024x512 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (hc0 : cond0_0 i)
    (x0 : Vec F S1024x512 .bf16) (x1 : Vec F S1024x1024 .bf16) : Vec F S512x1024 .f32 :=
  VS0_0.read (Elt F) (VS0_0.writes (Elt F) VS0_0.junk (kernelRun0_A c i arg1 harg1 arg2 harg2 arg3 harg3 arg4 harg4 hc0 x0 x1).2.1)

/-- A later point's pieces for the output tile its block, so they cover it. -/
theorem cover0_B_2 (c : Dev nD) (i : grid0.Coords) (arg1 : Memref sig .tc .vmem S1024x512 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (hc0 : ¬cond0_0 i)
    (x0 : Vec F S1024x512 .bf16) (x1 : Vec F S1024x1024 .bf16) (xs0 : Vec F S512x1024 .f32) (y : S512x1024.Idx) :
    ∃ pc ∈ (kernelRun0_B c i arg1 harg1 arg2 harg2 arg3 harg3 arg4 harg4 hc0 x0 x1 xs0).1, y ∈ pc.1.set :=
  View.cover_of_tiledL (kernelRun0_B c i arg1 harg1 arg2 harg2 arg3 harg3 arg4 harg4 hc0 x0 x1 xs0).1 S512x1024.size (by sl_kernel_rfl) y

/-- What a later point leaves in the output's staging buffer: its pieces read back over junk. -/
def out0_B_2 (c : Dev nD) (i : grid0.Coords) (arg1 : Memref sig .tc .vmem S1024x512 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (hc0 : ¬cond0_0 i)
    (x0 : Vec F S1024x512 .bf16) (x1 : Vec F S1024x1024 .bf16) (xs0 : Vec F S512x1024 .f32) : Vec F S512x1024 .f32 :=
  VO0_2.read (Elt F) (VO0_2.writes (Elt F) VO0_2.junk (kernelRun0_B c i arg1 harg1 arg2 harg2 arg3 harg3 arg4 harg4 hc0 x0 x1 xs0).1)

/-- A later point's pieces for the scratch cover it. -/
theorem scover0_B_0 (c : Dev nD) (i : grid0.Coords) (arg1 : Memref sig .tc .vmem S1024x512 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (hc0 : ¬cond0_0 i)
    (x0 : Vec F S1024x512 .bf16) (x1 : Vec F S1024x1024 .bf16) (xs0 : Vec F S512x1024 .f32) (y : S512x1024.Idx) :
    ∃ pc ∈ (kernelRun0_B c i arg1 harg1 arg2 harg2 arg3 harg3 arg4 harg4 hc0 x0 x1 xs0).2.1, y ∈ pc.1.set :=
  View.cover_of_tiledL (kernelRun0_B c i arg1 harg1 arg2 harg2 arg3 harg3 arg4 harg4 hc0 x0 x1 xs0).2.1 S512x1024.size (by sl_kernel_rfl) y

/-- What a later point leaves in the scratch: its pieces read back over junk. -/
def sout0_B_0 (c : Dev nD) (i : grid0.Coords) (arg1 : Memref sig .tc .vmem S1024x512 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (hc0 : ¬cond0_0 i)
    (x0 : Vec F S1024x512 .bf16) (x1 : Vec F S1024x1024 .bf16) (xs0 : Vec F S512x1024 .f32) : Vec F S512x1024 .f32 :=
  VS0_0.read (Elt F) (VS0_0.writes (Elt F) VS0_0.junk (kernelRun0_B c i arg1 harg1 arg2 harg2 arg3 harg3 arg4 harg4 hc0 x0 x1 xs0).2.1)

/-! ## What the output's buffer and the scratch hold after each point -/

/-- The branch is taken at the first point. -/
theorem hcond0_0_zero (hn : 0 < cfg0.N) : cond0_0 (grid0.coords ⟨0, hn⟩) := (hcond0_0 ⟨0, hn⟩).mpr (Nat.zero_mod _)
/-- The branch is not taken at any later point. -/
theorem hcond0_0_succ (n : ℕ) (hn : n + 1 < cfg0.N) : ¬cond0_0 (grid0.coords ⟨n + 1, hn⟩) := fun h => by
  have h1 := (hcond0_0 ⟨n + 1, hn⟩).mp h
  have hN : n + 1 < 8 := lt_of_lt_of_eq hn (show cfg0.N = 8 from N_0)
  (try dsimp only at h1); omega

/-- THE ACCUMULATION. What the output's staging buffer and the scratch hold after the body at position `n` (a pair: the
    output's buffer, then the scratch): the first point's case run at the point's memrefs and input blocks; a later
    point's case run over what the point before left in the scratch. -/
def outsAt0 (c : Dev nD) : (n : ℕ) → n < cfg0.N → Vec F S512x1024 .f32 × Vec F S512x1024 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) (hcond0_0_zero hn) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) (hcond0_0_zero hn) (iblk0 V c 0 ⟨0, hn⟩) (iblk0 V c 1 ⟨0, hn⟩))
  | n + 1, hn => (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (hcond0_0_succ n hn) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (hcond0_0_succ n hn) (iblk0 V c 0 ⟨n + 1, hn⟩) (iblk0 V c 1 ⟨n + 1, hn⟩) (outsAt0 c n (Nat.lt_of_succ_lt hn)).2)

/-- `outsAt0` at the first point: that case's contents. -/
theorem outsAt0_A (c : Dev nD) (t : Fin cfg0.N) (h0 : t.val % 8 = 0) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (iblk0 V c 0 t) (iblk0 V c 1 t)) := by
  obtain ⟨n, hn⟩ := t
  cases n with
  | zero => exact rfl
  | succ n => exact (by exfalso; have hN : n + 1 < 8 := lt_of_lt_of_eq hn (show cfg0.N = 8 from N_0); (try dsimp only at h0); omega)

/-- `outsAt0` at a later point: that case's contents, over what the point before left. -/
theorem outsAt0_B (c : Dev nD) (t : Fin cfg0.N) (h0 : ¬t.val % 8 = 0) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact rfl

/-- The region invariant before position `n`: before the first point the class's (every scratch at anything);
    afterwards the scratch at what the point before left in it, beside the scoped buffers the body never touches and the
    generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restS0 (F := F) c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the carried scratch at that point's contents. -/
theorem PhiS0_succ (c : Dev nD) (n : ℕ) (hn : n < cfg0.N) :
    PhiS0 V c (n + 1) hn = iprop(iprop(owns (c : Thread nD τ) scM0_0 fullShare ((outsAt0 V c n hn).2) ∗ restS0 (F := F) c) ∗ (∃ r, prngReg c r)) := rfl

/-- Before a point that is not the first: the carried scratch at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ restS0 (F := F) c) ∗ (∃ r, prngReg c r)) := by
  cases n with
  | zero => exact absurd rfl hz
  | succ n => rfl

/-! ## The pipeline's proof data -/

/-- The proof data of pipeline 0 on core `c`: the arrays as the region finds them (`V`); after the body at point `t`
    each input's buffer at its block and the output's at `outsAt0`'s first component; the invariant `PhiS0`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

/-- The proof data's arrays are the region-entry contents (the definition projected, by `dsimp`). -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns (no window is idle anywhere: each buffer at what the body leaves). -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 4800000 in
/-- The body at the first point: the inputs' memrefs hold their blocks; the invariant hands the body the scratch at
    anything and takes it back at this point's contents; the output's buffer is covered by the body's last store. -/
theorem sound_body0_A (c : Dev nD) (t : Fin cfg0.N) (h0 : t.val % 8 = 0) :
    bodyPre0 V c t ⊢ wp frame (wpE (defs₀ (F := F)) Variants.none c none) Set.univ (bodyAt0 t) (fun _ => bodyPost0 V c t) := by
  have hN : t.val < 8 := lt_of_lt_of_eq t.isLt (show cfg0.N = 8 from N_0)
  have hz : t.val = 0 := by omega
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [PhiS0_castSucc V c t, PhiS0_zero V c _ _ hz, PhiA0_eq]
  rw [after0_0, after0_1, after0_2]
  rw [outsAt0_A V c t h0]
  unfold out0_A_2 sout0_A_0; (try dsimp only)
  iintro ⟨⟨⟨HS0, Hr⟩, Hg⟩, Ho, ⟨%d0, H0⟩, ⟨%d1, H1⟩, ⟨%d2, H2⟩⟩
  iapply ((kernelRun0_A c (grid0.coords t) _ _ _ _ _ _ _ _ ((hcond0_0 t).mpr h0) (iblk0 V c 0 t) (iblk0 V c 1 t)).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover0_A_0 c _ _ _ _ _ _ _ _ _ _ _ _)
      iexact Hr
    iexact Hg
  isplitl [Ho]; · iexact Ho
  isplitl [H0]; · iexact H0
  isplitl [H1]; · iexact H1
  unfold owns; iexists _; isplitr
  swap; · iexact H2
  ipureintro; exact View.read_writes_of_cover _ _ _ _ _ (cover0_A_2 c _ _ _ _ _ _ _ _ _ _ _ _)

set_option maxHeartbeats 4800000 in
/-- The body at a later point: the invariant hands the body the scratch at what the point before left. -/
theorem sound_body0_B (c : Dev nD) (t : Fin cfg0.N) (h0 : ¬t.val % 8 = 0) :
    bodyPre0 V c t ⊢ wp frame (wpE (defs₀ (F := F)) Variants.none c none) Set.univ (bodyAt0 t) (fun _ => bodyPost0 V c t) := by
  have hz : t.val ≠ 0 := fun h => h0 (by rw [h])
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [PhiS0_castSucc V c t, PhiS0_pos V c _ _ hz]
  rw [after0_0, after0_1, after0_2]
  rw [outsAt0_B V c t h0]
  unfold out0_B_2 sout0_B_0; (try dsimp only)
  iintro ⟨⟨⟨HS0, Hr⟩, Hg⟩, Ho, ⟨%d0, H0⟩, ⟨%d1, H1⟩, ⟨%d2, H2⟩⟩
  iapply ((kernelRun0_B c (grid0.coords t) _ _ _ _ _ _ _ _ (fun h => h0 ((hcond0_0 t).mp h)) (iblk0 V c 0 t) (iblk0 V c 1 t) _).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover0_B_0 c _ _ _ _ _ _ _ _ _ _ _ _ _)
      iexact Hr
    iexact Hg
  isplitl [Ho]; · iexact Ho
  isplitl [H0]; · iexact H0
  isplitl [H1]; · iexact H1
  unfold owns; iexists _; isplitr
  swap; · iexact H2
  ipureintro; exact View.read_writes_of_cover _ _ _ _ _ (cover0_B_2 c _ _ _ _ _ _ _ _ _ _ _ _ _)

/-- The body at any point: the closed form says which case the point is in. -/
theorem sound_body0 (c : Dev nD) (t : Fin cfg0.N) :
    bodyPre0 V c t ⊢ wp frame (wpE (defs₀ (F := F)) Variants.none c none) Set.univ (bodyAt0 t) (fun _ => bodyPost0 V c t) := by
  by_cases h0 : t.val % 8 = 0
  · exact sound_body0_A V c t h0
  · exact sound_body0_B V c t h0

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region (`ΦA`) is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives `ΦA` back: the carried scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 8 := N_0; omega)

/-! ## The contents as the body's payloads (for the value proof: plain equations) -/

/-- The first point leaves in the output's buffer the payload over the zero fill and the input blocks: the last store's
    payload is what the scratch then held, read back through the whole-shape rectangle. -/
theorem out0_A_2_eq (c : Dev nD) (i : grid0.Coords) (arg1 : Memref sig .tc .vmem S1024x512 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (hc0 : cond0_0 i)
    (x0 : Vec F S1024x512 .bf16) (x1 : Vec F S1024x1024 .bf16) :
    out0_A_2 c i arg1 harg1 arg2 harg2 arg3 harg3 arg4 harg4 hc0 x0 x1 = k0_pay2 (k0_pay1 (F := F)) x0 x1 := by
  have hz : (![0, 0] : Fin 2 → ℕ) = fun _ => 0 := by funext a; fin_cases a <;> rfl
  unfold out0_A_2
  rw [View.read_writes_eq_canon _ _ _ (cover0_A_2 c i arg1 harg1 arg2 harg2 arg3 harg3 arg4 harg4 hc0 x0 x1)]
  unfold kernelRun0_A; dsimp only
  sl_unfold_words
  refine (View.canon_cons_unit_zero hz _ _ _).trans ?_
  simp only [View.readCov_cons_toLoadRect, View.readAt_eq_ld, harg1.read_unread, harg2.read_unread, harg4.read_unread, View.ld_unit_zero (S := S1024x512) hz, View.ld_unit_zero (S := S1024x1024) hz, View.ld_unit_zero (S := S512x1024) hz]

/-- The first point leaves the same in the scratch. -/
theorem sout0_A_0_eq (c : Dev nD) (i : grid0.Coords) (arg1 : Memref sig .tc .vmem S1024x512 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (hc0 : cond0_0 i)
    (x0 : Vec F S1024x512 .bf16) (x1 : Vec F S1024x1024 .bf16) :
    sout0_A_0 c i arg1 harg1 arg2 harg2 arg3 harg3 arg4 harg4 hc0 x0 x1 = k0_pay2 (k0_pay1 (F := F)) x0 x1 := by
  have hz : (![0, 0] : Fin 2 → ℕ) = fun _ => 0 := by funext a; fin_cases a <;> rfl
  unfold sout0_A_0
  rw [View.read_writes_eq_canon _ _ _ (scover0_A_0 c i arg1 harg1 arg2 harg2 arg3 harg3 arg4 harg4 hc0 x0 x1)]
  unfold kernelRun0_A; dsimp only
  sl_unfold_words
  refine (View.canon_cons_unit_zero hz _ _ _).trans ?_
  simp only [View.readCov_cons_toLoadRect, View.readAt_eq_ld, harg1.read_unread, harg2.read_unread, harg4.read_unread, View.ld_unit_zero (S := S1024x512) hz, View.ld_unit_zero (S := S1024x1024) hz, View.ld_unit_zero (S := S512x1024) hz]

/-- A later point leaves in the output's buffer the payload over what the scratch held and the input blocks. -/
theorem out0_B_2_eq (c : Dev nD) (i : grid0.Coords) (arg1 : Memref sig .tc .vmem S1024x512 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (hc0 : ¬cond0_0 i)
    (x0 : Vec F S1024x512 .bf16) (x1 : Vec F S1024x1024 .bf16) (xs0 : Vec F S512x1024 .f32) :
    out0_B_2 c i arg1 harg1 arg2 harg2 arg3 harg3 arg4 harg4 hc0 x0 x1 xs0 = k0_pay2 xs0 x0 x1 := by
  have hz : (![0, 0] : Fin 2 → ℕ) = fun _ => 0 := by funext a; fin_cases a <;> rfl
  unfold out0_B_2
  rw [View.read_writes_eq_canon _ _ _ (cover0_B_2 c i arg1 harg1 arg2 harg2 arg3 harg3 arg4 harg4 hc0 x0 x1 xs0)]
  unfold kernelRun0_B; dsimp only
  sl_unfold_words
  refine (View.canon_cons_unit_zero hz _ _ _).trans ?_
  simp only [View.readCov_cons_toLoadRect, View.readAt_eq_ld, harg1.read_unread, harg2.read_unread, harg4.read_unread, View.ld_unit_zero (S := S1024x512) hz, View.ld_unit_zero (S := S1024x1024) hz, View.ld_unit_zero (S := S512x1024) hz]

/-- A later point leaves the same in the scratch. -/
theorem sout0_B_0_eq (c : Dev nD) (i : grid0.Coords) (arg1 : Memref sig .tc .vmem S1024x512 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (hc0 : ¬cond0_0 i)
    (x0 : Vec F S1024x512 .bf16) (x1 : Vec F S1024x1024 .bf16) (xs0 : Vec F S512x1024 .f32) :
    sout0_B_0 c i arg1 harg1 arg2 harg2 arg3 harg3 arg4 harg4 hc0 x0 x1 xs0 = k0_pay2 xs0 x0 x1 := by
  have hz : (![0, 0] : Fin 2 → ℕ) = fun _ => 0 := by funext a; fin_cases a <;> rfl
  unfold sout0_B_0
  rw [View.read_writes_eq_canon _ _ _ (scover0_B_0 c i arg1 harg1 arg2 harg2 arg3 harg3 arg4 harg4 hc0 x0 x1 xs0)]
  unfold kernelRun0_B; dsimp only
  sl_unfold_words
  refine (View.canon_cons_unit_zero hz _ _ _).trans ?_
  simp only [View.readCov_cons_toLoadRect, View.readAt_eq_ld, harg1.read_unread, harg2.read_unread, harg4.read_unread, View.ld_unit_zero (S := S1024x512) hz, View.ld_unit_zero (S := S1024x1024) hz, View.ld_unit_zero (S := S512x1024) hz]

/-- After the first point the output's buffer and the scratch both hold the payload over the zero fill and the
    point's input blocks. -/
theorem outsAt0_zero (c : Dev nD) (h : 0 < cfg0.N) :
    outsAt0 V c 0 h = (k0_pay2 (k0_pay1 (F := F)) (iblk0 V c 0 ⟨0, h⟩) (iblk0 V c 1 ⟨0, h⟩), k0_pay2 (k0_pay1 (F := F)) (iblk0 V c 0 ⟨0, h⟩) (iblk0 V c 1 ⟨0, h⟩)) := by
  rw [outsAt0, out0_A_2_eq, sout0_A_0_eq]

/-- After a later point both hold the payload over what the scratch held after the point before and the point's input
    blocks. -/
theorem outsAt0_succ (c : Dev nD) (n : ℕ) (h : n + 1 < cfg0.N) :
    outsAt0 V c (n + 1) h = (k0_pay2 (outsAt0 V c n (Nat.lt_of_succ_lt h)).2 (iblk0 V c 0 ⟨n + 1, h⟩) (iblk0 V c 1 ⟨n + 1, h⟩), k0_pay2 (outsAt0 V c n (Nat.lt_of_succ_lt h)).2 (iblk0 V c 0 ⟨n + 1, h⟩) (iblk0 V c 1 ⟨n + 1, h⟩)) := by
  rw [outsAt0, out0_B_2_eq, sout0_B_0_eq]

end Cert.KernelIdeal.Hand

end
-- ==== Proof.KR1.lean ====
/- The BODY half of the frame proof of region 1 (custom_call 1, `cc1__fused_kernel`), stated at a parameter `V`:
   the TensorCore's buffer contents when the region is entered. Each window's block at a point is read off its
   array in `V`; the four input windows' staging buffers hold their blocks at every point, fetched there or not;
   the body's one store covers the output window's staging buffer, so what the body leaves there is a closed
   function of the four input blocks; the proof data name exactly that, and the body obligation follows at a
   generic point. Written for any float instance. -/
import proofs.«142103_j4440996184607_1_alg».proof.Proof.Gen.KernelIdeal.Launch
import proofs.«142103_j4440996184607_1_alg».proof.Proof.Gen.KernelIdeal.Skeleton
import proofs.«142103_j4440996184607_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the elaborator's structural look recurses once per coordinate of
-- the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved;
    the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same of input window 1, whose block index is constant: it is fetched at the first point only, and holds
    that one block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same of input window 2. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- The same of input window 3, whose block index is constant. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole staging buffer -/

abbrev r1_0 : Rect S1024x512 := Rect.unit (s := S1024x512) ![0, 0] S1024x512.size inb_S1024x512_S1024x512_0_0
abbrev r1_1 : Rect S512x1024 := Rect.unit (s := S512x1024) ![0, 0] S512x1024.size inb_S512x1024_S512x1024_0_0
abbrev r1_2 : Rect S1024x1 := Rect.unit (s := S1024x1) ![0, 0] S1024x1.size inb_S1024x1_S1024x1_0_0
abbrev r1_3 : Rect S1024x1024 := Rect.unit (s := S1024x1024) ![0, 0] S1024x1024.size inb_S1024x1024_S1024x1024_0_0

/-! ## What the body leaves in the output window's buffer -/

/-- Window 4's staging buffer after the body, from the input windows' blocks: its one store as a piece, the
    payload the skeleton's. -/
def out1_4 (x0 : Vec F S1024x512 .bf16) (x1 : Vec F S512x1024 .bf16) (x2 : Vec F S1024x1 .f32) (x3 : Vec F S1024x1024 .bf16) : Vec F S1024x1024 .f32 :=
  View.canon [⟨r1_3, k1_pay1 (View.ld x0 r1_0) (View.ld x1 r1_1) (View.ld x2 r1_2) (View.ld x3 r1_3)⟩]

/-- The store tiles the buffer (checked by evaluation), so it covers it. -/
theorem cover1_4 (p0 : Vec F S1024x1024 .f32) (y : S1024x1024.Idx) :
    ∃ pc ∈ ([⟨r1_3, p0⟩] : List (View.Piece (Elt F) S1024x1024 .f32)), y ∈ pc.1.set :=
  View.cover_of_tiled [⟨r1_3, p0⟩] S1024x1024.size (by rfl) y

/-! ## The body's triple -/

set_option maxHeartbeats 1000000 in
/-- The kernel body on whole staging memrefs, the inputs' at read contents `xW` and the output's at anything, runs
    to the continuation holding the inputs' as they were and the output's at `out1_4` of the inputs': the printed
    function is its skeleton, which the symbolic executor runs. -/
theorem sound_kernel1 (c : Dev nD) (E : Set ℕ) (i : grid1.Coords) (arg1 : Memref sig .tc .vmem S1024x512 .bf16) (harg1 : arg1.IsWhole) (arg2 : Memref sig .tc .vmem S512x1024 .bf16) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1024 .f32) (harg5 : arg5.IsWhole)
    (x0 : Vec F S1024x512 .bf16) (x1 : Vec F S512x1024 .bf16) (x2 : Vec F S1024x1 .f32) (x3 : Vec F S1024x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__fused_kernel i arg1 harg1 arg2 harg2 arg3 harg3 arg4 harg4 arg5 harg5) K := by
  simp only [cc1__fused_kernel_eq_skeleton]; unfold cc1__fused_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core `c`: the arrays as the region finds them (`V`); after the body at point
    `t` each input's buffer at its block and the output's at `out1_4` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- The invariant is the same at every point, nothing is owed, every share is full. -/
theorem Φ_eq1 (c : Dev nD) (t : Fin (cfg1.N + 1)) : (dat1 V c).Φ t = Pipeline.ΦA spec1 c := rfl
theorem q_eq1 (c : Dev nD) (w : Fin cfg1.W) : (dat1 V c).q w = fullShare := rfl
theorem owed_eq1 (c : Dev nD) (t : Fin (cfg1.N + 1)) : (dat1 V c).owed t = 0 := rfl

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KRun.lean ====
/- THE RUN of the whole program over the library's several-region launch theorem, for any float instance, and
   parametric in region 0's proof data: the buffer contents at every segment boundary as a fold from the launch
   memory (a host stretch: the contents after its operations; a region: its arrays at what its write-backs leave,
   every other buffer as entered), each argument array read back through the fold to its launch contents, every
   pipeline's proof data at its region's entry contents, a host segment per stretch and a region record per
   pallas_call over the thread state "every unscoped buffer at the boundary's contents, the generator register at
   some state, nothing owed", and the launch: every weakly fair execution terminates and every final memory holds
   every unscoped buffer at the last boundary's contents. Region 0's data enter through six facts: its arrays are
   the entry contents, its shares are full, it owes nothing, its body obligation, and its invariant at the first
   and after the last point is the class's (the scoped rest and the generator register). -/
import proofs.«142103_j4440996184607_1_alg».proof.Proof.KR1
import proofs.«142103_j4440996184607_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- region 0's proof data, at any entry contents
variable (dat0 : (V : (c : Dev nD) → (b : Ref sig .tc) → Buf (Elt F) ((c : Thread nD τ).loc b)) → (c : Dev nD) → Dat τ (Elt F) Unit ℕ (UR sig nD τ) ℕ cfg0 c)

/-! ## The buffer contents at each segment boundary: a fold through the program -/

/-- Core `c`'s buffers at launch. -/
abbrev W0 : Dev nD → Valuation τ sig (Elt F) := fun c b => (s₀ m ρ).mem ((c : Dev nD), b)
/-- After the first host stretch (the outlined norm function's operations). -/
abbrev W1 : Dev nD → Valuation τ sig (Elt F) := fun c => StableHlo.after hostOps0 (W0 m ρ c)
/-- After the second host stretch (region 0's entry). -/
abbrev W2 : Dev nD → Valuation τ sig (Elt F) := fun c => StableHlo.after hostOps0_1 (W1 m ρ c)
/-- The same read at the TensorCore's references (what region 0's proof data take). -/
abbrev V2 : (c : Dev nD) → (b : Ref sig .tc) → Buf (Elt F) ((c : Thread nD τ).loc b) := fun c b => W2 m ρ c b
/-- At region 0's exit: its arrays at what the pipeline leaves (the inputs as entered, the output's write-backs
    folded), every other buffer as entered. -/
def W3 (c : Dev nD) : Valuation τ sig (Elt F) :=
  Pipeline.withArrays spec0 c (W2 m ρ c) fun w => (dat0 (V2 m ρ) c).arrAt w cfg0.N
theorem W3_arr (c : Dev nD) (w : Fin cfg0.W) :
    W3 m ρ dat0 c (Proc.devRef .tc (Pipeline.arrRef spec0 w)) = (dat0 (V2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ dat0 c (Proc.devRef .tc b) = W2 m ρ c (Proc.devRef .tc b) := by
  unfold W3; exact Pipeline.withArrays_of_ne spec0 c _ _ b hb
/-- The same read at the TensorCore's references (region 0's exit contents). -/
abbrev V3 : (c : Dev nD) → (b : Ref sig .tc) → Buf (Elt F) ((c : Thread nD τ).loc b) := fun c b => W3 m ρ dat0 c b
/-- At region 0's exit each of its arrays holds what the pipeline leaves and every other buffer what it held at
    entry. -/
theorem hF0 (c : Dev nD) (w : Fin cfg0.W) : (dat0 (V2 m ρ) c).arrAt w cfg0.N = V3 m ρ dat0 c (Pipeline.arrRef spec0 w) :=
  (W3_arr m ρ dat0 c w).symm
theorem hrest0 (c : Dev nD) : ∀ b, b ∉ Finset.univ.image (Pipeline.arrRef spec0) → V3 m ρ dat0 c b = V2 m ρ c b :=
  fun b hb => W3_of_ne m ρ dat0 c b fun w e => hb (Finset.mem_image.mpr ⟨w, Finset.mem_univ _, e⟩)

/-- After the third host stretch (region 1's entry). -/
abbrev W4 : Dev nD → Valuation τ sig (Elt F) := fun c => StableHlo.after hostOps1 (W3 m ρ dat0 c)
/-- The same read at the TensorCore's references (what region 1's proof data take). -/
abbrev V4 : (c : Dev nD) → (b : Ref sig .tc) → Buf (Elt F) ((c : Thread nD τ).loc b) := fun c b => W4 m ρ dat0 c b
/-- At region 1's exit: its arrays at what the pipeline leaves, every other buffer as entered. -/
def W5 (c : Dev nD) : Valuation τ sig (Elt F) :=
  Pipeline.withArrays spec1 c (W4 m ρ dat0 c) fun w => (dat1 (V4 m ρ dat0) c).arrAt w cfg1.N
theorem W5_arr (c : Dev nD) (w : Fin cfg1.W) :
    W5 m ρ dat0 c (Proc.devRef .tc (Pipeline.arrRef spec1 w)) = (dat1 (V4 m ρ dat0) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ dat0 c (Proc.devRef .tc b) = W4 m ρ dat0 c (Proc.devRef .tc b) := by
  unfold W5; exact Pipeline.withArrays_of_ne spec1 c _ _ b hb
/-- The same read at the TensorCore's references (region 1's exit contents). -/
abbrev V5 : (c : Dev nD) → (b : Ref sig .tc) → Buf (Elt F) ((c : Thread nD τ).loc b) := fun c b => W5 m ρ dat0 c b
theorem hF1 (c : Dev nD) (w : Fin cfg1.W) : (dat1 (V4 m ρ dat0) c).arrAt w cfg1.N = V5 m ρ dat0 c (Pipeline.arrRef spec1 w) :=
  (W5_arr m ρ dat0 c w).symm
theorem hrest1 (c : Dev nD) : ∀ b, b ∉ Finset.univ.image (Pipeline.arrRef spec1) → V5 m ρ dat0 c b = V4 m ρ dat0 c b :=
  fun b hb => W5_of_ne m ρ dat0 c b fun w e => hb (Finset.mem_image.mpr ⟨w, Finset.mem_univ _, e⟩)

/-! ### The arguments end as launched: no host operation writes one and none is a window's array of either region,
    so the fold at an argument's buffer walks back to the launch memory -/

theorem W5_main_arg0 (c : Dev nD) : W5 m ρ dat0 c (Proc.devRef .tc main_arg0) = m ((c : Thread nD τ).loc main_arg0) :=
  calc W5 m ρ dat0 c (Proc.devRef .tc main_arg0)
    _ = W4 m ρ dat0 c (Proc.devRef .tc main_arg0) := W5_of_ne m ρ dat0 c main_arg0 (by decide)
    _ = W3 m ρ dat0 c (Proc.devRef .tc main_arg0) := StableHlo.after_of_writes_sub hostOps1 _ hostOps1_writes (by decide)
    _ = W2 m ρ c (Proc.devRef .tc main_arg0) := W3_of_ne m ρ dat0 c main_arg0 (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl
theorem W5_main_arg1 (c : Dev nD) : W5 m ρ dat0 c (Proc.devRef .tc main_arg1) = m ((c : Thread nD τ).loc main_arg1) :=
  calc W5 m ρ dat0 c (Proc.devRef .tc main_arg1)
    _ = W4 m ρ dat0 c (Proc.devRef .tc main_arg1) := W5_of_ne m ρ dat0 c main_arg1 (by decide)
    _ = W3 m ρ dat0 c (Proc.devRef .tc main_arg1) := StableHlo.after_of_writes_sub hostOps1 _ hostOps1_writes (by decide)
    _ = W2 m ρ c (Proc.devRef .tc main_arg1) := W3_of_ne m ρ dat0 c main_arg1 (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl
theorem W5_main_arg2 (c : Dev nD) : W5 m ρ dat0 c (Proc.devRef .tc main_arg2) = m ((c : Thread nD τ).loc main_arg2) :=
  calc W5 m ρ dat0 c (Proc.devRef .tc main_arg2)
    _ = W4 m ρ dat0 c (Proc.devRef .tc main_arg2) := W5_of_ne m ρ dat0 c main_arg2 (by decide)
    _ = W3 m ρ dat0 c (Proc.devRef .tc main_arg2) := StableHlo.after_of_writes_sub hostOps1 _ hostOps1_writes (by decide)
    _ = W2 m ρ c (Proc.devRef .tc main_arg2) := W3_of_ne m ρ dat0 c main_arg2 (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V2 m ρ) c
  | ⟨1, _⟩ => fun c => dat1 (V4 m ρ dat0) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- The same before the first region: no wait has been recorded yet (the launch deals the dues at the empty set and
    a host stretch records none), which is what lets region 0 be entered whatever bound its proof data put on the
    recorded pairs. -/
abbrev R₀ (c : Dev nD) : sProp 𝕄 := iprop((∃ r, prngReg c r) ∗ owes (c : Thread nD τ) (0 : CellTallies nD τ sig Unit) ∅)
/-- A host stretch as a segment over the unscoped references from the contents `W`, the rest `Rr` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) (Rr : Dev nD → sProp 𝕄) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

/-- Proof data that owe nothing before the first point take the core's dues at nothing, no wait recorded, -/
theorem owesAt_entry {cfg : Cfg sig Λ₀} {c : Dev nD} (dat : Dat τ (Elt F) Unit ℕ (UR sig nD τ) ℕ cfg c) (ho : dat.owed 0 = 0) :
    (owes (c : Thread nD τ) (0 : CellTallies nD τ sig Unit) ∅ : sProp 𝕄) ⊢ dat.owesAt () 0 := by
  unfold Pipeline.Dat.owesAt Pipeline.owesWithin
  rw [ho]
  iintro HO; iexists ∅; isplitr
  · ipureintro; simp
  iexact HO
/-- and proof data that owe nothing after the last point give them back at nothing, whatever was recorded. -/
theorem owesAt_exit {cfg : Cfg sig Λ₀} {c : Dev nD} (dat : Dat τ (Elt F) Unit ℕ (UR sig nD τ) ℕ cfg c) (ho : dat.owed (Fin.last cfg.N) = 0) :
    dat.owesAt () (Fin.last cfg.N) ⊢ (iprop(∃ W, owes (c : Thread nD τ) (0 : CellTallies nD τ sig Unit) W) : sProp 𝕄) := by
  unfold Pipeline.Dat.owesAt Pipeline.owesWithin
  rw [ho]
  iintro ⟨%W, -, HO⟩; iexists W; iexact HO

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W5 m ρ dat0 c) ∗ ∃ r, prngReg c r)

/-! ## The regions as segments -/

set_option backward.isDefEq.respectTransparency.types false in
/-- REGION 0 over the thread state: entered from every unscoped buffer at `W2`, left at `W3`. Its arrays split out
    of the unscoped buffers and put back at the exit contents; the generator register into the class invariant and
    out (through the given facts about region 0's invariant at the first and after the last point); nothing owed;
    no semaphore of the kernel's own. -/
def reg0 (hA0 : ∀ (V : (c : Dev nD) → (b : Ref sig .tc) → Buf (Elt F) ((c : Thread nD τ).loc b)) (c : Dev nD) (w : Fin cfg0.W), (dat0 V c).A w = V c (Pipeline.arrRef spec0 w))
    (hq0 : ∀ (V : (c : Dev nD) → (b : Ref sig .tc) → Buf (Elt F) ((c : Thread nD τ).loc b)) (c : Dev nD) (w : Fin cfg0.W), (dat0 V c).q w = fullShare)
    (howed0 : ∀ (V : (c : Dev nD) → (b : Ref sig .tc) → Buf (Elt F) ((c : Thread nD τ).loc b)) (c : Dev nD) (t : Fin (cfg0.N + 1)), (dat0 V c).owed t = 0)
    (hbody0 : ∀ (V : (c : Dev nD) → (b : Ref sig .tc) → Buf (Elt F) ((c : Thread nD τ).loc b)) (c : Dev nD), BodyObligation (dat0 V c) (defs₀ (F := F)) Variants.none () Set.univ)
    (hin0 : ∀ (V : (c : Dev nD) → (b : Ref sig .tc) → Buf (Elt F) ((c : Thread nD τ).loc b)) (c : Dev nD), (Pipeline.ΦA spec0 c : sProp 𝕄) ⊢ (dat0 V c).Φ 0)
    (hout0 : ∀ (V : (c : Dev nD) → (b : Ref sig .tc) → Buf (Elt F) ((c : Thread nD τ).loc b)) (c : Dev nD), (dat0 V c).Φ (Fin.last cfg0.N) ⊢ (Pipeline.ΦA spec0 c : sProp 𝕄)) :
    Pipeline.RegionSeg (pcfgs (F := F)) adm (pdats m ρ dat0) () defs₀ 𝒱₀ L lv 0 where
  win := launch0.win.to₀
  block_pos := launch0.block_pos
  stage_whole := launch0.stage_whole
  K := PEmpty
  osem k := k.elim
  ho := Pipeline.OwnSemFacts.none _
  hbody c := (hbody0 (V2 m ρ) c).loose
  hwaits := Pipeline.hwaits_of_owed_zero _ _ _ _ L lv 0 fun c t => howed0 (V2 m ρ) c t
  pre c := iprop(StableHlo.held (c : Thread nD τ) (Pipeline.ucRefs τ sig) (W2 m ρ c) ∗ R₀ c)
  post c := iprop(StableHlo.held (c : Thread nD τ) (Pipeline.ucRefs τ sig) (W3 m ρ dat0 c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := Pipeline.arrays_of_unscopedBufs (p := 0) (pcfgs (F := F)) adm (pdats m ρ dat0) launch0.win launch0.arr_whole c
      ((pdats m ρ dat0 0 c).share_full fun w => hq0 (V2 m ρ) c w) (V2 m ρ c) fun w => hA0 (V2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_entry (dat0 (V2 m ρ) c) (howed0 (V2 m ρ) c 0)); iexact HO
    isplitl [Hp]; · iexact Hp
    iexact Hrest
  hin c := by
    refine BIBase.Entails.trans ?_ (hin0 (V2 m ρ) c)
    unfold Pipeline.ΦA
    iintro ⟨Hp, -, Hr⟩
    isplitl [Hr]; · iexact Hr
    iexact Hp
  hout c := by
    rw [Pipeline.ownSems0_none]
    refine BIBase.Entails.trans (hout0 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ dat0) ((pdats m ρ dat0 0 c).share_full fun w => hq0 (V2 m ρ) c w)
      (V2 m ρ c) (V3 m ρ dat0 c) ((pdats m ρ dat0 0 c).arrAt · cfg0.N) (hF0 m ρ dat0 c) (hrest0 m ρ dat0 c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_exit (dat0 (V2 m ρ) c) (howed0 (V2 m ρ) c (Fin.last cfg0.N))); iexact HO

set_option backward.isDefEq.respectTransparency.types false in
/-- REGION 1 over the thread state: entered from every unscoped buffer at `W4`, left at `W5` (what the launch
    reads at the end). Its arrays split out of the unscoped buffers and put back at the exit contents; the generator
    register into the class invariant and out; nothing owed; no semaphore of the kernel's own. -/
def reg1 : Pipeline.RegionSeg (pcfgs (F := F)) adm (pdats m ρ dat0) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ dat0) c).loose
  hwaits := Pipeline.hwaits_of_owed_zero _ _ _ _ L lv 1 fun c t => owed_eq1 (V4 m ρ dat0) c t
  pre c := iprop(StableHlo.held (c : Thread nD τ) (Pipeline.ucRefs τ sig) (W4 m ρ dat0 c) ∗ R c)
  post c := iprop(Tₙ m ρ dat0 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V4 m ρ dat0 c)
  hentry c := by
    rw [Pipeline.ownSems0_none]
    have hsplit := Pipeline.arrays_of_unscopedBufs (p := 1) (pcfgs (F := F)) adm (pdats m ρ dat0) launch1.win launch1.arr_whole c
      ((pdats m ρ dat0 1 c).share_full fun w => q_eq1 (V4 m ρ dat0) c w) (V4 m ρ dat0 c) fun w => A_eq1 (V4 m ρ dat0) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ dat0 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ dat0 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ dat0) ((pdats m ρ dat0 1 c).share_full fun w => q_eq1 (V4 m ρ dat0) c w)
      (V4 m ρ dat0 c) (V5 m ρ dat0 c) ((pdats m ρ dat0 1 c).arrAt · cfg1.N) (hF1 m ρ dat0 c) (hrest1 m ρ dat0 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's 5 segments in order: a host segment per stretch from its boundary's contents, a region per
    pallas_call. -/
abbrev segs (hA0 : ∀ (V : (c : Dev nD) → (b : Ref sig .tc) → Buf (Elt F) ((c : Thread nD τ).loc b)) (c : Dev nD) (w : Fin cfg0.W), (dat0 V c).A w = V c (Pipeline.arrRef spec0 w))
    (hq0 : ∀ (V : (c : Dev nD) → (b : Ref sig .tc) → Buf (Elt F) ((c : Thread nD τ).loc b)) (c : Dev nD) (w : Fin cfg0.W), (dat0 V c).q w = fullShare)
    (howed0 : ∀ (V : (c : Dev nD) → (b : Ref sig .tc) → Buf (Elt F) ((c : Thread nD τ).loc b)) (c : Dev nD) (t : Fin (cfg0.N + 1)), (dat0 V c).owed t = 0)
    (hbody0 : ∀ (V : (c : Dev nD) → (b : Ref sig .tc) → Buf (Elt F) ((c : Thread nD τ).loc b)) (c : Dev nD), BodyObligation (dat0 V c) (defs₀ (F := F)) Variants.none () Set.univ)
    (hin0 : ∀ (V : (c : Dev nD) → (b : Ref sig .tc) → Buf (Elt F) ((c : Thread nD τ).loc b)) (c : Dev nD), (Pipeline.ΦA spec0 c : sProp 𝕄) ⊢ (dat0 V c).Φ 0)
    (hout0 : ∀ (V : (c : Dev nD) → (b : Ref sig .tc) → Buf (Elt F) ((c : Thread nD τ).loc b)) (c : Dev nD), (dat0 V c).Φ (Fin.last cfg0.N) ⊢ (Pipeline.ΦA spec0 c : sProp 𝕄)) :
    List (Pipeline.Seg (pcfgs (F := F)) adm (pdats m ρ dat0) () defs₀ 𝒱₀ L lv) :=
  [ .host (hseg hostOps0 hostOps0_sub hostOps0_fresh (W0 m ρ) R₀),
    .host (hseg hostOps0_1 hostOps0_1_sub hostOps0_1_fresh (W1 m ρ) R₀),
    .region (reg0 m ρ dat0 hA0 hq0 howed0 hbody0 hin0 hout0),
    .host (hseg hostOps1 hostOps1_sub hostOps1_fresh (W3 m ρ dat0) R),
    .region (reg1 m ρ dat0) ]

set_option backward.isDefEq.respectTransparency.types false in
/-- THE RUN, at any post `Q` that follows from "every unscoped buffer of every core holds the last boundary's
    contents": at the compiled mesh, from any memory with zero counters, every weakly fair execution of the program
    on the TensorCores terminates, nothing faulting, and every final state satisfies `Q`: the launch theorem over
    the segments, the last thread state read against the final state. -/
theorem run_post (hA0 : ∀ (V : (c : Dev nD) → (b : Ref sig .tc) → Buf (Elt F) ((c : Thread nD τ).loc b)) (c : Dev nD) (w : Fin cfg0.W), (dat0 V c).A w = V c (Pipeline.arrRef spec0 w))
    (hq0 : ∀ (V : (c : Dev nD) → (b : Ref sig .tc) → Buf (Elt F) ((c : Thread nD τ).loc b)) (c : Dev nD) (w : Fin cfg0.W), (dat0 V c).q w = fullShare)
    (howed0 : ∀ (V : (c : Dev nD) → (b : Ref sig .tc) → Buf (Elt F) ((c : Thread nD τ).loc b)) (c : Dev nD) (t : Fin (cfg0.N + 1)), (dat0 V c).owed t = 0)
    (hbody0 : ∀ (V : (c : Dev nD) → (b : Ref sig .tc) → Buf (Elt F) ((c : Thread nD τ).loc b)) (c : Dev nD), BodyObligation (dat0 V c) (defs₀ (F := F)) Variants.none () Set.univ)
    (hin0 : ∀ (V : (c : Dev nD) → (b : Ref sig .tc) → Buf (Elt F) ((c : Thread nD τ).loc b)) (c : Dev nD), (Pipeline.ΦA spec0 c : sProp 𝕄) ⊢ (dat0 V c).Φ 0)
    (hout0 : ∀ (V : (c : Dev nD) → (b : Ref sig .tc) → Buf (Elt F) ((c : Thread nD τ).loc b)) (c : Dev nD), (dat0 V c).Φ (Fin.last cfg0.N) ⊢ (Pipeline.ΦA spec0 c : sProp 𝕄))
    {Q : PUnit × MemSt nD τ sig (Elt F) → Prop}
    (hQ : ∀ s : MemSt nD τ sig (Elt F), (∀ c : Dev nD, ∀ b ∈ Pipeline.ucRefs τ sig, s.mem (((c : Thread nD τ)).1, b) = W5 m ρ dat0 c b) → Q (⟨⟩, s)) :
    θ_run defs (onTc (τ := τ) (main (F := F))) ⟨m, fun _ => 0, ρ⟩ Q :=
  Pipeline.θ_run_regions_kit (pcfgs (F := F)) adm (pdats m ρ dat0) () cellOf_inj emb₁ defs₀ 𝒱₀ L lv m ρ main (segs m ρ dat0 hA0 hq0 howed0 hbody0 hin0 hout0)
    (fun c Q => by
      rewrite [main_chain c, Pipeline.Seg.run_eq_chain,
        show (segs m ρ dat0 hA0 hq0 howed0 hbody0 hin0 hout0).map Pipeline.Seg.prog = [
          StableHlo.seq hostOps0,
          StableHlo.seq hostOps0_1,
          Prog.lift (.customCall (Pipeline.entry 0) ()),
          StableHlo.seq hostOps1,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R₀ c)) (Tₙ := Tₙ m ρ dat0)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexact HO)
    (QY := fun c s => ∀ b ∈ Pipeline.ucRefs τ sig, s.mem (((c : Thread nD τ)).1, b) = W5 m ρ dat0 c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ dat0 c) s')
      isplitl [Hh] <;> iassumption)
    (hQ := hQ)

/-- The run, at the reading of every unscoped buffer itself. -/
theorem run_all (hA0 : ∀ (V : (c : Dev nD) → (b : Ref sig .tc) → Buf (Elt F) ((c : Thread nD τ).loc b)) (c : Dev nD) (w : Fin cfg0.W), (dat0 V c).A w = V c (Pipeline.arrRef spec0 w))
    (hq0 : ∀ (V : (c : Dev nD) → (b : Ref sig .tc) → Buf (Elt F) ((c : Thread nD τ).loc b)) (c : Dev nD) (w : Fin cfg0.W), (dat0 V c).q w = fullShare)
    (howed0 : ∀ (V : (c : Dev nD) → (b : Ref sig .tc) → Buf (Elt F) ((c : Thread nD τ).loc b)) (c : Dev nD) (t : Fin (cfg0.N + 1)), (dat0 V c).owed t = 0)
    (hbody0 : ∀ (V : (c : Dev nD) → (b : Ref sig .tc) → Buf (Elt F) ((c : Thread nD τ).loc b)) (c : Dev nD), BodyObligation (dat0 V c) (defs₀ (F := F)) Variants.none () Set.univ)
    (hin0 : ∀ (V : (c : Dev nD) → (b : Ref sig .tc) → Buf (Elt F) ((c : Thread nD τ).loc b)) (c : Dev nD), (Pipeline.ΦA spec0 c : sProp 𝕄) ⊢ (dat0 V c).Φ 0)
    (hout0 : ∀ (V : (c : Dev nD) → (b : Ref sig .tc) → Buf (Elt F) ((c : Thread nD τ).loc b)) (c : Dev nD), (dat0 V c).Φ (Fin.last cfg0.N) ⊢ (Pipeline.ΦA spec0 c : sProp 𝕄)) :
    θ_run defs (onTc (τ := τ) (main (F := F))) ⟨m, fun _ => 0, ρ⟩ (fun r => ∀ c : Dev nD,
      ∀ b ∈ Pipeline.ucRefs τ sig, r.2.mem (((c : Thread nD τ)).1, b) = W5 m ρ dat0 c b) :=
  run_post m ρ dat0 hA0 hq0 howed0 hbody0 hin0 hout0 fun s h => h

/-- THE FRAME, at any float instance: every weakly fair execution terminates, nothing faulting, and every final
    state has the three argument arrays as launched. -/
theorem frame (hA0 : ∀ (V : (c : Dev nD) → (b : Ref sig .tc) → Buf (Elt F) ((c : Thread nD τ).loc b)) (c : Dev nD) (w : Fin cfg0.W), (dat0 V c).A w = V c (Pipeline.arrRef spec0 w))
    (hq0 : ∀ (V : (c : Dev nD) → (b : Ref sig .tc) → Buf (Elt F) ((c : Thread nD τ).loc b)) (c : Dev nD) (w : Fin cfg0.W), (dat0 V c).q w = fullShare)
    (howed0 : ∀ (V : (c : Dev nD) → (b : Ref sig .tc) → Buf (Elt F) ((c : Thread nD τ).loc b)) (c : Dev nD) (t : Fin (cfg0.N + 1)), (dat0 V c).owed t = 0)
    (hbody0 : ∀ (V : (c : Dev nD) → (b : Ref sig .tc) → Buf (Elt F) ((c : Thread nD τ).loc b)) (c : Dev nD), BodyObligation (dat0 V c) (defs₀ (F := F)) Variants.none () Set.univ)
    (hin0 : ∀ (V : (c : Dev nD) → (b : Ref sig .tc) → Buf (Elt F) ((c : Thread nD τ).loc b)) (c : Dev nD), (Pipeline.ΦA spec0 c : sProp 𝕄) ⊢ (dat0 V c).Φ 0)
    (hout0 : ∀ (V : (c : Dev nD) → (b : Ref sig .tc) → Buf (Elt F) ((c : Thread nD τ).loc b)) (c : Dev nD), (dat0 V c).Φ (Fin.last cfg0.N) ⊢ (Pipeline.ΦA spec0 c : sProp 𝕄)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_post m ρ dat0 hA0 hq0 howed0 hbody0 hin0 hout0 fun s h c =>
    ⟨(h c _ (mem_uc main_arg0 (by decide))).trans (W5_main_arg0 m ρ dat0 c),
     (h c _ (mem_uc main_arg1 (by decide))).trans (W5_main_arg1 m ρ dat0 c),
     (h c _ (mem_uc main_arg2 (by decide))).trans (W5_main_arg2 m ρ dat0 c)⟩

/-- The run, at the result: the output array of region 1 ends at what that region's write-backs leave in it, folded
    from its entry contents, and the three argument arrays as launched. -/
theorem run_value (hA0 : ∀ (V : (c : Dev nD) → (b : Ref sig .tc) → Buf (Elt F) ((c : Thread nD τ).loc b)) (c : Dev nD) (w : Fin cfg0.W), (dat0 V c).A w = V c (Pipeline.arrRef spec0 w))
    (hq0 : ∀ (V : (c : Dev nD) → (b : Ref sig .tc) → Buf (Elt F) ((c : Thread nD τ).loc b)) (c : Dev nD) (w : Fin cfg0.W), (dat0 V c).q w = fullShare)
    (howed0 : ∀ (V : (c : Dev nD) → (b : Ref sig .tc) → Buf (Elt F) ((c : Thread nD τ).loc b)) (c : Dev nD) (t : Fin (cfg0.N + 1)), (dat0 V c).owed t = 0)
    (hbody0 : ∀ (V : (c : Dev nD) → (b : Ref sig .tc) → Buf (Elt F) ((c : Thread nD τ).loc b)) (c : Dev nD), BodyObligation (dat0 V c) (defs₀ (F := F)) Variants.none () Set.univ)
    (hin0 : ∀ (V : (c : Dev nD) → (b : Ref sig .tc) → Buf (Elt F) ((c : Thread nD τ).loc b)) (c : Dev nD), (Pipeline.ΦA spec0 c : sProp 𝕄) ⊢ (dat0 V c).Φ 0)
    (hout0 : ∀ (V : (c : Dev nD) → (b : Ref sig .tc) → Buf (Elt F) ((c : Thread nD τ).loc b)) (c : Dev nD), (dat0 V c).Φ (Fin.last cfg0.N) ⊢ (Pipeline.ΦA spec0 c : sProp 𝕄)) :
    θ_run defs (onTc (τ := τ) (main (F := F))) ⟨m, fun _ => 0, ρ⟩ (fun r => ∀ c : Dev nD,
      r.2.mem ((c.tc : Thread nD τ).loc main_v16) = (dat1 (V4 m ρ dat0) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_post m ρ dat0 hA0 hq0 howed0 hbody0 hin0 hout0 fun s h c =>
    ⟨(h c _ (mem_uc main_v16 (by decide))).trans (W5_arr m ρ dat0 c 4),
     (h c _ (mem_uc main_arg0 (by decide))).trans (W5_main_arg0 m ρ dat0 c),
     (h c _ (mem_uc main_arg1 (by decide))).trans (W5_main_arg1 m ρ dat0 c),
     (h c _ (mem_uc main_arg2 (by decide))).trans (W5_main_arg2 m ρ dat0 c)⟩

end Cert.KernelIdeal.Hand

end
-- ==== Proof.KPay.lean ====
/-
  The two kernel bodies' arithmetic on the extended reals, index by index.

  The first body adds to its accumulator the product of the transposed block of scaled rows with the block of
  `x`: entry (k, c) gains `∑ j, a j k * b j c` over the block's 1024 rows. The second multiplies a block of
  scaled rows by the accumulated matrix, divides every row by that row's divisor, and multiplies by `w`:
  entry (i, o) is `∑ c, ((∑ k, a i k * t k c) / d i) * w c o`. A change of float format is the identity.
-/
import proofs.«142103_j4440996184607_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

theorem mmT_lhs_c (j : S512x1024.Idx) (q : dot_S1024x512_S1024x1024_S512x1024_0_0_1_1_n_n.contr.Idx) :
    (dot_S1024x512_S1024x1024_S512x1024_0_0_1_1_n_n.lhsIdx j q 0).val = (q ⟨0, by decide⟩).val :=
  dot_S1024x512_S1024x1024_S512x1024_0_0_1_1_n_n.lhsIdx_val_of_single rfl j q
theorem mmT_lhs_n (j : S512x1024.Idx) (q : dot_S1024x512_S1024x1024_S512x1024_0_0_1_1_n_n.contr.Idx) :
    (dot_S1024x512_S1024x1024_S512x1024_0_0_1_1_n_n.lhsIdx j q 1).val = (j 0).val := by
  unfold DotDims.lhsIdx
  rw [dif_neg (show ¬(1 : Fin S1024x512.rank) ∈ dot_S1024x512_S1024x1024_S512x1024_0_0_1_1_n_n.lhsBatch by decide), dif_pos (show (1 : Fin S1024x512.rank) ∈ dot_S1024x512_S1024x1024_S512x1024_0_0_1_1_n_n.lhsNonContracting by decide)]
  rfl
theorem mmT_rhs_c (j : S512x1024.Idx) (q : dot_S1024x512_S1024x1024_S512x1024_0_0_1_1_n_n.contr.Idx) :
    (dot_S1024x512_S1024x1024_S512x1024_0_0_1_1_n_n.rhsIdx j q 0).val = (q ⟨0, by decide⟩).val :=
  dot_S1024x512_S1024x1024_S512x1024_0_0_1_1_n_n.rhsIdx_val_of_single rfl j q
theorem mmT_rhs_n (j : S512x1024.Idx) (q : dot_S1024x512_S1024x1024_S512x1024_0_0_1_1_n_n.contr.Idx) :
    (dot_S1024x512_S1024x1024_S512x1024_0_0_1_1_n_n.rhsIdx j q 1).val = (j 1).val := by
  unfold DotDims.rhsIdx
  rw [dif_neg (show ¬(1 : Fin S1024x1024.rank) ∈ dot_S1024x512_S1024x1024_S512x1024_0_0_1_1_n_n.rhsBatch by decide), dif_pos (show (1 : Fin S1024x1024.rank) ∈ dot_S1024x512_S1024x1024_S512x1024_0_0_1_1_n_n.rhsNonContracting by decide)]
  rfl
/-- The transposed-left product of a [1024, 512] block with a [1024, 1024] block into zero. -/
theorem mmT_apply (l : FVec Ideal S1024x512 .bf16) (r : FVec Ideal S1024x1024 .bf16) (k : Fin 512) (c : Fin 1024) :
    matmul dot_S1024x512_S1024x1024_S512x1024_0_0_1_1_n_n none l r (constant S512x1024 .f32 0x00000000#32) (ix2 k c)
      = ∑ q : Fin 1024, l (ix2 q k) * r (ix2 q c) := by
  refine (Ideal.matmul_constant_zero_apply dot_S1024x512_S1024x1024_S512x1024_0_0_1_1_n_n none l r (ix2 k c)).trans ?_
  rw [← Equiv.sum_comp (contrEquiv1 dot_S1024x512_S1024x1024_S512x1024_0_0_1_1_n_n 1024 rfl rfl).symm]
  refine Finset.sum_congr rfl fun q _ => ?_
  have hk := contrEquiv1_symm_val dot_S1024x512_S1024x1024_S512x1024_0_0_1_1_n_n 1024 rfl rfl q
  have el : dot_S1024x512_S1024x1024_S512x1024_0_0_1_1_n_n.lhsIdx (ix2 k c) ((contrEquiv1 dot_S1024x512_S1024x1024_S512x1024_0_0_1_1_n_n 1024 rfl rfl).symm q) = ix2 q k := funext fun d => Fin.ext (by
    match d with
    | ⟨0, _⟩ => exact (mmT_lhs_c _ _).trans hk
    | ⟨1, _⟩ => exact mmT_lhs_n _ _)
  have er : dot_S1024x512_S1024x1024_S512x1024_0_0_1_1_n_n.rhsIdx (ix2 k c) ((contrEquiv1 dot_S1024x512_S1024x1024_S512x1024_0_0_1_1_n_n 1024 rfl rfl).symm q) = ix2 q c := funext fun d => Fin.ext (by
    match d with
    | ⟨0, _⟩ => exact (mmT_rhs_c _ _).trans hk
    | ⟨1, _⟩ => exact mmT_rhs_n _ _)
  rw [el, er]

theorem mm1_lhs_c (j : S1024x1024.Idx) (q : dot_S1024x512_S512x1024_S1024x1024_1_0_0_1_n_n.contr.Idx) :
    (dot_S1024x512_S512x1024_S1024x1024_1_0_0_1_n_n.lhsIdx j q 1).val = (q ⟨0, by decide⟩).val :=
  dot_S1024x512_S512x1024_S1024x1024_1_0_0_1_n_n.lhsIdx_val_of_single rfl j q
theorem mm1_lhs_n (j : S1024x1024.Idx) (q : dot_S1024x512_S512x1024_S1024x1024_1_0_0_1_n_n.contr.Idx) :
    (dot_S1024x512_S512x1024_S1024x1024_1_0_0_1_n_n.lhsIdx j q 0).val = (j 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem mm1_rhs_c (j : S1024x1024.Idx) (q : dot_S1024x512_S512x1024_S1024x1024_1_0_0_1_n_n.contr.Idx) :
    (dot_S1024x512_S512x1024_S1024x1024_1_0_0_1_n_n.rhsIdx j q 0).val = (q ⟨0, by decide⟩).val :=
  dot_S1024x512_S512x1024_S1024x1024_1_0_0_1_n_n.rhsIdx_val_of_single rfl j q
theorem mm1_rhs_n (j : S1024x1024.Idx) (q : dot_S1024x512_S512x1024_S1024x1024_1_0_0_1_n_n.contr.Idx) :
    (dot_S1024x512_S512x1024_S1024x1024_1_0_0_1_n_n.rhsIdx j q 1).val = (j 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl
/-- The plain product of a [1024, 512] block with a [512, 1024] matrix into zero. -/
theorem mm1_apply (l : FVec Ideal S1024x512 .bf16) (r : FVec Ideal S512x1024 .bf16) (i : Fin 1024) (c : Fin 1024) :
    matmul dot_S1024x512_S512x1024_S1024x1024_1_0_0_1_n_n none l r (constant S1024x1024 .f32 0x00000000#32) (ix2 i c)
      = ∑ q : Fin 512, l (ix2 i q) * r (ix2 q c) := by
  refine (Ideal.matmul_constant_zero_apply dot_S1024x512_S512x1024_S1024x1024_1_0_0_1_n_n none l r (ix2 i c)).trans ?_
  rw [← Equiv.sum_comp (contrEquiv1 dot_S1024x512_S512x1024_S1024x1024_1_0_0_1_n_n 512 rfl rfl).symm]
  refine Finset.sum_congr rfl fun q _ => ?_
  have hk := contrEquiv1_symm_val dot_S1024x512_S512x1024_S1024x1024_1_0_0_1_n_n 512 rfl rfl q
  have el : dot_S1024x512_S512x1024_S1024x1024_1_0_0_1_n_n.lhsIdx (ix2 i c) ((contrEquiv1 dot_S1024x512_S512x1024_S1024x1024_1_0_0_1_n_n 512 rfl rfl).symm q) = ix2 i q := funext fun d => Fin.ext (by
    match d with
    | ⟨0, _⟩ => exact mm1_lhs_n _ _
    | ⟨1, _⟩ => exact (mm1_lhs_c _ _).trans hk)
  have er : dot_S1024x512_S512x1024_S1024x1024_1_0_0_1_n_n.rhsIdx (ix2 i c) ((contrEquiv1 dot_S1024x512_S512x1024_S1024x1024_1_0_0_1_n_n 512 rfl rfl).symm q) = ix2 q c := funext fun d => Fin.ext (by
    match d with
    | ⟨0, _⟩ => exact (mm1_rhs_c _ _).trans hk
    | ⟨1, _⟩ => exact mm1_rhs_n _ _)
  rw [el, er]

theorem mm2_lhs_c (j : S1024x1024.Idx) (q : dot_S1024x1024_S1024x1024_S1024x1024_1_0_0_1_n_n.contr.Idx) :
    (dot_S1024x1024_S1024x1024_S1024x1024_1_0_0_1_n_n.lhsIdx j q 1).val = (q ⟨0, by decide⟩).val :=
  dot_S1024x1024_S1024x1024_S1024x1024_1_0_0_1_n_n.lhsIdx_val_of_single rfl j q
theorem mm2_lhs_n (j : S1024x1024.Idx) (q : dot_S1024x1024_S1024x1024_S1024x1024_1_0_0_1_n_n.contr.Idx) :
    (dot_S1024x1024_S1024x1024_S1024x1024_1_0_0_1_n_n.lhsIdx j q 0).val = (j 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem mm2_rhs_c (j : S1024x1024.Idx) (q : dot_S1024x1024_S1024x1024_S1024x1024_1_0_0_1_n_n.contr.Idx) :
    (dot_S1024x1024_S1024x1024_S1024x1024_1_0_0_1_n_n.rhsIdx j q 0).val = (q ⟨0, by decide⟩).val :=
  dot_S1024x1024_S1024x1024_S1024x1024_1_0_0_1_n_n.rhsIdx_val_of_single rfl j q
theorem mm2_rhs_n (j : S1024x1024.Idx) (q : dot_S1024x1024_S1024x1024_S1024x1024_1_0_0_1_n_n.contr.Idx) :
    (dot_S1024x1024_S1024x1024_S1024x1024_1_0_0_1_n_n.rhsIdx j q 1).val = (j 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl
/-- The plain product of a [1024, 1024] block with a [1024, 1024] matrix into zero. -/
theorem mm2_apply (l : FVec Ideal S1024x1024 .bf16) (r : FVec Ideal S1024x1024 .bf16) (i : Fin 1024) (o : Fin 1024) :
    matmul dot_S1024x1024_S1024x1024_S1024x1024_1_0_0_1_n_n none l r (constant S1024x1024 .f32 0x00000000#32) (ix2 i o)
      = ∑ q : Fin 1024, l (ix2 i q) * r (ix2 q o) := by
  refine (Ideal.matmul_constant_zero_apply dot_S1024x1024_S1024x1024_S1024x1024_1_0_0_1_n_n none l r (ix2 i o)).trans ?_
  rw [← Equiv.sum_comp (contrEquiv1 dot_S1024x1024_S1024x1024_S1024x1024_1_0_0_1_n_n 1024 rfl rfl).symm]
  refine Finset.sum_congr rfl fun q _ => ?_
  have hk := contrEquiv1_symm_val dot_S1024x1024_S1024x1024_S1024x1024_1_0_0_1_n_n 1024 rfl rfl q
  have el : dot_S1024x1024_S1024x1024_S1024x1024_1_0_0_1_n_n.lhsIdx (ix2 i o) ((contrEquiv1 dot_S1024x1024_S1024x1024_S1024x1024_1_0_0_1_n_n 1024 rfl rfl).symm q) = ix2 i q := funext fun d => Fin.ext (by
    match d with
    | ⟨0, _⟩ => exact mm2_lhs_n _ _
    | ⟨1, _⟩ => exact (mm2_lhs_c _ _).trans hk)
  have er : dot_S1024x1024_S1024x1024_S1024x1024_1_0_0_1_n_n.rhsIdx (ix2 i o) ((contrEquiv1 dot_S1024x1024_S1024x1024_S1024x1024_1_0_0_1_n_n 1024 rfl rfl).symm q) = ix2 q o := funext fun d => Fin.ext (by
    match d with
    | ⟨0, _⟩ => exact (mm2_rhs_c _ _).trans hk
    | ⟨1, _⟩ => exact mm2_rhs_n _ _)
  rw [el, er]

/-- The first body's zero fill. -/
theorem k0_pay1_apply (j : S512x1024.Idx) : k0_pay1 (F := Ideal) j = 0 := by
  unfold k0_pay1
  simp only [shapeCast_self]
  show Ideal.ofBits .f32 0x00000000#32 = 0
  exact Ideal.ofBits_zero_f32

/-- The first body's accumulation step at an entry. -/
theorem k0_pay2_apply (v3 : Vec Ideal S512x1024 .f32) (v4 : Vec Ideal S1024x512 .bf16) (v6 : Vec Ideal S1024x1024 .bf16)
    (k : Fin 512) (c : Fin 1024) :
    k0_pay2 (F := Ideal) v3 v4 v6 (ix2 k c) = v3 (ix2 k c) + ∑ j : Fin 1024, v4 (ix2 j k) * v6 (ix2 j c) := by
  unfold k0_pay2
  simp only [shapeCast_self]
  rw [addf_apply, mmT_apply]

/-- A column broadcast along the rows, at an entry. -/
theorem bcastCol_apply (v : FVec Ideal S1024x1 .f32) (i : Fin 1024) (c : Fin 1024) :
    broadcastTo S1024x1024 v broadcasts_S1024x1_S1024x1024 (ix2 i c) = v (ix2 i (0 : Fin 1)) :=
  broadcastTo_apply v broadcasts_S1024x1_S1024x1024 (ix2 i c) (ix2 i (0 : Fin 1)) (fun a => match a with
    | ⟨0, _⟩ => by show i.val = if (1024 : Nat) = 1 then 0 else i.val; rw [if_neg (by decide)]
    | ⟨1, _⟩ => by show 0 = if (1 : Nat) = 1 then 0 else c.val; rw [if_pos rfl])

/-- The second body's result at an entry. -/
theorem k1_pay1_apply (v0 : Vec Ideal S1024x512 .bf16) (v2 : Vec Ideal S512x1024 .bf16) (v5 : Vec Ideal S1024x1 .f32)
    (v10 : Vec Ideal S1024x1024 .bf16) (i : Fin 1024) (o : Fin 1024) :
    k1_pay1 (F := Ideal) v0 v2 v5 v10 (ix2 i o)
      = ∑ c : Fin 1024, Ideal.div (∑ k : Fin 512, v0 (ix2 i k) * v2 (ix2 k c)) (v5 (ix2 i (0 : Fin 1))) * v10 (ix2 c o) := by
  unfold k1_pay1
  simp only [shapeCast_self]
  rw [mm2_apply]
  refine Finset.sum_congr rfl fun c _ => ?_
  rw [truncf_apply, divf_apply, mm1_apply, bcastCol_apply]

end Cert.KernelIdeal.Pay

end
-- ==== Proof.BlockSum.lean ====
/-
  Bookkeeping for a sum over 8192 terms accumulated in 8 blocks of 1024.

  `part f n` is the sum of the first `n` blocks, written as a sum over all 8192 indices of the terms whose
  index lies below `1024 * n` (and zero elsewhere). It starts at zero, each step adds the next block of 1024
  terms, and after 8 steps it is the whole sum. The step is read off on sums indexed by natural numbers: the
  family is extended by zero beyond 8192, `part f n` is then the sum over `range (1024 * n)`, and
  `range (a + b)` splits into `range a` and the shifted `range b`.
-/
import Mathlib

open scoped BigOperators

namespace Cert.BlockSum

/-- The sum of the first `n` blocks of 1024 terms. -/
def part {M : Type*} [AddCommMonoid M] (f : Fin 8192 → M) (n : ℕ) : M :=
  ∑ j : Fin 8192, if j.val < 1024 * n then f j else 0

/-- The family extended by zero to every natural number. -/
def ext0 {M : Type*} [AddCommMonoid M] (f : Fin 8192 → M) (m : ℕ) : M :=
  if h : m < 8192 then f ⟨m, h⟩ else 0

/-- Below 8192 the extension is the family. -/
theorem ext0_of_lt {M : Type*} [AddCommMonoid M] (f : Fin 8192 → M) {m : ℕ} (h : m < 8192) :
    ext0 f m = f ⟨m, h⟩ :=
  dif_pos h

/-- At the value of an index the extension is the family. -/
theorem ext0_val {M : Type*} [AddCommMonoid M] (f : Fin 8192 → M) (j : Fin 8192) : ext0 f j.val = f j :=
  ext0_of_lt f j.isLt

/-- The first `n ≤ 8` blocks as a sum over an initial segment of the natural numbers. -/
theorem part_eq_range {M : Type*} [AddCommMonoid M] (f : Fin 8192 → M) {n : ℕ} (hn : n ≤ 8) :
    part f n = ∑ m ∈ Finset.range (1024 * n), ext0 f m := by
  have h1 : part f n = ∑ j : Fin 8192, (fun m : ℕ => if m < 1024 * n then ext0 f m else 0) j.val := by
    unfold part
    exact Finset.sum_congr rfl fun j _ => by simp only [ext0_val]
  rw [h1, Fin.sum_univ_eq_sum_range (fun m : ℕ => if m < 1024 * n then ext0 f m else 0) 8192,
    ← Finset.sum_filter]
  congr 1
  ext m
  simp only [Finset.mem_filter, Finset.mem_range]
  omega

/-- No block: the sum is zero. -/
theorem part_zero {M : Type*} [AddCommMonoid M] (f : Fin 8192 → M) : part f 0 = 0 := by
  unfold part
  exact Finset.sum_eq_zero fun j _ => if_neg (by omega)

/-- One more block adds its 1024 terms. -/
theorem part_succ {M : Type*} [AddCommMonoid M] (f : Fin 8192 → M) (n : ℕ) (hn : n < 8) :
    part f (n + 1) = part f n + ∑ q : Fin 1024, f ⟨1024 * n + q.val, by omega⟩ := by
  have e : 1024 * (n + 1) = 1024 * n + 1024 := by omega
  rw [part_eq_range f (by omega : n + 1 ≤ 8), part_eq_range f (by omega : n ≤ 8), e, Finset.sum_range_add]
  congr 1
  rw [← Fin.sum_univ_eq_sum_range (fun x : ℕ => ext0 f (1024 * n + x)) 1024]
  exact Finset.sum_congr rfl fun q _ => ext0_of_lt f _

/-- All 8 blocks: the whole sum. -/
theorem part_eight {M : Type*} [AddCommMonoid M] (f : Fin 8192 → M) : part f 8 = ∑ j, f j := by
  unfold part
  exact Finset.sum_congr rfl fun j _ => if_pos (by omega)

end Cert.BlockSum
-- ==== Proof.KValT.lean ====
/-
  What the first launch leaves in its result array, on the extended reals.

  The launch walks 8 blocks of 1024 rows of the scaled rows `a` and of `b`. It keeps an accumulator, zero before
  the first block, and at block `t` adds `∑ q, a (1024 t + q) k * b (1024 t + q) c` to entry `(k, c)`; the result
  buffer is a copy of the accumulator and is written back once, after the last block. So the result's entry
  `(k, c)` is `∑ j, a j k * b j c` over all 8192 rows: the partial sums over the first `1024 (n + 1)` rows, by
  induction on the block.
-/
import proofs.«142103_j4440996184607_1_alg».proof.Proof.KR0
import proofs.«142103_j4440996184607_1_alg».proof.Proof.KPay
import proofs.«142103_j4440996184607_1_alg».proof.Proof.BlockSum
import Idealize.ShloMosaic.Lib.Pipeline.Value

set_option maxRecDepth 16384

noncomputable section

namespace Cert.KernelIdeal.ValT

open Cert.KernelIdeal Cert.KernelIdeal.Gen Cert.KernelIdeal.Hand Cert.KernelIdeal.Pay Cert.BlockSum
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed block-index maps over the grid: the inputs follow the point, the result's block stays. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

theorem N8 (t : Fin cfg0.N) : t.val < 8 := lt_of_lt_of_eq t.isLt (show cfg0.N = 8 from N_0)

/-- The block of scaled rows at point `t`. -/
theorem blk0_read (c : Dev nD) (t : Fin cfg0.N) (q : Fin 1024) (k : Fin 512) :
    iblk0 V c 0 t (ix2 q k) = V c main_v11 (ix2 (⟨1024 * t.val + q.val, by have := N8 t; omega⟩ : Fin 8192) k) := by
  obtain ⟨e0, e1, -⟩ := idx_facts t
  show V c main_v11 (((cfg0.win 0).blk t).view.emb (ix2 q k)) = _
  refine congrArg (V c main_v11) (funext fun a => Fin.ext ?_)
  match a with
  | ⟨0, _⟩ => show win0_0.index t (0 : Fin 2) * 1024 + 1 * q.val = 1024 * t.val + q.val; omega
  | ⟨1, _⟩ => show win0_0.index t (1 : Fin 2) * 512 + 1 * k.val = k.val; omega

/-- The block of `b` at point `t`. -/
theorem blk1_read (c : Dev nD) (t : Fin cfg0.N) (q : Fin 1024) (cc : Fin 1024) :
    iblk0 V c 1 t (ix2 q cc) = V c main_v12 (ix2 (⟨1024 * t.val + q.val, by have := N8 t; omega⟩ : Fin 8192) cc) := by
  obtain ⟨-, -, e0, e1, -⟩ := idx_facts t
  show V c main_v12 (((cfg0.win 1).blk t).view.emb (ix2 q cc)) = _
  refine congrArg (V c main_v12) (funext fun a => Fin.ext ?_)
  match a with
  | ⟨0, _⟩ => show win0_1.index t (0 : Fin 2) * 1024 + 1 * q.val = 1024 * t.val + q.val; omega
  | ⟨1, _⟩ => show win0_1.index t (1 : Fin 2) * 1024 + 1 * cc.val = cc.val; omega

/-- Row `j`'s contribution to entry `(k, c)`. -/
def term (a : FVec Ideal S8192x512 .bf16) (b : FVec Ideal S8192x1024 .bf16) (k : Fin 512) (cc : Fin 1024) (j : Fin 8192) : EReal :=
  a (ix2 j k) * b (ix2 j cc)

/-- One block's contribution is the band of the whole sum. -/
theorem band (x0 : Vec Ideal S1024x512 .bf16) (x1 : Vec Ideal S1024x1024 .bf16)
    (a : FVec Ideal S8192x512 .bf16) (b : FVec Ideal S8192x1024 .bf16) (n : ℕ) (hn : n < 8) (k : Fin 512) (cc : Fin 1024)
    (h0 : ∀ q : Fin 1024, x0 (ix2 q k) = a (ix2 (⟨1024 * n + q.val, by omega⟩ : Fin 8192) k))
    (h1 : ∀ q : Fin 1024, x1 (ix2 q cc) = b (ix2 (⟨1024 * n + q.val, by omega⟩ : Fin 8192) cc)) :
    ∑ q : Fin 1024, x0 (ix2 q k) * x1 (ix2 q cc) = ∑ q : Fin 1024, term a b k cc ⟨1024 * n + q.val, by omega⟩ :=
  Finset.sum_congr rfl fun q _ => by rw [h0 q, h1 q]; rfl

/-- THE ACCUMULATION: after the body at point `n` both the result buffer and the accumulator hold, at `(k, c)`,
    the sum over the first `1024 (n + 1)` rows. -/
theorem acc_eq (c : Dev nD) (k : Fin 512) (cc : Fin 1024) : ∀ (n : ℕ) (hn : n < cfg0.N),
    (outsAt0 V c n hn).1 (ix2 k cc) = part (term (V c main_v11) (V c main_v12) k cc) (n + 1)
    ∧ (outsAt0 V c n hn).2 (ix2 k cc) = part (term (V c main_v11) (V c main_v12) k cc) (n + 1)
  | 0, hn => by
    have h8 : (0 : ℕ) < 8 := by decide
    rw [outsAt0_zero V c hn]
    have e : k0_pay2 (F := Ideal) (k0_pay1 (F := Ideal)) (iblk0 V c 0 ⟨0, hn⟩) (iblk0 V c 1 ⟨0, hn⟩) (ix2 k cc)
        = part (term (V c main_v11) (V c main_v12) k cc) (0 + 1) := by
      refine (k0_pay2_apply (k0_pay1 (F := Ideal)) (iblk0 V c 0 ⟨0, hn⟩) (iblk0 V c 1 ⟨0, hn⟩) k cc).trans ?_
      rw [k0_pay1_apply, part_succ _ 0 h8, part_zero]
      exact congrArg (0 + ·) (band (iblk0 V c 0 ⟨0, hn⟩) (iblk0 V c 1 ⟨0, hn⟩) (V c main_v11) (V c main_v12) 0 h8 k cc
        (fun q => blk0_read V c ⟨0, hn⟩ q k) (fun q => blk1_read V c ⟨0, hn⟩ q cc))
    exact ⟨e, e⟩
  | n + 1, hn => by
    have h8 : n + 1 < 8 := lt_of_lt_of_eq hn (show cfg0.N = 8 from N_0)
    rw [outsAt0_succ V c n hn]
    have e : k0_pay2 (F := Ideal) (outsAt0 V c n (Nat.lt_of_succ_lt hn)).2 (iblk0 V c 0 ⟨n + 1, hn⟩) (iblk0 V c 1 ⟨n + 1, hn⟩) (ix2 k cc)
        = part (term (V c main_v11) (V c main_v12) k cc) (n + 1 + 1) := by
      refine (k0_pay2_apply _ (iblk0 V c 0 ⟨n + 1, hn⟩) (iblk0 V c 1 ⟨n + 1, hn⟩) k cc).trans ?_
      rw [(acc_eq c k cc n (Nat.lt_of_succ_lt hn)).2, part_succ _ (n + 1) h8]
      exact congrArg (part (term (V c main_v11) (V c main_v12) k cc) (n + 1) + ·)
        (band (iblk0 V c 0 ⟨n + 1, hn⟩) (iblk0 V c 1 ⟨n + 1, hn⟩) (V c main_v11) (V c main_v12) (n + 1) h8 k cc
          (fun q => blk0_read V c ⟨n + 1, hn⟩ q k) (fun q => blk1_read V c ⟨n + 1, hn⟩ q cc))
    exact ⟨e, e⟩

/-- The result array as one function of the two arrays the launch reads. -/
def GT (a : FVec Ideal S8192x512 .bf16) (b : FVec Ideal S8192x1024 .bf16) : FVec Ideal S512x1024 .f32 :=
  fun idx => ∑ j : Fin 8192, term a b ⟨(idx 0).val, idx2_lt0 idx⟩ ⟨(idx 1).val, idx2_lt1 idx⟩ j

theorem hz : (![0, 0] : Fin 2 → Nat) = fun _ => 0 := funext fun a => by fin_cases a <;> rfl

/-- WHAT THE LAST POINT WRITES BACK is the whole result function (the result's one block is the whole array). -/
theorem flushed_eq (c : Dev nD) (t : Fin cfg0.N) (hf : (cfg0.win 2).flush t = true) :
    (dat0 V c).flushed 2 t = ((cfg0.win 2).blk t).view.read (Elt Ideal) (GT (V c main_v11) (V c main_v12)) := by
  have h7 : t.val % 8 = 7 := (flush0_2 t).mp hf
  have ht : t.val = 7 := by have := N8 t; omega
  obtain ⟨-, -, -, -, e0, e1⟩ := idx_facts t
  show (cfg0.win 2).cut (grid0.coords t) ((dat0 V c).after 2 t) = _
  rw [after0_2]
  funext j
  have hj : j = ix2 (⟨(j 0).val, (j 0).isLt⟩ : Fin 512) (⟨(j 1).val, (j 1).isLt⟩ : Fin 1024) :=
    funext fun a => by match a with | ⟨0, _⟩ => rfl | ⟨1, _⟩ => rfl
  have e : GT (V c main_v11) (V c main_v12) (((cfg0.win 2).blk t).view.emb j)
      = ∑ i : Fin 8192, term (V c main_v11) (V c main_v12) (⟨(j 0).val, (j 0).isLt⟩ : Fin 512) (⟨(j 1).val, (j 1).isLt⟩ : Fin 1024) i := by
    unfold GT
    congr 1
    funext i
    congr 1 <;> apply Fin.ext
    · show win0_2.index t (0 : Fin 2) * 512 + 1 * (j 0).val = (j 0).val; omega
    · show win0_2.index t (1 : Fin 2) * 1024 + 1 * (j 1).val = (j 1).val; omega
  refine Eq.trans ?_ e.symm
  refine (congrArg (outsAt0 V c t.val t.isLt).1 hj).trans ?_
  rw [(acc_eq V c _ _ t.val t.isLt).1, ht]
  exact part_eight _

/-- An index of the array is in point `t`'s block iff each coordinate is in the block's range on its axis. -/
theorem mem_blk (t : Fin cfg0.N) (i : S512x1024.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v14).slice (win0_2.rect t)).set ↔ _
  rw [View.set_slice_whole, Rect.mem_set_unit]
  exact Iff.rfl

/-- The last point writes back, and its block is the whole array. -/
theorem cover (i : S512x1024.Idx) :
    ∃ t : Fin cfg0.N, (cfg0.win 2).flush t = true ∧ i ∈ ((cfg0.win 2).blk t).view.set := by
  have hi0 : (i 0).val < 512 := (i 0).isLt
  have hi1 : (i 1).val < 1024 := (i 1).isLt
  have ht : 7 < cfg0.N := by rw [show cfg0.N = 8 from N_0]; decide
  obtain ⟨-, -, -, -, e0, e1⟩ := idx_facts ⟨7, ht⟩
  refine ⟨⟨7, ht⟩, (flush0_2 ⟨7, ht⟩).mpr rfl, ?_⟩
  rw [mem_blk]
  intro a
  match a with
  | ⟨0, _⟩ =>
    show win0_2.index ⟨7, ht⟩ (0 : Fin 2) * 512 ≤ (i 0).val ∧ (i 0).val < win0_2.index ⟨7, ht⟩ (0 : Fin 2) * 512 + 512
    omega
  | ⟨1, _⟩ =>
    show win0_2.index ⟨7, ht⟩ (1 : Fin 2) * 1024 ≤ (i 1).val ∧ (i 1).val < win0_2.index ⟨7, ht⟩ (1 : Fin 2) * 1024 + 1024
    omega

/-- THE RESULT ARRAY after the launch. -/
theorem final (c : Dev nD) : (dat0 V c).arrAt 2 cfg0.N = GT (V c main_v11) (V c main_v12) :=
  (dat0 V c).arrAt_eq_of_cover 2 _ (fun t hf => flushed_eq V c t hf) cover

end Cert.KernelIdeal.ValT

end
-- ==== Proof.KValOut.lean ====
/-
  What the second launch leaves in its result array, on the extended reals.

  The launch walks 8 blocks of 1024 rows. At block `t` the body sees rows `1024 t … 1024 t + 1023` of the scaled
  rows and of the divisor column, and the whole accumulated matrix and the whole of `w`; it writes rows
  `1024 t …` of the result. So entry `(i, o)` of the result is
  `∑ c, ((∑ k, a i k * b k c) / d i) * e c o` of the four arrays the launch finds, whatever the block of `i`.
-/
import proofs.«142103_j4440996184607_1_alg».proof.Proof.KR1
import proofs.«142103_j4440996184607_1_alg».proof.Proof.KPay
import Idealize.ShloMosaic.Lib.Pipeline.Value

set_option maxRecDepth 16384

noncomputable section

namespace Cert.KernelIdeal.ValOut

open Cert.KernelIdeal Cert.KernelIdeal.Gen Cert.KernelIdeal.Hand Cert.KernelIdeal.Pay
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- An entry of the result from the four arrays the launch reads. -/
def gout (a : FVec Ideal S8192x512 .bf16) (b : FVec Ideal S512x1024 .bf16) (d : FVec Ideal S8192x1 .f32)
    (e : FVec Ideal S1024x1024 .bf16) (i : Fin 8192) (o : Fin 1024) : EReal :=
  ∑ c : Fin 1024, Ideal.div (∑ k : Fin 512, a (ix2 i k) * b (ix2 k c)) (d (ix2 i (0 : Fin 1))) * e (ix2 c o)

/-- The result array as one function of those arrays. -/
def Gout (a : FVec Ideal S8192x512 .bf16) (b : FVec Ideal S512x1024 .bf16) (d : FVec Ideal S8192x1 .f32)
    (e : FVec Ideal S1024x1024 .bf16) : FVec Ideal S8192x1024 .f32 :=
  fun idx => gout a b d e ⟨(idx 0).val, idx2_lt0 idx⟩ ⟨(idx 1).val, idx2_lt1 idx⟩

/-- The printed block-index maps over the grid: the row-blocked windows follow the point, the others stay. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem N8 (t : Fin cfg1.N) : t.val < 8 := lt_of_lt_of_eq t.isLt (show cfg1.N = 8 from N_1)

/-- The block of scaled rows at point `t`. -/
theorem blk0_read (c : Dev nD) (t : Fin cfg1.N) (i : Fin 1024) (k : Fin 512) :
    iblk1 V c 0 t (ix2 i k) = V c main_v11 (ix2 (⟨1024 * t.val + i.val, by have := N8 t; omega⟩ : Fin 8192) k) := by
  obtain ⟨e0, e1, -⟩ := idx_facts t
  show V c main_v11 (((cfg1.win 0).blk t).view.emb (ix2 i k)) = _
  refine congrArg (V c main_v11) (funext fun a => Fin.ext ?_)
  match a with
  | ⟨0, _⟩ => show win1_0.index t (0 : Fin 2) * 1024 + 1 * i.val = 1024 * t.val + i.val; omega
  | ⟨1, _⟩ => show win1_0.index t (1 : Fin 2) * 512 + 1 * k.val = k.val; omega

/-- The accumulated matrix, whole at every point. -/
theorem blk1_read (c : Dev nD) (t : Fin cfg1.N) (k : Fin 512) (cc : Fin 1024) :
    iblk1 V c 1 t (ix2 k cc) = V c main_v15 (ix2 k cc) := by
  obtain ⟨-, -, e0, e1, -⟩ := idx_facts t
  show V c main_v15 (((cfg1.win 1).blk t).view.emb (ix2 k cc)) = _
  refine congrArg (V c main_v15) (funext fun a => Fin.ext ?_)
  match a with
  | ⟨0, _⟩ => show win1_1.index t (0 : Fin 2) * 512 + 1 * k.val = k.val; omega
  | ⟨1, _⟩ => show win1_1.index t (1 : Fin 2) * 1024 + 1 * cc.val = cc.val; omega

/-- The block of the divisor column at point `t`. -/
theorem blk2_read (c : Dev nD) (t : Fin cfg1.N) (i : Fin 1024) :
    iblk1 V c 2 t (ix2 i (0 : Fin 1)) = V c main_v10 (ix2 (⟨1024 * t.val + i.val, by have := N8 t; omega⟩ : Fin 8192) (0 : Fin 1)) := by
  obtain ⟨-, -, -, -, e0, e1, -⟩ := idx_facts t
  show V c main_v10 (((cfg1.win 2).blk t).view.emb (ix2 i (0 : Fin 1))) = _
  refine congrArg (V c main_v10) (funext fun a => Fin.ext ?_)
  match a with
  | ⟨0, _⟩ => show win1_2.index t (0 : Fin 2) * 1024 + 1 * i.val = 1024 * t.val + i.val; omega
  | ⟨1, _⟩ => show win1_2.index t (1 : Fin 2) * 1 + 1 * 0 = 0; omega

/-- `w`, whole at every point. -/
theorem blk3_read (c : Dev nD) (t : Fin cfg1.N) (cc : Fin 1024) (o : Fin 1024) :
    iblk1 V c 3 t (ix2 cc o) = V c main_v13 (ix2 cc o) := by
  obtain ⟨-, -, -, -, -, -, e0, e1, -⟩ := idx_facts t
  show V c main_v13 (((cfg1.win 3).blk t).view.emb (ix2 cc o)) = _
  refine congrArg (V c main_v13) (funext fun a => Fin.ext ?_)
  match a with
  | ⟨0, _⟩ => show win1_3.index t (0 : Fin 2) * 1024 + 1 * cc.val = cc.val; omega
  | ⟨1, _⟩ => show win1_3.index t (1 : Fin 2) * 1024 + 1 * o.val = o.val; omega

/-- The body's result at an entry of block `t` is the result function at the array's entry. -/
theorem pay_at (c : Dev nD) (t : Fin cfg1.N) (i o : Fin 1024) :
    k1_pay1 (F := Ideal) (iblk1 V c 0 t) (iblk1 V c 1 t) (iblk1 V c 2 t) (iblk1 V c 3 t) (ix2 i o)
      = gout (V c main_v11) (V c main_v15) (V c main_v10) (V c main_v13)
          (⟨1024 * t.val + i.val, by have := N8 t; omega⟩ : Fin 8192) o := by
  refine (k1_pay1_apply (iblk1 V c 0 t) (iblk1 V c 1 t) (iblk1 V c 2 t) (iblk1 V c 3 t) i o).trans ?_
  unfold gout
  refine Finset.sum_congr rfl fun cc _ => ?_
  rw [blk2_read V c t i, blk3_read V c t cc o]
  refine congrArg (fun z => Ideal.div z _ * _) ?_
  exact Finset.sum_congr rfl fun k _ => by rw [blk0_read V c t i k, blk1_read V c t k cc]

/-- WHAT POINT `t` WRITES BACK is block `t` of the result function of the arrays the launch finds. -/
theorem flushed_eq (c : Dev nD) (t : Fin cfg1.N) :
    (dat1 V c).flushed 4 t = ((cfg1.win 4).blk t).view.read (Elt Ideal)
      (Gout (V c main_v11) (V c main_v15) (V c main_v10) (V c main_v13)) := by
  show (cfg1.win 4).cut (grid1.coords t) ((dat1 V c).after 4 t) = _
  rw [after1_4]
  unfold out1_4
  rw [View.canon_unit_zero hz]
  simp only [View.ld_unit_zero (S := S1024x512) hz, View.ld_unit_zero (S := S512x1024) hz,
    View.ld_unit_zero (S := S1024x1) hz, View.ld_unit_zero (S := S1024x1024) hz]
  obtain ⟨-, -, -, -, -, -, -, -, e0, e1⟩ := idx_facts t
  funext j
  have hj : j = ix2 (⟨(j 0).val, (j 0).isLt⟩ : Fin 1024) (⟨(j 1).val, (j 1).isLt⟩ : Fin 1024) :=
    funext fun a => by match a with | ⟨0, _⟩ => rfl | ⟨1, _⟩ => rfl
  have e : Gout (V c main_v11) (V c main_v15) (V c main_v10) (V c main_v13) (((cfg1.win 4).blk t).view.emb j)
      = gout (V c main_v11) (V c main_v15) (V c main_v10) (V c main_v13)
          (⟨1024 * t.val + (j 0).val, by have := N8 t; have hj0 : (j 0).val < 1024 := (j 0).isLt; omega⟩ : Fin 8192) (⟨(j 1).val, (j 1).isLt⟩ : Fin 1024) := by
    unfold Gout
    congr 1 <;> apply Fin.ext
    · show win1_4.index t (0 : Fin 2) * 1024 + 1 * (j 0).val = 1024 * t.val + (j 0).val; omega
    · show win1_4.index t (1 : Fin 2) * 1024 + 1 * (j 1).val = (j 1).val; omega
  refine Eq.trans ?_ e.symm
  exact (congrArg (k1_pay1 (F := Ideal) (iblk1 V c 0 t) (iblk1 V c 1 t) (iblk1 V c 2 t) (iblk1 V c 3 t)) hj).trans
    (pay_at V c t ⟨(j 0).val, (j 0).isLt⟩ ⟨(j 1).val, (j 1).isLt⟩)

/-- An index of the array is in point `t`'s block iff each coordinate is in the block's range on its axis. -/
theorem mem_blk (t : Fin cfg1.N) (i : S8192x1024.Idx) :
    i ∈ ((cfg1.win 4).blk t).view.set ↔ ∀ a : Fin 2, win1_4.index t a * S1024x1024.size a ≤ (i a).val
      ∧ (i a).val < win1_4.index t a * S1024x1024.size a + S1024x1024.size a := by
  show i ∈ ((View.whole main_v16).slice (win1_4.rect t)).set ↔ _
  rw [View.set_slice_whole, Rect.mem_set_unit]
  exact Iff.rfl

/-- Every row lies in the block of its quotient by 1024, and every point writes back. -/
theorem cover (i : S8192x1024.Idx) :
    ∃ t : Fin cfg1.N, (cfg1.win 4).flush t = true ∧ i ∈ ((cfg1.win 4).blk t).view.set := by
  have hi0 : (i 0).val < 8192 := (i 0).isLt
  have hi1 : (i 1).val < 1024 := (i 1).isLt
  have hN : cfg1.N = 8 := N_1
  have ht : (i 0).val / 1024 < cfg1.N := by rw [hN]; omega
  obtain ⟨-, -, -, -, -, -, -, -, e0, e1⟩ := idx_facts ⟨(i 0).val / 1024, ht⟩
  refine ⟨⟨(i 0).val / 1024, ht⟩, flush1_4 _, ?_⟩
  rw [mem_blk]
  intro a
  match a with
  | ⟨0, _⟩ =>
    show win1_4.index ⟨(i 0).val / 1024, ht⟩ (0 : Fin 2) * 1024 ≤ (i 0).val
      ∧ (i 0).val < win1_4.index ⟨(i 0).val / 1024, ht⟩ (0 : Fin 2) * 1024 + 1024
    have e0' : win1_4.index ⟨(i 0).val / 1024, ht⟩ (0 : Fin 2) = (i 0).val / 1024 := e0
    omega
  | ⟨1, _⟩ =>
    show win1_4.index ⟨(i 0).val / 1024, ht⟩ (1 : Fin 2) * 1024 ≤ (i 1).val
      ∧ (i 1).val < win1_4.index ⟨(i 0).val / 1024, ht⟩ (1 : Fin 2) * 1024 + 1024
    omega

/-- THE RESULT ARRAY after the launch: the result function of the arrays the launch finds. -/
theorem final (c : Dev nD) :
    (dat1 V c).arrAt 4 cfg1.N = Gout (V c main_v11) (V c main_v15) (V c main_v10) (V c main_v13) :=
  (dat1 V c).arrAt_eq_of_cover 4 _ (fun t _ => flushed_eq V c t) cover

end Cert.KernelIdeal.ValOut

end
-- ==== Proof.Spec.lean ====
/-
  The two programs' results as plain sums over the extended reals, index by index.

  Rows of `sim` are scaled by the reciprocal of their Euclidean norm (clamped below by a small positive constant):
  `s i k = sim i k / max (√(∑ k', sim i k'²)) ε`.

  * One side forms the affinity `G i j = ∑ k, s i k * s j k`, divides every entry by its row sum
    `R i = ∑ j, G i j`, and applies the result to `x` and then to `w`.
  * The other side never forms `G`: it uses `T k c = ∑ j, s j k * x j c`, the row sums in the form
    `r i = ∑ k, s i k * u k` with `u k = ∑ j, s j k`, and divides `∑ k, s i k * T k c` by `r i` before applying `w`.
-/
import Idealize.ShloMosaic.PureOps.Ideal
import Idealize.ShloMosaic.Lib.ValueIdx

noncomputable section

namespace Cert.Spec

open Idealize.ShloMosaic Idealize.ShloMosaic.ValueIdx

/-- An array of extended reals over a rank-2 shape with literal extents. -/
abbrev Arr2 (a b : Nat) : Type := (⟨2, ![a, b]⟩ : Shape).Idx → EReal

/-- The clamp below the row norms: the float word both programs print. -/
def eps : EReal := Ideal.ofBits .f32 0x2B8CBCCC#32

/-- The clamped Euclidean norm of row `i`. -/
def nrm (sim : Arr2 8192 512) (i : Fin 8192) : EReal :=
  max (Ideal.sqrt (∑ k : Fin 512, sim (ix2 i k) * sim (ix2 i k))) eps

/-- The normalised rows. -/
def s (sim : Arr2 8192 512) (i : Fin 8192) (k : Fin 512) : EReal :=
  Ideal.div (sim (ix2 i k)) (nrm sim i)

/-- The affinity of rows `i` and `j`. -/
def G (sim : Arr2 8192 512) (i j : Fin 8192) : EReal := ∑ k : Fin 512, s sim i k * s sim j k

/-- The row sums of the affinity. -/
def R (sim : Arr2 8192 512) (i : Fin 8192) : EReal := ∑ j : Fin 8192, G sim i j

/-- The side that forms the affinity, divides it by its row sums, then applies `x` and `w`. -/
def refOut (x : Arr2 8192 1024) (sim : Arr2 8192 512) (w : Arr2 1024 1024) (i : Fin 8192) (o : Fin 1024) : EReal :=
  ∑ c : Fin 1024, (∑ j : Fin 8192, Ideal.div (G sim i j) (R sim i) * x (ix2 j c)) * w (ix2 c o)

/-- The column sums of the normalised rows. -/
def u (sim : Arr2 8192 512) (k : Fin 512) : EReal := ∑ j : Fin 8192, s sim j k

/-- The row sums of the affinity in factored form. -/
def r (sim : Arr2 8192 512) (i : Fin 8192) : EReal := ∑ k : Fin 512, s sim i k * u sim k

/-- The normalised rows transposed, applied to `x`. -/
def T (x : Arr2 8192 1024) (sim : Arr2 8192 512) (k : Fin 512) (c : Fin 1024) : EReal :=
  ∑ j : Fin 8192, s sim j k * x (ix2 j c)

/-- The side that never forms the affinity. -/
def kerOut (x : Arr2 8192 1024) (sim : Arr2 8192 512) (w : Arr2 1024 1024) (i : Fin 8192) (o : Fin 1024) : EReal :=
  ∑ c : Fin 1024, Ideal.div (∑ k : Fin 512, s sim i k * T x sim k c) (r sim i) * w (ix2 c o)

/-- Every entry is a real number. -/
def Finite {a b : Nat} (f : Arr2 a b) : Prop := ∀ idx, ∃ v : ℝ, f idx = (v : EReal)

end Cert.Spec

end
-- ==== Proof.KHost.lean ====
/-
  The host operations around the two kernel launches, as values.

  Before the first launch the program scales every row of the second argument by the reciprocal of its clamped
  Euclidean norm, sums the scaled rows' columns, pairs every scaled row with those column sums (the row sums of
  the affinity in factored form), and changes the float format of the scaled rows and of the other two arguments
  (the identity on extended reals). Between the launches it changes the format of the first launch's result.
  Each stage is named as one term of the argument arrays, and read at an index on the extended reals.
-/
import proofs.«142103_j4440996184607_1_alg».proof.Proof.Gen.KernelIdeal.Launch
import proofs.«142103_j4440996184607_1_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.HostVal

open Cert.KernelIdeal Cert.KernelIdeal.Gen Idealize.ShloMosaic Idealize.ShloMosaic.TcCoe Idealize.SL.Sem
open Idealize.ShloMosaic.StableHlo Idealize.ShloMosaic.ValueIdx

section Terms
variable {F : FTy → Type} [FloatOps F]

/-- The rows of `x1` divided by their clamped norms. -/
def sTerm (x1 : FVec F S8192x512 .f32) : FVec F S8192x512 .f32 :=
  Host.divf x1 (broadcastInDim S8192x512 ![0, 1] bcast_S8192x1_S8192x512_0_1
    (maximumf (Host.sqrt (broadcastInDim S8192x1 ![0] bcast_S8192_S8192x1_0
        (Host.reduceAdd (mulf x1 x1) (constant S_ .f32 0x00000000#32) reducesTo_S8192x512_S8192_d1 h_S_)))
      (broadcastInDim S8192x1 ![] bcast_S_S8192x1 (constant S_ .f32 0x2B8CBCCC#32))))

/-- Every scaled row paired with the column sums of all scaled rows, as a column. -/
def rTerm (x1 : FVec F S8192x512 .f32) : FVec F S8192x1 .f32 :=
  broadcastInDim S8192x1 ![0] bcast_S8192_S8192x1_0
    (Host.reduceAdd (mulf (sTerm x1) (broadcastInDim S8192x512 ![0, 1] bcast_S1x512_S8192x512_0_1
        (broadcastInDim S1x512 ![1] bcast_S512_S1x512_1
          (Host.reduceAdd (sTerm x1) (constant S_ .f32 0x00000000#32) reducesTo_S8192x512_S512_d0 h_S_))))
      (constant S_ .f32 0x00000000#32) reducesTo_S8192x512_S8192_d1 h_S_)

/-- After the two leading stretches of host operations, the buffer the second launch divides by holds `rTerm`. -/
theorem host_v10 (W0 : Valuation τ sig (Elt F)) :
    StableHlo.after hostOps0_1 (StableHlo.after hostOps0 W0) (Proc.devRef .tc main_v10) = rTerm (W0 (Proc.devRef .tc main_arg1)) := by
  after_results_simp
  rfl

/-- … the scaled rows, format changed, … -/
theorem host_v11 (W0 : Valuation τ sig (Elt F)) :
    StableHlo.after hostOps0_1 (StableHlo.after hostOps0 W0) (Proc.devRef .tc main_v11)
      = truncf .bf16 (sTerm (W0 (Proc.devRef .tc main_arg1))) bitsLt_bf16_f32 := by
  after_results_simp
  rfl

/-- … the first argument, format changed, … -/
theorem host_v12 (W0 : Valuation τ sig (Elt F)) :
    StableHlo.after hostOps0_1 (StableHlo.after hostOps0 W0) (Proc.devRef .tc main_v12)
      = truncf .bf16 (W0 (Proc.devRef .tc main_arg0)) bitsLt_bf16_f32 := by
  after_results_simp

/-- … and the third argument, format changed. -/
theorem host_v13 (W0 : Valuation τ sig (Elt F)) :
    StableHlo.after hostOps0_1 (StableHlo.after hostOps0 W0) (Proc.devRef .tc main_v13)
      = truncf .bf16 (W0 (Proc.devRef .tc main_arg2)) bitsLt_bf16_f32 := by
  after_results_simp

/-- Between the launches: the first launch's result, format changed. -/
theorem host_v15 (W : Valuation τ sig (Elt F)) :
    StableHlo.after hostOps1 W (Proc.devRef .tc main_v15) = truncf .bf16 (W (Proc.devRef .tc main_v14)) bitsLt_bf16_f32 := by
  after_results_simp

end Terms

/-! ## The stages at an index, on the extended reals -/

/-- A row sum of a [8192, 512] array (the host's float sum from zero). -/
theorem rowSum_apply (y : FVec Ideal S8192x512 .f32) (i : Fin 8192) :
    Host.reduceAdd (F := Ideal) y (constant S_ .f32 0x00000000#32) reducesTo_S8192x512_S8192_d1 h_S_ (ix1 i)
      = ∑ k : Fin 512, y (ix2 i k) := by
  simp only [Host.reduceAdd, Ideal.hostReduceAdd_def]
  rw [Ideal.hostReduceAdd_single reducesTo_S8192x512_S8192_d1 (by decide)]
  show Ideal.ofBits .f32 0x00000000#32 + _ = _
  rw [Ideal.ofBits_zero_f32, zero_add]
  refine Finset.sum_congr rfl fun k _ => ?_
  exact congrArg y (funext fun a => Fin.ext (by match a with | ⟨0, _⟩ => rfl | ⟨1, _⟩ => rfl))

/-- A column sum of a [8192, 512] array. -/
theorem colSum_apply (y : FVec Ideal S8192x512 .f32) (k : Fin 512) :
    Host.reduceAdd (F := Ideal) y (constant S_ .f32 0x00000000#32) reducesTo_S8192x512_S512_d0 h_S_ (ix1 k)
      = ∑ j : Fin 8192, y (ix2 j k) := by
  simp only [Host.reduceAdd, Ideal.hostReduceAdd_def]
  rw [Ideal.hostReduceAdd_single reducesTo_S8192x512_S512_d0 (by decide)]
  show Ideal.ofBits .f32 0x00000000#32 + _ = _
  rw [Ideal.ofBits_zero_f32, zero_add]
  refine Finset.sum_congr rfl fun j _ => ?_
  exact congrArg y (funext fun a => Fin.ext (by match a with | ⟨0, _⟩ => rfl | ⟨1, _⟩ => rfl))

/-- The scaled rows at an index are the specification's. -/
theorem sTerm_apply (x1 : FVec Ideal S8192x512 .f32) (i : Fin 8192) (k : Fin 512) :
    sTerm (F := Ideal) x1 (ix2 i k) = Cert.Spec.s x1 i k := by
  unfold sTerm Cert.Spec.s Cert.Spec.nrm Cert.Spec.eps
  show Ideal.div (x1 (ix2 i k)) _ = _
  refine congrArg (Ideal.div (x1 (ix2 i k))) ?_
  rw [broadcastInDim_apply _ bcast_S8192x1_S8192x512_0_1 _ (ix2 i k) (ix2 i (0 : Fin 1)) (fun a => match a with
    | ⟨0, _⟩ => by show i.val = if (8192 : Nat) = 1 then 0 else i.val; rw [if_neg (by decide)]
    | ⟨1, _⟩ => by show 0 = if (1 : Nat) = 1 then 0 else k.val; rw [if_pos rfl])]
  show max (Ideal.sqrt _) _ = _
  congr 1
  · refine congrArg Ideal.sqrt ?_
    rw [broadcastInDim_apply _ bcast_S8192_S8192x1_0 _ (ix2 i (0 : Fin 1)) (ix1 i) (fun a => match a with
      | ⟨0, _⟩ => by show i.val = if (8192 : Nat) = 1 then 0 else i.val; rw [if_neg (by decide)])]
    rw [rowSum_apply]
    rfl

/-- The divisor column at an index is the specification's factored row sum. -/
theorem rTerm_apply (x1 : FVec Ideal S8192x512 .f32) (i : Fin 8192) :
    rTerm (F := Ideal) x1 (ix2 i (0 : Fin 1)) = Cert.Spec.r x1 i := by
  unfold rTerm Cert.Spec.r Cert.Spec.u
  rw [broadcastInDim_apply _ bcast_S8192_S8192x1_0 _ (ix2 i (0 : Fin 1)) (ix1 i) (fun a => match a with
    | ⟨0, _⟩ => by show i.val = if (8192 : Nat) = 1 then 0 else i.val; rw [if_neg (by decide)])]
  rw [rowSum_apply]
  refine Finset.sum_congr rfl fun k _ => ?_
  show sTerm (F := Ideal) x1 (ix2 i k) * _ = _
  rw [sTerm_apply]
  refine congrArg (Cert.Spec.s x1 i k * ·) ?_
  rw [broadcastInDim_apply _ bcast_S1x512_S8192x512_0_1 _ (ix2 i k) (ix2 (0 : Fin 1) k) (fun a => match a with
    | ⟨0, _⟩ => by show 0 = if (1 : Nat) = 1 then 0 else i.val; rw [if_pos rfl]
    | ⟨1, _⟩ => by show k.val = if (512 : Nat) = 1 then 0 else k.val; rw [if_neg (by decide)])]
  rw [broadcastInDim_apply _ bcast_S512_S1x512_1 _ (ix2 (0 : Fin 1) k) (ix1 k) (fun a => match a with
    | ⟨0, _⟩ => by show k.val = if (512 : Nat) = 1 then 0 else k.val; rw [if_neg (by decide)])]
  rw [colSum_apply]
  exact Finset.sum_congr rfl fun j _ => sTerm_apply x1 j k

end Cert.KernelIdeal.HostVal

end
-- ==== Proof.KValue.lean ====
/-
  The whole program's result, on the extended reals, as one function of its three arguments.

  The host operations before the first launch leave the scaled rows `s`, the arguments `x` and `w` (format
  changed: the identity) and the divisor column `r`. The first launch leaves `T k c = ∑ j, s j k * x j c`; the host
  changes its format; the second launch leaves `∑ c, ((∑ k, s i k * T k c) / r i) * w c o` at `(i, o)`. No operation
  in between touches a buffer a later stage reads, so each stage finds what the earlier ones left.
-/
import proofs.«142103_j4440996184607_1_alg».proof.Proof.KRun
import proofs.«142103_j4440996184607_1_alg».proof.Proof.KR0
import proofs.«142103_j4440996184607_1_alg».proof.Proof.KValT
import proofs.«142103_j4440996184607_1_alg».proof.Proof.KValOut
import proofs.«142103_j4440996184607_1_alg».proof.Proof.KHost
import proofs.«142103_j4440996184607_1_alg».proof.Proof.Spec

noncomputable section

namespace Cert.KernelIdeal.Value

open Cert.KernelIdeal Cert.KernelIdeal.Gen Cert.KernelIdeal.Hand Cert.KernelIdeal.HostVal
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The three arguments on core `c`. -/
abbrev ax (c : Dev nD) : FVec Ideal S8192x1024 .f32 := m ((c : Thread nD τ).loc main_arg0)
abbrev asim (c : Dev nD) : FVec Ideal S8192x512 .f32 := m ((c : Thread nD τ).loc main_arg1)
abbrev aw (c : Dev nD) : FVec Ideal S1024x1024 .f32 := m ((c : Thread nD τ).loc main_arg2)

/-! ## What the first launch finds -/

theorem V2_v11 (c : Dev nD) : V2 m ρ c main_v11 = truncf .bf16 (sTerm (asim m c)) bitsLt_bf16_f32 :=
  host_v11 (W0 m ρ c)
theorem V2_v12 (c : Dev nD) : V2 m ρ c main_v12 = truncf .bf16 (ax m c) bitsLt_bf16_f32 :=
  host_v12 (W0 m ρ c)
theorem V2_v13 (c : Dev nD) : V2 m ρ c main_v13 = truncf .bf16 (aw m c) bitsLt_bf16_f32 :=
  host_v13 (W0 m ρ c)
theorem V2_v10 (c : Dev nD) : V2 m ρ c main_v10 = rTerm (asim m c) :=
  host_v10 (W0 m ρ c)

/-- The first launch's result at an entry: the specification's `T`. -/
theorem GT_apply (c : Dev nD) (k : Fin 512) (cc : Fin 1024) :
    ValT.GT (V2 m ρ c main_v11) (V2 m ρ c main_v12) (ix2 k cc) = Cert.Spec.T (ax m c) (asim m c) k cc := by
  unfold ValT.GT Cert.Spec.T
  refine Finset.sum_congr rfl fun j _ => ?_
  unfold ValT.term
  rw [V2_v11, V2_v12, truncf_apply, truncf_apply, sTerm_apply]

/-! ## What the second launch finds -/

theorem V4_v15 (c : Dev nD) :
    V4 m ρ (dat0 (F := Ideal)) c main_v15 = truncf .bf16 (ValT.GT (V2 m ρ c main_v11) (V2 m ρ c main_v12)) bitsLt_bf16_f32 :=
  (host_v15 (W3 m ρ (dat0 (F := Ideal)) c)).trans
    (congrArg (fun z => truncf .bf16 z bitsLt_bf16_f32) ((W3_arr m ρ (dat0 (F := Ideal)) c 2).trans (ValT.final (V2 m ρ) c)))

theorem V4_v11 (c : Dev nD) : V4 m ρ (dat0 (F := Ideal)) c main_v11 = V2 m ρ c main_v11 :=
  calc V4 m ρ (dat0 (F := Ideal)) c main_v11
    _ = W3 m ρ (dat0 (F := Ideal)) c (Proc.devRef .tc main_v11) := StableHlo.after_of_writes_sub hostOps1 _ hostOps1_writes (by decide)
    _ = (dat0 (F := Ideal) (V2 m ρ) c).arrAt 0 cfg0.N := W3_arr m ρ (dat0 (F := Ideal)) c 0
    _ = V2 m ρ c main_v11 := ((dat0 (F := Ideal) (V2 m ρ) c).arrAt_in 0 rfl _).trans (A_eq0 (V2 m ρ) c 0)

theorem V4_v10 (c : Dev nD) : V4 m ρ (dat0 (F := Ideal)) c main_v10 = V2 m ρ c main_v10 :=
  calc V4 m ρ (dat0 (F := Ideal)) c main_v10
    _ = W3 m ρ (dat0 (F := Ideal)) c (Proc.devRef .tc main_v10) := StableHlo.after_of_writes_sub hostOps1 _ hostOps1_writes (by decide)
    _ = V2 m ρ c main_v10 := W3_of_ne m ρ (dat0 (F := Ideal)) c main_v10 (by decide)

theorem V4_v13 (c : Dev nD) : V4 m ρ (dat0 (F := Ideal)) c main_v13 = V2 m ρ c main_v13 :=
  calc V4 m ρ (dat0 (F := Ideal)) c main_v13
    _ = W3 m ρ (dat0 (F := Ideal)) c (Proc.devRef .tc main_v13) := StableHlo.after_of_writes_sub hostOps1 _ hostOps1_writes (by decide)
    _ = V2 m ρ c main_v13 := W3_of_ne m ρ (dat0 (F := Ideal)) c main_v13 (by decide)

/-! ## The result -/

/-- THE RESULT ARRAY of the program: the specification's factored form of the three arguments. -/
theorem result (c : Dev nD) :
    (dat1 (V4 m ρ (dat0 (F := Ideal))) c).arrAt 4 cfg1.N
      = (fun idx => Cert.Spec.kerOut (ax m c) (asim m c) (aw m c) ⟨(idx 0).val, idx2_lt0 idx⟩ ⟨(idx 1).val, idx2_lt1 idx⟩ : FVec Ideal S8192x1024 .f32) := by
  rw [ValOut.final]
  funext idx
  unfold ValOut.Gout ValOut.gout Cert.Spec.kerOut
  refine Finset.sum_congr rfl fun cc _ => ?_
  have h1 : ∀ k : Fin 512, (V4 m ρ (dat0 (F := Ideal)) c main_v15 : FVec Ideal S512x1024 .bf16) (ix2 k cc)
      = Cert.Spec.T (ax m c) (asim m c) k cc := fun k => by
    rw [V4_v15, truncf_apply, GT_apply]
  have h2 : ∀ k : Fin 512, (V4 m ρ (dat0 (F := Ideal)) c main_v11 : FVec Ideal S8192x512 .bf16) (ix2 (⟨(idx 0).val, idx2_lt0 idx⟩ : Fin 8192) k)
      = Cert.Spec.s (asim m c) ⟨(idx 0).val, idx2_lt0 idx⟩ k := fun k => by
    rw [V4_v11, V2_v11, truncf_apply, sTerm_apply]
  have h3 : (V4 m ρ (dat0 (F := Ideal)) c main_v10 : FVec Ideal S8192x1 .f32) (ix2 (⟨(idx 0).val, idx2_lt0 idx⟩ : Fin 8192) (0 : Fin 1))
      = Cert.Spec.r (asim m c) ⟨(idx 0).val, idx2_lt0 idx⟩ := by
    rw [V4_v10, V2_v10, rTerm_apply]
  have h4 : (V4 m ρ (dat0 (F := Ideal)) c main_v13 : FVec Ideal S1024x1024 .bf16) (ix2 cc (⟨(idx 1).val, idx2_lt1 idx⟩ : Fin 1024))
      = aw m c (ix2 cc (⟨(idx 1).val, idx2_lt1 idx⟩ : Fin 1024)) := by
    rw [V4_v13, V2_v13, truncf_apply]
  rw [h3, h4]
  refine congrArg (fun z => Ideal.div z _ * _) ?_
  exact Finset.sum_congr rfl fun k _ => by rw [h1 k, h2 k]

/-- The run of the program with its result named. -/
theorem run : θ_run defs (onTc (τ := τ) (main (F := Ideal))) ⟨m, fun _ => 0, ρ⟩ (fun r => ∀ c : Dev nD,
      r.2.mem ((c.tc : Thread nD τ).loc main_v16)
        = (fun idx => Cert.Spec.kerOut (ax m c) (asim m c) (aw m c) ⟨(idx 0).val, idx2_lt0 idx⟩ ⟨(idx 1).val, idx2_lt1 idx⟩ : FVec Ideal S8192x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result m ρ c), (h c).2⟩)
    (run_value m ρ (dat0 (F := Ideal)) A_eq0 (fun _ _ _ => rfl) (fun _ _ _ => rfl) body_obligation0 hin0 hout0)

end Cert.KernelIdeal.Value

end
-- ==== Proof.RefSide.lean ====
/-
  The reference program read at an index.

  Its nineteen host operations compute, row by row: the Euclidean norm of a row of `sim` (squares, row sum, square
  root), the clamp of that norm from below, the normalised rows `s`, the affinity `G = s sᵀ`, its row sums `R`, the
  quotient `G / R`, and the two products with `x` and `w`. Each stage below reads one of those at an index and
  identifies it with the plain sum of the specification; the last statement is the reference's run with its result
  stated as that function of the arguments.
-/
import proofs.«142103_j4440996184607_1_alg».proof.Proof.Gen.ReferenceIdeal.Read
import proofs.«142103_j4440996184607_1_alg».proof.Proof.Spec

noncomputable section

namespace Cert.RefSide

open Idealize.ShloMosaic Idealize.ShloMosaic.TcCoe Idealize.SL.Sem Idealize.ShloMosaic.ValueIdx
open Cert.ReferenceIdeal Cert.ReferenceIdeal.Read

/-! ## The index maps of the layout operations, at coordinates -/

theorem idx_rowsum (i : Fin 8192) (z : Fin 1) (k : Fin 512) :
    idx_main_call0_v1 (idx_main_call0_v2 (ix2 i z)) k = ix2 i k :=
  funext fun a => Fin.ext (by match a with | ⟨0, _⟩ => rfl | ⟨1, _⟩ => rfl)

theorem idx_clamp_bcast (i : Fin 8192) (k : Fin 512) : idx_main_v3 (ix2 i k) = ix2 i (0 : Fin 1) :=
  funext fun a => Fin.ext (by match a with | ⟨0, _⟩ => rfl | ⟨1, _⟩ => rfl)

theorem idx_dot_l (i j : Fin 8192) (k : Fin 512) : lidx_main_v6 (ix2 i j) k = ix2 i k :=
  funext fun a => Fin.ext (by match a with | ⟨0, _⟩ => rfl | ⟨1, _⟩ => rfl)

theorem idx_dot_r (i j : Fin 8192) (k : Fin 512) : idx_main_v5 (ridx_main_v6 (ix2 i j) k) = ix2 j k :=
  funext fun a => Fin.ext (by match a with | ⟨0, _⟩ => rfl | ⟨1, _⟩ => rfl)

theorem idx_aff_rowsum (i j : Fin 8192) : idx_main_v7 (ix1 i) j = ix2 i j :=
  funext fun a => Fin.ext (by match a with | ⟨0, _⟩ => rfl | ⟨1, _⟩ => rfl)

theorem idx_rowsum_bcast (i j : Fin 8192) : idx_main_v8 (idx_main_v9 (ix2 i j)) = ix1 i :=
  funext fun a => Fin.ext (by match a with | ⟨0, _⟩ => rfl)

theorem idx_x_l (i : Fin 8192) (c : Fin 1024) (j : Fin 8192) : lidx_main_v11 (ix2 i c) j = ix2 i j :=
  funext fun a => Fin.ext (by match a with | ⟨0, _⟩ => rfl | ⟨1, _⟩ => rfl)

theorem idx_x_r (i : Fin 8192) (c : Fin 1024) (j : Fin 8192) : ridx_main_v11 (ix2 i c) j = ix2 j c :=
  funext fun a => Fin.ext (by match a with | ⟨0, _⟩ => rfl | ⟨1, _⟩ => rfl)

theorem idx_w_l (i : Fin 8192) (o : Fin 1024) (c : Fin 1024) : lidx_main_v12 (ix2 i o) c = ix2 i c :=
  funext fun a => Fin.ext (by match a with | ⟨0, _⟩ => rfl | ⟨1, _⟩ => rfl)

theorem idx_w_r (i : Fin 8192) (o : Fin 1024) (c : Fin 1024) : ridx_main_v12 (ix2 i o) c = ix2 c o :=
  funext fun a => Fin.ext (by match a with | ⟨0, _⟩ => rfl | ⟨1, _⟩ => rfl)

/-! ## The stages at an index -/

/-- The clamped norm of row `i`. -/
theorem nrm_at (x1 : FVec Ideal S8192x512 .f32) (i : Fin 8192) (z : Fin 1) :
    val_main_v2 (F := Ideal) x1 (ix2 i z) = Cert.Spec.nrm x1 i := by
  rw [val_main_v2_apply, val_main_v0_apply, val_main_call0_v2_apply, val_main_call0_v1_apply, val_main_v1_apply,
    val_main_cst_apply, val_main_call0_cst_apply]
  simp only [val_main_call0_v0_apply, idx_rowsum, Ideal.maximumf_def, Ideal.hostUnary_sqrt_def, Ideal.mulf_def,
    Ideal.ofBits_def, Ideal.ofBits_zero_f32, zero_add]
  rfl

/-- The normalised rows. -/
theorem s_at (x1 : FVec Ideal S8192x512 .f32) (i : Fin 8192) (k : Fin 512) :
    val_main_v4 (F := Ideal) x1 (ix2 i k) = Cert.Spec.s x1 i k := by
  rw [val_main_v4_apply, val_main_v3_apply, idx_clamp_bcast, nrm_at, Ideal.hostDivf_def]
  rfl

/-- The affinity. -/
theorem G_at (x1 : FVec Ideal S8192x512 .f32) (i j : Fin 8192) :
    val_main_v6 (F := Ideal) x1 (ix2 i j) = Cert.Spec.G x1 i j := by
  rw [val_main_v6_apply]
  simp only [val_main_v5_apply, idx_dot_l, idx_dot_r, s_at]
  rfl

/-- The row sums of the affinity. -/
theorem R_at (x1 : FVec Ideal S8192x512 .f32) (i : Fin 8192) :
    val_main_v7 (F := Ideal) x1 (ix1 i) = Cert.Spec.R x1 i := by
  rw [val_main_v7_apply, val_main_cst_0_apply]
  simp only [idx_aff_rowsum, G_at, Ideal.ofBits_def, Ideal.ofBits_zero_f32, zero_add]
  rfl

/-- The affinity divided by its row sums. -/
theorem Q_at (x1 : FVec Ideal S8192x512 .f32) (i j : Fin 8192) :
    val_main_v10 (F := Ideal) x1 (ix2 i j) = Ideal.div (Cert.Spec.G x1 i j) (Cert.Spec.R x1 i) := by
  rw [val_main_v10_apply, val_main_v9_apply, val_main_v8_apply, idx_rowsum_bcast, G_at, R_at, Ideal.hostDivf_def]

/-- The quotient applied to `x`. -/
theorem QX_at (x0 : FVec Ideal S8192x1024 .f32) (x1 : FVec Ideal S8192x512 .f32) (i : Fin 8192) (c : Fin 1024) :
    val_main_v11 (F := Ideal) x0 x1 (ix2 i c)
      = ∑ j : Fin 8192, Ideal.div (Cert.Spec.G x1 i j) (Cert.Spec.R x1 i) * x0 (ix2 j c) := by
  rw [val_main_v11_apply]
  simp only [idx_x_l, idx_x_r, Q_at]

/-- The reference's result, index by index, is the specification's sum. -/
theorem ref_value (x0 : FVec Ideal S8192x1024 .f32) (x1 : FVec Ideal S8192x512 .f32) (x2 : FVec Ideal S1024x1024 .f32) :
    val_main_v12 (F := Ideal) x0 x1 x2 = fun idx => Cert.Spec.refOut x0 x1 x2 (idx 0) (idx 1) := by
  funext idx
  obtain ⟨i, o, rfl⟩ : ∃ (i : Fin 8192) (o : Fin 1024), idx = ix2 i o := ⟨idx 0, idx 1, eq_ix2 idx⟩
  rw [val_main_v12_apply]
  simp only [idx_w_l, idx_w_r, QX_at]
  rfl

/-! ## The run -/

/-- Every execution of the reference ends with its result buffer at the specification's sum of the arguments, index
    by index, and the arguments unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v12)
          = (fun idx => Cert.Spec.refOut (m' ((c.tc : Thread nD τ).loc main_arg0)) (m' ((c.tc : Thread nD τ).loc main_arg1))
              (m' ((c.tc : Thread nD τ).loc main_arg2)) (idx 0) (idx 1) : FVec Ideal S8192x1024 .f32)
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)) :=
  (θ_run defs _ _).mono
    (fun _ h c => ⟨(h c).1.trans ((val_main_v12_eq _ _ _).trans (ref_value _ _ _)), (h c).2⟩)
    (Cert.ReferenceIdeal.Value.run (F := Ideal) m' ρ')

end Cert.RefSide

end
-- ==== Proof.LibFinite.lean ====
/-
  Finite extended reals.

  An extended real is FINITE (here `IsReal`) when it is the image of a real number, equivalently when it is
  neither `⊤` nor `⊥`. The arithmetic of the extended reals is the arithmetic of the reals on the finite
  ones: sums, differences, products, finite sums, maxima and minima of finite values are finite, and so are a
  quotient by a finite divisor that is not zero, the exponential, and a power `r ^ (-1/2)` of a real `r ≥ 1`
  (which is moreover positive). Distributivity of the product over the sum FAILS on the extended reals at the
  infinities, so an algebraic law between two arrangements of a sum of products is proved on the reals and
  carried over; a part of this file is the toolkit for that: the coercion commutes with finite
  sums, and a family of finite extended reals is the coercion of a family of reals. The last part reads three
  stages of a network layer on finite values: min-max normalisation, the leaky activation, a column maximum or
  minimum.
-/
import Idealize.ShloMosaic.PureOps.Ideal
import Idealize.ShloMosaic.PureOps.Ideal.Laws
import Idealize.ShloMosaic.Lib.ValueIdx

noncomputable section

open scoped BigOperators

namespace Cert.Finite

open Idealize.ShloMosaic

/-! ## Finite extended reals -/

/-- `x` is (the coercion of) a real number. -/
def IsReal (x : EReal) : Prop := ∃ r : ℝ, x = (r : EReal)

/-- The coercion of a real is finite. -/
theorem isReal_coe (r : ℝ) : IsReal (r : EReal) := ⟨r, rfl⟩

/-- Finite means: neither infinity. -/
theorem isReal_iff_ne {x : EReal} : IsReal x ↔ x ≠ ⊤ ∧ x ≠ ⊥ := by
  constructor
  · rintro ⟨r, rfl⟩
    exact ⟨EReal.coe_ne_top r, EReal.coe_ne_bot r⟩
  · rintro ⟨ht, hb⟩
    exact ⟨x.toReal, (EReal.coe_toReal ht hb).symm⟩

/-- An extended real that is neither infinity is finite. -/
theorem isReal_of_ne {x : EReal} (ht : x ≠ ⊤) (hb : x ≠ ⊥) : IsReal x := isReal_iff_ne.mpr ⟨ht, hb⟩

/-- A finite value is not `⊤`. -/
theorem IsReal.ne_top {x : EReal} (h : IsReal x) : x ≠ ⊤ := (isReal_iff_ne.mp h).1

/-- A finite value is not `⊥`. -/
theorem IsReal.ne_bot {x : EReal} (h : IsReal x) : x ≠ ⊥ := (isReal_iff_ne.mp h).2

/-- A finite extended real is the coercion of its real part. -/
theorem IsReal.coe_toReal {x : EReal} (h : IsReal x) : ((x.toReal : ℝ) : EReal) = x :=
  EReal.coe_toReal h.ne_top h.ne_bot

/-- A finite value is above `⊥`. -/
theorem IsReal.bot_lt {x : EReal} (h : IsReal x) : ⊥ < x := bot_lt_iff_ne_bot.mpr h.ne_bot

/-- A finite value is below `⊤`. -/
theorem IsReal.lt_top {x : EReal} (h : IsReal x) : x < ⊤ := lt_top_iff_ne_top.mpr h.ne_top

/-- `⊤` is not finite. -/
theorem not_isReal_top : ¬ IsReal ⊤ := fun h => h.ne_top rfl

/-- `⊥` is not finite. -/
theorem not_isReal_bot : ¬ IsReal ⊥ := fun h => h.ne_bot rfl

/-! ## Closure under the arithmetic -/

/-- Zero is finite. -/
theorem isReal_zero : IsReal 0 := ⟨0, EReal.coe_zero.symm⟩

/-- One is finite. -/
theorem isReal_one : IsReal 1 := ⟨1, EReal.coe_one.symm⟩

/-- The sum of two finite values is finite. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- The opposite of a finite value is finite. -/
theorem IsReal.neg {a : EReal} (ha : IsReal a) : IsReal (-a) := by
  obtain ⟨r, rfl⟩ := ha
  exact ⟨-r, (EReal.coe_neg r).symm⟩

/-- The difference of two finite values is finite. -/
theorem IsReal.sub {a b : EReal} (ha : IsReal a) (hb : IsReal b) : IsReal (a - b) := by
  obtain ⟨r, rfl⟩ := ha
  obtain ⟨s, rfl⟩ := hb
  exact ⟨r - s, (EReal.coe_sub r s).symm⟩

/-- The product of two finite values is finite. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- A finite sum of finite terms is finite. -/
theorem isReal_sum {ι : Type*} (s : Finset ι) (f : ι → EReal) (h : ∀ i ∈ s, IsReal (f i)) :
    IsReal (∑ i ∈ s, f i) :=
  Finset.sum_induction f IsReal (fun _ _ ha hb => ha.add hb) isReal_zero h

/-- The same over a whole finite type. -/
theorem isReal_sum_univ {ι : Type*} [Fintype ι] (f : ι → EReal) (h : ∀ i, IsReal (f i)) : IsReal (∑ i, f i) :=
  isReal_sum Finset.univ f fun i _ => h i

/-- A zero accumulator plus a finite sum of finite terms is finite. -/
theorem isReal_zero_add_sum {ι : Type*} (s : Finset ι) (f : ι → EReal) (h : ∀ i ∈ s, IsReal (f i)) :
    IsReal (0 + ∑ i ∈ s, f i) :=
  isReal_zero.add (isReal_sum s f h)

/-- A finite accumulator plus a finite sum of finite terms is finite. -/
theorem isReal_add_sum {ι : Type*} (s : Finset ι) (f : ι → EReal) {a : EReal} (ha : IsReal a)
    (h : ∀ i ∈ s, IsReal (f i)) : IsReal (a + ∑ i ∈ s, f i) :=
  ha.add (isReal_sum s f h)

/-! ## Maxima and minima -/

/-- The larger of two finite values is finite. -/
theorem IsReal.max {a b : EReal} (ha : IsReal a) (hb : IsReal b) : IsReal (max a b) := by
  rcases max_choice a b with h | h <;> rw [h] <;> assumption

/-- The smaller of two finite values is finite. -/
theorem IsReal.min {a b : EReal} (ha : IsReal a) (hb : IsReal b) : IsReal (min a b) := by
  rcases min_choice a b with h | h <;> rw [h] <;> assumption

/-- If every member of a family is finite, any value the family takes is finite: however a maximum or a
    minimum over the family is presented, once it is known to be attained it is finite. -/
theorem isReal_of_eq_apply {ι : Sort*} {f : ι → EReal} (h : ∀ i, IsReal (f i)) {m : EReal} (hm : ∃ i, m = f i) :
    IsReal m := by
  obtain ⟨i, rfl⟩ := hm
  exact h i

/-- The same over a finite set of indices. -/
theorem isReal_of_eq_apply_mem {ι : Type*} {s : Finset ι} {f : ι → EReal} (h : ∀ i ∈ s, IsReal (f i)) {m : EReal}
    (hm : ∃ i ∈ s, m = f i) : IsReal m := by
  obtain ⟨i, hi, rfl⟩ := hm
  exact h i hi

/-- The maximum of finitely many finite values, over a nonempty set of indices, is finite. -/
theorem isReal_sup' {ι : Type*} (s : Finset ι) (hs : s.Nonempty) (f : ι → EReal) (h : ∀ i ∈ s, IsReal (f i)) :
    IsReal (s.sup' hs f) := by
  obtain ⟨i, hi, he⟩ := Finset.exists_mem_eq_sup' hs f
  rw [he]
  exact h i hi

/-- The minimum of finitely many finite values, over a nonempty set of indices, is finite. -/
theorem isReal_inf' {ι : Type*} (s : Finset ι) (hs : s.Nonempty) (f : ι → EReal) (h : ∀ i ∈ s, IsReal (f i)) :
    IsReal (s.inf' hs f) := by
  obtain ⟨i, hi, he⟩ := Finset.exists_mem_eq_inf' hs f
  rw [he]
  exact h i hi

/-- The maximum of a family of finite values over a nonempty finite type is finite. -/
theorem isReal_univ_sup' {ι : Type*} [Fintype ι] [Nonempty ι] (f : ι → EReal) (h : ∀ i, IsReal (f i)) :
    IsReal (Finset.univ.sup' Finset.univ_nonempty f) :=
  isReal_sup' _ _ f fun i _ => h i

/-- The minimum of a family of finite values over a nonempty finite type is finite. -/
theorem isReal_univ_inf' {ι : Type*} [Fintype ι] [Nonempty ι] (f : ι → EReal) (h : ∀ i, IsReal (f i)) :
    IsReal (Finset.univ.inf' Finset.univ_nonempty f) :=
  isReal_inf' _ _ f fun i _ => h i

/-- A fold of `max` from a starting value is the starting value or one of the folded values. -/
theorem fold_max_eq_or {ι : Type*} (s : Finset ι) (b : EReal) (f : ι → EReal) :
    s.fold max b f = b ∨ ∃ i ∈ s, s.fold max b f = f i := by
  classical
  refine Finset.induction_on s (Or.inl (Finset.fold_empty)) ?_
  intro a t ha ih
  rw [Finset.fold_insert ha]
  rcases max_choice (f a) (t.fold max b f) with h | h
  · exact Or.inr ⟨a, Finset.mem_insert_self a t, h⟩
  · rw [h]
    rcases ih with ih | ⟨i, hi, ih⟩
    · exact Or.inl ih
    · exact Or.inr ⟨i, Finset.mem_insert_of_mem hi, ih⟩

/-- A fold of `min` from a starting value is the starting value or one of the folded values. -/
theorem fold_min_eq_or {ι : Type*} (s : Finset ι) (b : EReal) (f : ι → EReal) :
    s.fold min b f = b ∨ ∃ i ∈ s, s.fold min b f = f i := by
  classical
  refine Finset.induction_on s (Or.inl (Finset.fold_empty)) ?_
  intro a t ha ih
  rw [Finset.fold_insert ha]
  rcases min_choice (f a) (t.fold min b f) with h | h
  · exact Or.inr ⟨a, Finset.mem_insert_self a t, h⟩
  · rw [h]
    rcases ih with ih | ⟨i, hi, ih⟩
    · exact Or.inl ih
    · exact Or.inr ⟨i, Finset.mem_insert_of_mem hi, ih⟩

/-- A fold of `max` from a finite starting value over finite values is finite. -/
theorem isReal_fold_max {ι : Type*} (s : Finset ι) {b : EReal} (f : ι → EReal) (hb : IsReal b)
    (h : ∀ i ∈ s, IsReal (f i)) : IsReal (s.fold max b f) := by
  rcases fold_max_eq_or s b f with e | ⟨i, hi, e⟩ <;> rw [e]
  · exact hb
  · exact h i hi

/-- A fold of `min` from a finite starting value over finite values is finite. -/
theorem isReal_fold_min {ι : Type*} (s : Finset ι) {b : EReal} (f : ι → EReal) (hb : IsReal b)
    (h : ∀ i ∈ s, IsReal (f i)) : IsReal (s.fold min b f) := by
  rcases fold_min_eq_or s b f with e | ⟨i, hi, e⟩ <;> rw [e]
  · exact hb
  · exact h i hi

/-- A fold of `max` from `⊥` (the neutral element of a maximum) over finite values, on a nonempty set of
    indices, is finite: it is above one of them, hence not `⊥`, hence one of them. -/
theorem isReal_fold_max_bot {ι : Type*} (s : Finset ι) (hs : s.Nonempty) (f : ι → EReal)
    (h : ∀ i ∈ s, IsReal (f i)) : IsReal (s.fold max ⊥ f) := by
  rcases fold_max_eq_or s ⊥ f with e | ⟨i, hi, e⟩
  · obtain ⟨i, hi⟩ := hs
    have hle : f i ≤ s.fold max ⊥ f := (Finset.le_fold_max (f i)).mpr (Or.inr ⟨i, hi, le_rfl⟩)
    rw [e] at hle
    exact absurd (le_bot_iff.mp hle) (h i hi).ne_bot
  · rw [e]
    exact h i hi

/-- A fold of `min` from `⊤` (the neutral element of a minimum) over finite values, on a nonempty set of
    indices, is finite. -/
theorem isReal_fold_min_top {ι : Type*} (s : Finset ι) (hs : s.Nonempty) (f : ι → EReal)
    (h : ∀ i ∈ s, IsReal (f i)) : IsReal (s.fold min ⊤ f) := by
  rcases fold_min_eq_or s ⊤ f with e | ⟨i, hi, e⟩
  · obtain ⟨i, hi⟩ := hs
    have hle : s.fold min ⊤ f ≤ f i := (Finset.fold_min_le (f i)).mpr (Or.inr ⟨i, hi, le_rfl⟩)
    rw [e] at hle
    exact absurd (top_le_iff.mp hle) (h i hi).ne_top
  · rw [e]
    exact h i hi

/-! ## Quotient, exponential, power -/

/-- The quotient of two reals, the divisor not zero, is the real quotient. -/
theorem div_coe_coe (r : ℝ) {s : ℝ} (hs : s ≠ 0) : Ideal.div (r : EReal) (s : EReal) = ((r / s : ℝ) : EReal) := by
  rw [Ideal.div_coe hs, ← EReal.coe_mul, mul_one_div]

/-- The quotient of a finite value by a finite divisor that is not zero is finite. -/
theorem IsReal.div {a b : EReal} (ha : IsReal a) (hb : IsReal b) (hb0 : b ≠ 0) : IsReal (Ideal.div a b) := by
  obtain ⟨r, rfl⟩ := ha
  obtain ⟨s, rfl⟩ := hb
  have hs : s ≠ 0 := fun h0 => hb0 (by rw [h0, EReal.coe_zero])
  exact ⟨r / s, div_coe_coe r hs⟩

/-- The exponential of a real is a positive real. -/
theorem exp_coe_isReal (r : ℝ) : IsReal (Ideal.exp (r : EReal)) := ⟨Real.exp r, Ideal.exp_coe r⟩

/-- The exponential of a real is positive. -/
theorem exp_coe_pos (r : ℝ) : 0 < Ideal.exp (r : EReal) := by
  rw [Ideal.exp_coe]
  exact EReal.coe_pos.mpr (Real.exp_pos r)

/-- The exponential of a finite value is finite and positive. -/
theorem IsReal.exp {a : EReal} (ha : IsReal a) : IsReal (Ideal.exp a) ∧ 0 < Ideal.exp a := by
  obtain ⟨r, rfl⟩ := ha
  exact ⟨exp_coe_isReal r, exp_coe_pos r⟩

/-- A power of a positive real by a real exponent is a positive real. -/
theorem pow_coe_coe_of_pos {r : ℝ} (hr : 0 < r) (y : ℝ) :
    IsReal (Ideal.pow (r : EReal) (y : EReal)) ∧ 0 < Ideal.pow (r : EReal) (y : EReal) := by
  rw [Ideal.pow_coe_coe]
  exact ⟨isReal_coe _, EReal.coe_pos.mpr (Real.rpow_pos_of_pos hr y)⟩

/-- A real `r ≥ 1` to the power `-1/2` is a positive real. -/
theorem pow_neg_half_of_one_le {r : ℝ} (hr : 1 ≤ r) :
    IsReal (Ideal.pow (r : EReal) ((-(1 / 2) : ℝ) : EReal)) ∧ 0 < Ideal.pow (r : EReal) ((-(1 / 2) : ℝ) : EReal) :=
  pow_coe_coe_of_pos (lt_of_lt_of_le one_pos hr) _

/-- The same, naming the real value: `r ^ (-1/2) = (√r)⁻¹` for `r ≥ 0`. -/
theorem pow_neg_half_eq {r : ℝ} (hr : 0 ≤ r) :
    Ideal.pow (r : EReal) ((-(1 / 2) : ℝ) : EReal) = (((Real.sqrt r)⁻¹ : ℝ) : EReal) := by
  rw [Ideal.pow_coe_coe]
  congr 1
  show r ^ (-(1 / 2) : ℝ) = (Real.sqrt r)⁻¹
  rw [Real.rpow_neg hr, Real.sqrt_eq_rpow]

/-- The f32 pattern `0xBF000000` is the real `-1/2`. -/
theorem ofBits_neg_half_f32 : Ideal.ofBits .f32 0xBF000000#32 = ((-(1 / 2) : ℝ) : EReal) := by
  simp [Ideal.ofBits, Ideal.ieee, -EReal.coe_mul, -EReal.coe_neg]; norm_num

/-- A finite value `a ≥ 1` to the power written as the f32 pattern `0xBF000000` (that is `-1/2`) is finite and
    positive. -/
theorem IsReal.pow_neg_half {a : EReal} (ha : IsReal a) (h1 : 1 ≤ a) :
    IsReal (Ideal.pow a (Ideal.ofBits .f32 0xBF000000#32)) ∧ 0 < Ideal.pow a (Ideal.ofBits .f32 0xBF000000#32) := by
  obtain ⟨r, rfl⟩ := ha
  rw [ofBits_neg_half_f32]
  exact pow_neg_half_of_one_le (by exact_mod_cast h1)

/-- A finite value raised to at least one, `max a 1`, to the power `-1/2` (the f32 pattern `0xBF000000`) is finite
    and positive: the inverse square root of a degree clamped below by one. -/
theorem isReal_pow_neg_half_max_one {a : EReal} (ha : IsReal a) :
    IsReal (Ideal.pow (max a 1) (Ideal.ofBits .f32 0xBF000000#32))
      ∧ 0 < Ideal.pow (max a 1) (Ideal.ofBits .f32 0xBF000000#32) :=
  (ha.max isReal_one).pow_neg_half (le_max_right a 1)

/-! ## From finite extended reals to reals -/

/-- The coercion commutes with finite sums. -/
@[norm_cast]
theorem coe_sum {ι : Type*} (s : Finset ι) (f : ι → ℝ) : ((∑ i ∈ s, f i : ℝ) : EReal) = ∑ i ∈ s, (f i : EReal) := by
  classical
  refine Finset.induction_on s (by simp) ?_
  intro a t ha ih
  rw [Finset.sum_insert ha, Finset.sum_insert ha, EReal.coe_add, ih]

/-- A family of finite extended reals is the coercion of a family of reals. -/
theorem exists_real_fun {ι : Sort*} (f : ι → EReal) (h : ∀ i, IsReal (f i)) : ∃ g : ι → ℝ, ∀ i, f i = (g i : EReal) := by
  choose g hg using h
  exact ⟨g, hg⟩

/-- The same for a family with two indices. -/
theorem exists_real_fun₂ {ι κ : Sort*} (f : ι → κ → EReal) (h : ∀ i k, IsReal (f i k)) :
    ∃ g : ι → κ → ℝ, ∀ i k, f i k = (g i k : EReal) := by
  choose g hg using h
  exact ⟨g, hg⟩

/-- As an equation of functions, ready for substitution. -/
theorem exists_real_fun_eq {ι : Sort*} (f : ι → EReal) (h : ∀ i, IsReal (f i)) :
    ∃ g : ι → ℝ, f = fun i => (g i : EReal) := by
  obtain ⟨g, hg⟩ := exists_real_fun f h
  exact ⟨g, funext hg⟩

/-- As an equation of functions, two indices. -/
theorem exists_real_fun₂_eq {ι κ : Sort*} (f : ι → κ → EReal) (h : ∀ i k, IsReal (f i k)) :
    ∃ g : ι → κ → ℝ, f = fun i k => (g i k : EReal) := by
  obtain ⟨g, hg⟩ := exists_real_fun₂ f h
  exact ⟨g, funext fun i => funext fun k => hg i k⟩

/-! ## Stages of a layer on finite values

Min-max normalisation, the leaky activation, and a column maximum or minimum keep finite values finite. -/

/-- Min-max normalisation of reals: `(a - r) / (s - r)` when `r < s`. -/
theorem minmax_coe (a : ℝ) {r s : ℝ} (h : r < s) :
    Ideal.div ((a : EReal) - (r : EReal)) ((s : EReal) - (r : EReal)) = (((a - r) / (s - r) : ℝ) : EReal) := by
  rw [← EReal.coe_sub, ← EReal.coe_sub]
  exact div_coe_coe _ (sub_ne_zero.mpr (ne_of_gt h))

/-- Min-max normalisation of a finite value between finite bounds `mn < mx` is finite. -/
theorem isReal_minmax {x mn mx : EReal} (hx : IsReal x) (hmn : IsReal mn) (hmx : IsReal mx) (h : mn < mx) :
    IsReal (Ideal.div (x - mn) (mx - mn)) := by
  obtain ⟨a, rfl⟩ := hx
  obtain ⟨r, rfl⟩ := hmn
  obtain ⟨s, rfl⟩ := hmx
  rw [minmax_coe a (EReal.coe_lt_coe_iff.mp h)]
  exact isReal_coe _

/-- An f32 word whose exponent field is not all ones (neither an infinity nor a NaN pattern) denotes a real. -/
theorem isReal_ofBits_f32 (w : BitVec 32) (h : (w.extractLsb' 23 8).toNat ≠ 2 ^ 8 - 1) :
    IsReal (Ideal.ofBits .f32 w) := by
  show IsReal (Ideal.ieee 8 23 w)
  unfold Ideal.ieee
  simp only [if_neg h]
  split_ifs <;> exact isReal_coe _

/-- The f32 word `0x3C23D70A` (the slope `0.01` of the leaky activation, rounded) denotes a real. -/
theorem isReal_ofBits_slope : IsReal (Ideal.ofBits .f32 0x3C23D70A#32) :=
  isReal_ofBits_f32 _ (by decide)

/-- The f32 word `0xFF800000` is `-∞`. -/
theorem ofBits_neg_inf_f32 : Ideal.ofBits .f32 0xFF800000#32 = ⊥ := by simp [Ideal.ofBits, Ideal.ieee]

/-- The f32 word `0x7F800000` is `+∞`. -/
theorem ofBits_pos_inf_f32 : Ideal.ofBits .f32 0x7F800000#32 = ⊤ := by simp [Ideal.ofBits, Ideal.ieee]

/-- The comparison `y > 0` against the f32 zero word answers the bit one when `0 < y`. -/
theorem cmpf_ogt_zero_of_pos {y : Ideal .f32} (hy : 0 < y) :
    FloatOps.cmpf .ogt y (Ideal.ofBits .f32 0x00000000#32) = 1#1 := by
  rw [Ideal.cmpf_def, Ideal.ofBits_zero_f32]
  show BitVec.ofBool (decide ((0 : EReal) < y)) = 1#1
  rw [decide_eq_true hy]
  rfl

/-- The comparison `y > 0` against the f32 zero word answers the bit zero when not `0 < y`. -/
theorem cmpf_ogt_zero_of_not_pos {y : Ideal .f32} (hy : ¬ 0 < y) :
    FloatOps.cmpf .ogt y (Ideal.ofBits .f32 0x00000000#32) = 0#1 := by
  rw [Ideal.cmpf_def, Ideal.ofBits_zero_f32]
  show BitVec.ofBool (decide ((0 : EReal) < y)) = 0#1
  rw [decide_eq_false hy]
  rfl

/-- The leaky activation `if y > 0 then y else c * y` at a positive value is the value. -/
theorem leaky_of_pos (c : Ideal .f32) {y : Ideal .f32} (hy : 0 < y) :
    Scalar.select (FloatOps.cmpf .ogt y (Ideal.ofBits .f32 0x00000000#32)) y (c * y) = y := by
  rw [cmpf_ogt_zero_of_pos hy]
  exact if_pos rfl

/-- The leaky activation at a value that is not positive is the slope times the value. -/
theorem leaky_of_not_pos (c : Ideal .f32) {y : Ideal .f32} (hy : ¬ 0 < y) :
    Scalar.select (FloatOps.cmpf .ogt y (Ideal.ofBits .f32 0x00000000#32)) y (c * y) = c * y := by
  rw [cmpf_ogt_zero_of_not_pos hy]
  exact if_neg (by decide)

/-- The leaky activation of a finite value with a finite slope is finite. -/
theorem isReal_leaky {c y : Ideal .f32} (hc : IsReal c) (hy : IsReal y) :
    IsReal (Scalar.select (FloatOps.cmpf .ogt y (Ideal.ofBits .f32 0x00000000#32)) y (c * y)) := by
  by_cases h : 0 < y
  · rw [leaky_of_pos c h]
    exact hy
  · rw [leaky_of_not_pos c h]
    exact hc.mul hy

/-- The leaky activation with the slope word `0x3C23D70A` of a finite value is finite. -/
theorem isReal_leaky_slope {y : Ideal .f32} (hy : IsReal y) :
    IsReal (Scalar.select (FloatOps.cmpf .ogt y (Ideal.ofBits .f32 0x00000000#32)) y
      (Ideal.ofBits .f32 0x3C23D70A#32 * y)) :=
  isReal_leaky isReal_ofBits_slope hy

/-! ### A maximum or minimum over one axis -/

section Reduce

variable {s t u : Shape} {a : Fin s.rank} {φ : FTy}

/-- A reduction with a maximum body over one axis is, at `j`, the fold of `max` from the initial value over that
    axis's coordinates. -/
theorem hostReduce_maximumf_eq_fold (x : FVec Ideal s φ) (init : FVec Ideal u φ) (h' : s.ReducesTo [a] t)
    (h : s.Reduces [a] t) (hu : 0 < u.numel) (j : t.Idx) :
    Host.reduce FloatOps.maximumf x init h' hu j
      = (Finset.univ : Finset (Fin (s.size a))).fold max (init (Shape.Idx.first hu)) (x ∘ h.lift j) :=
  Host.reduce_eq_fold_single FloatOps.maximumf x init h' h hu j

/-- A reduction with a minimum body over one axis is, at `j`, the fold of `min` from the initial value over that
    axis's coordinates. -/
theorem hostReduce_minimumf_eq_fold (x : FVec Ideal s φ) (init : FVec Ideal u φ) (h' : s.ReducesTo [a] t)
    (h : s.Reduces [a] t) (hu : 0 < u.numel) (j : t.Idx) :
    Host.reduce FloatOps.minimumf x init h' hu j
      = (Finset.univ : Finset (Fin (s.size a))).fold min (init (Shape.Idx.first hu)) (x ∘ h.lift j) :=
  Host.reduce_eq_fold_single FloatOps.minimumf x init h' h hu j

/-- The maximum over a nonempty axis, from `-∞`, of finite values is finite. -/
theorem isReal_hostReduce_maximumf (x : FVec Ideal s φ) (init : FVec Ideal u φ) (h' : s.ReducesTo [a] t)
    (h : s.Reduces [a] t) (hu : 0 < u.numel) (hinit : init (Shape.Idx.first hu) = ⊥) (hpos : 0 < s.size a)
    (hx : ∀ i, IsReal (x i)) (j : t.Idx) : IsReal (Host.reduce (α := Ideal φ) FloatOps.maximumf x init h' hu j) := by
  rw [hostReduce_maximumf_eq_fold x init h' h hu j, hinit]
  exact isReal_fold_max_bot _ ⟨⟨0, hpos⟩, Finset.mem_univ _⟩ _ fun k _ => hx _

/-- The maximum over an axis is at least every value along it. -/
theorem le_hostReduce_maximumf (x : FVec Ideal s φ) (init : FVec Ideal u φ) (h' : s.ReducesTo [a] t)
    (h : s.Reduces [a] t) (hu : 0 < u.numel) (j : t.Idx) (k : Fin (s.size a)) :
    x (h.lift j k) ≤ Host.reduce FloatOps.maximumf x init h' hu j := by
  rw [hostReduce_maximumf_eq_fold x init h' h hu j]
  exact (Finset.le_fold_max _).mpr (Or.inr ⟨k, Finset.mem_univ _, le_rfl⟩)

/-- Every entry is at most the maximum at the index it reduces to. -/
theorem le_hostReduce_maximumf_drop (x : FVec Ideal s φ) (init : FVec Ideal u φ) (h' : s.ReducesTo [a] t)
    (h : s.Reduces [a] t) (hu : 0 < u.numel) (i : s.Idx) :
    x i ≤ Host.reduce FloatOps.maximumf x init h' hu (h.drop i) := by
  have e := le_hostReduce_maximumf x init h' h hu (h.drop i) (i a)
  rwa [h.lift_drop] at e

/-- The maximum over a nonempty axis, from `-∞`, of finite values is one of them. -/
theorem hostReduce_maximumf_attained (x : FVec Ideal s φ) (init : FVec Ideal u φ) (h' : s.ReducesTo [a] t)
    (h : s.Reduces [a] t) (hu : 0 < u.numel) (hinit : init (Shape.Idx.first hu) = ⊥) (hpos : 0 < s.size a)
    (hx : ∀ i, IsReal (x i)) (j : t.Idx) :
    ∃ k : Fin (s.size a), Host.reduce FloatOps.maximumf x init h' hu j = x (h.lift j k) := by
  have hr := isReal_hostReduce_maximumf x init h' h hu hinit hpos hx j
  rw [hostReduce_maximumf_eq_fold x init h' h hu j, hinit] at hr ⊢
  rcases fold_max_eq_or Finset.univ ⊥ (x ∘ h.lift j) with e | ⟨k, _, e⟩
  · rw [e] at hr
    exact absurd hr not_isReal_bot
  · exact ⟨k, e⟩

/-- The minimum over a nonempty axis, from `+∞`, of finite values is finite. -/
theorem isReal_hostReduce_minimumf (x : FVec Ideal s φ) (init : FVec Ideal u φ) (h' : s.ReducesTo [a] t)
    (h : s.Reduces [a] t) (hu : 0 < u.numel) (hinit : init (Shape.Idx.first hu) = ⊤) (hpos : 0 < s.size a)
    (hx : ∀ i, IsReal (x i)) (j : t.Idx) : IsReal (Host.reduce (α := Ideal φ) FloatOps.minimumf x init h' hu j) := by
  rw [hostReduce_minimumf_eq_fold x init h' h hu j, hinit]
  exact isReal_fold_min_top _ ⟨⟨0, hpos⟩, Finset.mem_univ _⟩ _ fun k _ => hx _

/-- The minimum over an axis is at most every value along it. -/
theorem hostReduce_minimumf_le (x : FVec Ideal s φ) (init : FVec Ideal u φ) (h' : s.ReducesTo [a] t)
    (h : s.Reduces [a] t) (hu : 0 < u.numel) (j : t.Idx) (k : Fin (s.size a)) :
    Host.reduce FloatOps.minimumf x init h' hu j ≤ x (h.lift j k) := by
  rw [hostReduce_minimumf_eq_fold x init h' h hu j]
  exact (Finset.fold_min_le _).mpr (Or.inr ⟨k, Finset.mem_univ _, le_rfl⟩)

/-- Every entry is at least the minimum at the index it reduces to. -/
theorem hostReduce_minimumf_drop_le (x : FVec Ideal s φ) (init : FVec Ideal u φ) (h' : s.ReducesTo [a] t)
    (h : s.Reduces [a] t) (hu : 0 < u.numel) (i : s.Idx) :
    Host.reduce FloatOps.minimumf x init h' hu (h.drop i) ≤ x i := by
  have e := hostReduce_minimumf_le x init h' h hu (h.drop i) (i a)
  rwa [h.lift_drop] at e

/-- The minimum over a nonempty axis, from `+∞`, of finite values is one of them. -/
theorem hostReduce_minimumf_attained (x : FVec Ideal s φ) (init : FVec Ideal u φ) (h' : s.ReducesTo [a] t)
    (h : s.Reduces [a] t) (hu : 0 < u.numel) (hinit : init (Shape.Idx.first hu) = ⊤) (hpos : 0 < s.size a)
    (hx : ∀ i, IsReal (x i)) (j : t.Idx) :
    ∃ k : Fin (s.size a), Host.reduce FloatOps.minimumf x init h' hu j = x (h.lift j k) := by
  have hr := isReal_hostReduce_minimumf x init h' h hu hinit hpos hx j
  rw [hostReduce_minimumf_eq_fold x init h' h hu j, hinit] at hr ⊢
  rcases fold_min_eq_or Finset.univ ⊤ (x ∘ h.lift j) with e | ⟨k, _, e⟩
  · rw [e] at hr
    exact absurd hr not_isReal_top
  · exact ⟨k, e⟩

end Reduce

/-! ### The column maximum and minimum of a matrix -/

section Column

open Idealize.ShloMosaic.ValueIdx

variable {R C : Nat}

/-- In a reduction of an `R × C` matrix over its rows, column `c` with row `k` put back is the entry `(k, c)`. -/
theorem lift_ix2 (h : (⟨2, ![R, C]⟩ : Shape).Reduces [0] (⟨1, ![C]⟩ : Shape)) (c : Fin C)
    (k : Fin ((⟨2, ![R, C]⟩ : Shape).size 0)) : h.lift (ix1 c) k = ix2 (⟨k.val, k.isLt⟩ : Fin R) c := by
  funext d
  apply Fin.ext
  fin_cases d <;> rfl

/-- The column maximum, from the word of `-∞`, of a matrix of finite values with at least one row is finite. -/
theorem isReal_colMax (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (hR : 0 < R) (hx : ∀ i, IsReal (x i)) (c : Fin C) :
    IsReal (Host.reduce (α := Ideal .f32) FloatOps.maximumf x (constant (⟨0, ![]⟩ : Shape) .f32 0xFF800000#32) h' hu (ix1 c)) :=
  isReal_hostReduce_maximumf x (constant (⟨0, ![]⟩ : Shape) .f32 0xFF800000#32) h' h hu ofBits_neg_inf_f32 hR hx (ix1 c)

/-- The column maximum is at least every entry of the column. -/
theorem le_colMax (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (r : Fin R) (c : Fin C) :
    x (ix2 r c) ≤ Host.reduce FloatOps.maximumf x (constant (⟨0, ![]⟩ : Shape) .f32 0xFF800000#32) h' hu (ix1 c) := by
  have e := le_hostReduce_maximumf x (constant (⟨0, ![]⟩ : Shape) .f32 0xFF800000#32) h' h hu (ix1 c) r
  rwa [lift_ix2 h c r] at e

/-- The column maximum of a matrix of finite values with at least one row is an entry of the column. -/
theorem colMax_attained (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (hR : 0 < R) (hx : ∀ i, IsReal (x i)) (c : Fin C) :
    ∃ r : Fin R,
      Host.reduce FloatOps.maximumf x (constant (⟨0, ![]⟩ : Shape) .f32 0xFF800000#32) h' hu (ix1 c) = x (ix2 r c) := by
  obtain ⟨k, e⟩ := hostReduce_maximumf_attained x (constant (⟨0, ![]⟩ : Shape) .f32 0xFF800000#32) h' h hu ofBits_neg_inf_f32 hR hx (ix1 c)
  exact ⟨⟨k.val, k.isLt⟩, by rw [e, lift_ix2 h c k]⟩

/-- The column minimum, from the word of `+∞`, of a matrix of finite values with at least one row is finite. -/
theorem isReal_colMin (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (hR : 0 < R) (hx : ∀ i, IsReal (x i)) (c : Fin C) :
    IsReal (Host.reduce (α := Ideal .f32) FloatOps.minimumf x (constant (⟨0, ![]⟩ : Shape) .f32 0x7F800000#32) h' hu (ix1 c)) :=
  isReal_hostReduce_minimumf x (constant (⟨0, ![]⟩ : Shape) .f32 0x7F800000#32) h' h hu ofBits_pos_inf_f32 hR hx (ix1 c)

/-- The column minimum is at most every entry of the column. -/
theorem colMin_le (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (r : Fin R) (c : Fin C) :
    Host.reduce FloatOps.minimumf x (constant (⟨0, ![]⟩ : Shape) .f32 0x7F800000#32) h' hu (ix1 c) ≤ x (ix2 r c) := by
  have e := hostReduce_minimumf_le x (constant (⟨0, ![]⟩ : Shape) .f32 0x7F800000#32) h' h hu (ix1 c) r
  rwa [lift_ix2 h c r] at e

/-- The column minimum of a matrix of finite values with at least one row is an entry of the column. -/
theorem colMin_attained (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (hR : 0 < R) (hx : ∀ i, IsReal (x i)) (c : Fin C) :
    ∃ r : Fin R,
      Host.reduce FloatOps.minimumf x (constant (⟨0, ![]⟩ : Shape) .f32 0x7F800000#32) h' hu (ix1 c) = x (ix2 r c) := by
  obtain ⟨k, e⟩ := hostReduce_minimumf_attained x (constant (⟨0, ![]⟩ : Shape) .f32 0x7F800000#32) h' h hu ofBits_pos_inf_f32 hR hx (ix1 c)
  exact ⟨⟨k.val, k.isLt⟩, by rw [e, lift_ix2 h c k]⟩

end Column

end Cert.Finite
-- ==== Proof.LibPreDecode.lean ====
/-
  A predicate that is a conjunction of "all entries of an array satisfy a comparison", read back.

  Such a predicate is a one-bit scalar built from three things: an entrywise comparison of two arrays, giving an
  array of one-bit words; a reduction of that array by "and" over all axes, from the word 1; and the "and" of several
  such scalars. If the scalar is 1 then every conjunct is 1 (a conjunction of one-bit words is 1 exactly when each
  word is), a reduction by "and" that came out 1 met only 1s, and a comparison word that is 1 says the comparison
  holds. Over the extended reals two comparisons matter here: "x > y" is the strict order, and "|x| < +infinity"
  says exactly that x is finite, the image of a real number (it excludes both infinities; |x| is max x (-x)).

  The statements are over an arbitrary array shape, an arbitrary float format whose compared pattern denotes +infinity
  (with the f32 and bf16 patterns as instances), and both ways a scalar is said to be 1: at its one index, or as the
  constant function. Nothing here mentions a particular program.
-/
import Idealize.ShloMosaic.PureOps.Ideal
import Idealize.ShloMosaic.PureOps.Ideal.Laws
import Idealize.ShloMosaic.Lib.ValueIdx
import Idealize.ShloMosaic.Lib.ReduceAll
import proofs.«142103_j4440996184607_1_alg».proof.Proof.LibFinite

noncomputable section

namespace Cert.PreDecodeLib

open Idealize.ShloMosaic Idealize.ShloMosaic.ValueIdx
open Cert.Finite

/-! ## The scalar shape -/

/-- The shape of a scalar: rank 0. -/
abbrev S0 : Shape := ⟨0, ![]⟩

/-- The scalar shape has one index. -/
instance subsingleton_S0_idx : Subsingleton S0.Idx := ⟨fun a b => funext fun d => d.elim0⟩

/-- A one-bit scalar that is the constant function 1 is 1 at its one index. -/
theorem at_ix0_of_eq_one {x : IVec S0 1} (h : x = fun _ => 1#1) : x ix0 = 1#1 := congrFun h ix0

/-- A one-bit scalar that is 1 at its one index is the constant function 1. -/
theorem eq_one_of_at_ix0 {x : IVec S0 1} (h : x ix0 = 1#1) : x = fun _ => 1#1 :=
  funext fun i => by rw [eq_ix0 i]; exact h

/-! ## One-bit words -/

/-- A one-bit word made from a decision is 1 exactly when the decision holds. -/
theorem ofBool_eq_one (b : Bool) : BitVec.ofBool b = 1#1 ↔ b = true := by cases b <;> decide

/-- The entrywise "and" of two arrays of one-bit words is 1 at an index exactly when both are 1 there. -/
theorem andi_eq_one_at {s : Shape} {x y : IVec s 1} {i : s.Idx} (h : andi x y i = 1#1) : x i = 1#1 ∧ y i = 1#1 :=
  IntOp.andi_eq_one.1 h

/-- The "and" of two one-bit scalars that is 1 at the scalar's index has both conjuncts 1 there. -/
theorem andi_ix0 {x y : IVec S0 1} (h : andi x y ix0 = 1#1) : x ix0 = 1#1 ∧ y ix0 = 1#1 :=
  andi_eq_one_at h

/-- The entrywise "and" of two arrays of one-bit words that is constantly 1 has both arrays constantly 1. -/
theorem andi_eq_one {s : Shape} {x y : IVec s 1} (h : andi x y = fun _ => 1#1) :
    x = (fun _ => 1#1) ∧ y = (fun _ => 1#1) :=
  ⟨funext fun i => (andi_eq_one_at (congrFun h i)).1, funext fun i => (andi_eq_one_at (congrFun h i)).2⟩

/-! ## Comparisons of extended reals, read back -/

/-- A comparison word "x > y" that is 1: x is strictly above y. -/
theorem lt_of_ogt {φ : FTy} {x y : Ideal φ} (h : FloatOps.cmpf .ogt x y = 1#1) : (y : EReal) < x := by
  have h2 : Ideal.cmp .ogt x y = 1#1 := h
  unfold Ideal.cmp at h2
  rw [ofBool_eq_one] at h2
  exact of_decide_eq_true h2

/-- A comparison word "x < y" that is 1: x is strictly below y. -/
theorem lt_of_olt {φ : FTy} {x y : Ideal φ} (h : FloatOps.cmpf .olt x y = 1#1) : (x : EReal) < y := by
  have h2 : Ideal.cmp .olt x y = 1#1 := h
  unfold Ideal.cmp at h2
  rw [ofBool_eq_one] at h2
  exact of_decide_eq_true h2

/-- Two arrays compared entry by entry by "greater than", the word at an index being 1: the inequality there. -/
theorem gt_of_ogt_at {φ : FTy} {s : Shape} (x y : FVec Ideal s φ) (j : s.Idx) (h : cmpf .ogt x y j = 1#1) :
    x j > y j :=
  lt_of_ogt h

/-- The f32 pattern `0x7F800000` denotes +infinity. -/
theorem ofBits_inf_f32 : Ideal.ofBits .f32 0x7F800000#32 = (⊤ : EReal) := by simp [Ideal.ofBits, Ideal.ieee]

/-- The bf16 pattern `0x7F80` denotes +infinity. -/
theorem ofBits_inf_bf16 : Ideal.ofBits .bf16 0x7F80#16 = (⊤ : EReal) := by simp [Ideal.ofBits, Ideal.ieee]

/-- An extended real whose absolute value max x (-x) lies strictly below +infinity is a real. -/
theorem isReal_of_abs_lt_top {x : EReal} (h : max x (-x) < ⊤) : IsReal x := by
  induction x using EReal.rec with
  | bot => simp at h
  | coe r => exact ⟨r, rfl⟩
  | top => simp at h

/-- The comparison word "|x| < b" that is 1, for a pattern b that denotes +infinity: x is a real. -/
theorem isReal_of_abs_lt {φ : FTy} (b : BitVec φ.bits) (hb : Ideal.ofBits φ b = (⊤ : EReal)) (x : Ideal φ)
    (h : FloatOps.cmpf .olt (FloatOps.hostAbsf x) (FloatOps.ofBits (F := Ideal) φ b) = 1#1) : IsReal x := by
  have h2 : (max (x : EReal) (-x)) < Ideal.ofBits φ b := lt_of_olt h
  rw [hb] at h2
  exact isReal_of_abs_lt_top h2

/-- The f32 case: the comparison word "|x| < 0x7F800000" that is 1 says x is a real. -/
theorem isReal_of_abs_lt_f32 (x : Ideal .f32)
    (h : FloatOps.cmpf .olt (FloatOps.hostAbsf x) (FloatOps.ofBits (F := Ideal) .f32 0x7F800000#32) = 1#1) :
    IsReal x :=
  isReal_of_abs_lt _ ofBits_inf_f32 x h

/-! ## Arrays -/

/-- Every entry of an array of extended reals is a real. -/
abbrev AllReal {φ : FTy} {s : Shape} (x : FVec Ideal s φ) : Prop := ∀ i, IsReal (x i)

/-- Every entry of an array (already in absolute value) compares strictly below the scalar pattern b broadcast to
    the array's shape: the array of comparison words is 1 at every index. -/
abbrev LtBcast {φ : FTy} {s : Shape} (b : BitVec φ.bits) (hb : S0.BroadcastsInDim s (![] : Fin 0 → Fin s.rank))
    (x : FVec Ideal s φ) : Prop :=
  ∀ i, cmpf .olt x (broadcastInDim s ![] hb (constant S0 φ b)) i = 1#1

/-- The f32 case with the pattern of +infinity. -/
abbrev AbsLtInf {s : Shape} (hb : S0.BroadcastsInDim s (![] : Fin 0 → Fin s.rank)) (x : FVec Ideal s .f32) : Prop :=
  LtBcast 0x7F800000#32 hb x

/-- An array whose absolute values all compare below a pattern that denotes +infinity has real entries. -/
theorem allReal_of_ltBcast {φ : FTy} {s : Shape} (b : BitVec φ.bits) (htop : Ideal.ofBits φ b = (⊤ : EReal))
    (x : FVec Ideal s φ) (hb : S0.BroadcastsInDim s (![] : Fin 0 → Fin s.rank)) (h : LtBcast b hb (Host.absf x)) :
    AllReal x :=
  fun i => isReal_of_abs_lt b htop (x i) (h i)

/-- The f32 case: an array whose absolute values all compare below +infinity has real entries. -/
theorem allReal_of_abs {s : Shape} (x : FVec Ideal s .f32) (hb : S0.BroadcastsInDim s (![] : Fin 0 → Fin s.rank))
    (h : AbsLtInf hb (Host.absf x)) : AllReal x :=
  allReal_of_ltBcast _ ofBits_inf_f32 x hb h

/-! ## The reduction by "and" -/

/-- A reduction by "and" over all axes that is 1 at the scalar's index: every entry of the reduced array is 1. -/
theorem all_of_reduce {s u : Shape} {axes : List (Fin s.rank)} (p : IVec s 1) (init : IVec u 1) (hr : s.ReducesTo axes S0)
    (hu : 0 < u.numel) (e : Host.reduce IntOp.andi p init hr hu ix0 = 1#1) (i : s.Idx) : p i = 1#1 :=
  Host.reduce_andi_all p init hr hu ix0 e i

/-- The same when the reduction is said to be the constant function 1. -/
theorem all_of_reduce_eq {s u : Shape} {axes : List (Fin s.rank)} (p : IVec s 1) (init : IVec u 1)
    (hr : s.ReducesTo axes S0) (hu : 0 < u.numel) (e : Host.reduce IntOp.andi p init hr hu = fun _ => 1#1) (i : s.Idx) :
    p i = 1#1 :=
  all_of_reduce p init hr hu (congrFun e ix0) i

/-- "All |x i| < b" came out 1, for a pattern b that denotes +infinity: every entry of x is a real. -/
theorem allReal_of_all {φ : FTy} {s u : Shape} {axes : List (Fin s.rank)} (b : BitVec φ.bits)
    (htop : Ideal.ofBits φ b = (⊤ : EReal)) (x : FVec Ideal s φ) (hb : S0.BroadcastsInDim s (![] : Fin 0 → Fin s.rank))
    (init : IVec u 1) (hr : s.ReducesTo axes S0) (hu : 0 < u.numel)
    (e : Host.reduce IntOp.andi (cmpf .olt (Host.absf x) (broadcastInDim s ![] hb (constant S0 φ b))) init hr hu ix0
      = 1#1) : AllReal x :=
  allReal_of_ltBcast b htop x hb (all_of_reduce _ _ hr hu e)

/-- The f32 case, the reduction started from the word 1, 1 at the scalar's index: every entry of x is a real. -/
theorem finite_of_all {s : Shape} {axes : List (Fin s.rank)} (x : FVec Ideal s .f32)
    (hb : S0.BroadcastsInDim s (![] : Fin 0 → Fin s.rank)) (hr : s.ReducesTo axes S0) (hu : 0 < S0.numel)
    (e : Host.reduce IntOp.andi (cmpf .olt (Host.absf x) (broadcastInDim s ![] hb (constant S0 .f32 0x7F800000#32)))
      (constantI S0 1 1#1) hr hu ix0 = 1#1) : AllReal x :=
  allReal_of_all _ ofBits_inf_f32 x hb _ hr hu e

/-- The same when the reduction is said to be the constant function 1. -/
theorem finite_of_all_eq {s : Shape} {axes : List (Fin s.rank)} (x : FVec Ideal s .f32)
    (hb : S0.BroadcastsInDim s (![] : Fin 0 → Fin s.rank)) (hr : s.ReducesTo axes S0) (hu : 0 < S0.numel)
    (e : Host.reduce IntOp.andi (cmpf .olt (Host.absf x) (broadcastInDim s ![] hb (constant S0 .f32 0x7F800000#32)))
      (constantI S0 1 1#1) hr hu = fun _ => 1#1) : AllReal x :=
  finite_of_all x hb hr hu (congrFun e ix0)

/-- "All x j > y j" came out 1 at the scalar's index: x lies strictly above y at every index. -/
theorem gt_of_all {φ : FTy} {s u : Shape} {axes : List (Fin s.rank)} (x y : FVec Ideal s φ) (init : IVec u 1)
    (hr : s.ReducesTo axes S0) (hu : 0 < u.numel)
    (e : Host.reduce IntOp.andi (cmpf .ogt x y) init hr hu ix0 = 1#1) (j : s.Idx) : x j > y j :=
  gt_of_ogt_at x y j (all_of_reduce _ _ hr hu e j)

/-- The same when the reduction is said to be the constant function 1. -/
theorem gt_of_all_eq {φ : FTy} {s u : Shape} {axes : List (Fin s.rank)} (x y : FVec Ideal s φ) (init : IVec u 1)
    (hr : s.ReducesTo axes S0) (hu : 0 < u.numel)
    (e : Host.reduce IntOp.andi (cmpf .ogt x y) init hr hu = fun _ => 1#1) (j : s.Idx) : x j > y j :=
  gt_of_all x y init hr hu (congrFun e ix0) j

end Cert.PreDecodeLib

end
-- ==== Proof.PreDecode.lean ====
/-
  The precondition, read back.

  The predicate is the "and" of four one-bit scalars: "every |x| is below +infinity" for each of the three argument
  arrays, and "every row sum of the affinity differs from zero", the affinity computed from `sim` by the same eight
  operations as in the reference (squares, row sum, square root, clamp, quotient, transpose, contraction, row sum).
  If the predicate is 1 then every entry of the three arrays is a real number and no row sum vanishes.

  The first half reads each non-pointwise operation of that chain at coordinates; the second half composes them into
  the normalised rows and the row sums of the specification; the last statement splits the conjunction.
-/
import proofs.«142103_j4440996184607_1_alg».proof.Pre_finite_inputs
import proofs.«142103_j4440996184607_1_alg».proof.Proof.Spec
import proofs.«142103_j4440996184607_1_alg».proof.Proof.LibPreDecode
import Idealize.ShloMosaic.Lib.Pipeline.Value
import Idealize.ShloMosaic.Lib.ValueIdx
import Idealize.ShloMosaic.PureOps.Ideal.Laws

noncomputable section

namespace Cert.PreDecode

open Idealize.ShloMosaic Idealize.ShloMosaic.ValueIdx Idealize.ShloMosaic.StableHlo
open Cert.Pre_finite_inputs Cert.Pre_finite_inputs.Facts Cert.PreDecodeLib

variable [Cert.Pre_finite_inputs.Facts]

/-! ## A comparison word "x ≠ y" -/

/-- A comparison word "x ≠ y" that is 1: the two extended reals differ. -/
theorem ne_of_une {φ : FTy} {x y : Ideal φ} (h : FloatOps.cmpf .une x y = 1#1) : (x : EReal) ≠ y := by
  have h2 : Ideal.cmp .une x y = 1#1 := h
  unfold Ideal.cmp at h2
  rw [ofBool_eq_one] at h2
  exact of_decide_eq_true h2

/-! ## Pointwise host operations at an index -/

theorem hostSqrt_apply {s : Shape} (v : FVec Ideal s .f32) (i : s.Idx) : Host.sqrt v i = Ideal.sqrt (v i) := rfl

theorem hostDivf_apply {s : Shape} (a b : FVec Ideal s .f32) (i : s.Idx) : Host.divf a b i = Ideal.div (a i) (b i) := rfl

/-! ## The layout operations and the sums, at coordinates -/

/-- A column of row values read at (i, 0) is the row value at i. -/
theorem bcast_col_apply (y : FVec Ideal S8192 .f32) (i : Fin 8192) (z : Fin 1) :
    broadcastInDim S8192x1 ![0] bcast_S8192_S8192x1_0 y (ix2 i z) = y (ix1 i) :=
  broadcastInDim_apply _ bcast_S8192_S8192x1_0 y (ix2 i z) (ix1 i) (fun a => match a with
    | ⟨0, _⟩ => by show i.val = if (8192 : Nat) = 1 then 0 else i.val; rw [if_neg (by decide)])

/-- A scalar spread over a column is the scalar at every index. -/
theorem bcast_scalar_col_apply (y : FVec Ideal S_ .f32) (j : S8192x1.Idx) :
    broadcastInDim S8192x1 ![] bcast_S_S8192x1 y j = y ix0 :=
  broadcastInDim_apply _ bcast_S_S8192x1 y j ix0 (fun a => a.elim0)

/-- A column spread along the rows read at (i, k) is the column at (i, 0). -/
theorem bcast_row_apply (y : FVec Ideal S8192x1 .f32) (i : Fin 8192) (k : Fin 512) :
    broadcastInDim S8192x512 ![0, 1] bcast_S8192x1_S8192x512_0_1 y (ix2 i k) = y (ix2 i (0 : Fin 1)) :=
  broadcastInDim_apply _ bcast_S8192x1_S8192x512_0_1 y (ix2 i k) (ix2 i (0 : Fin 1)) (fun a => match a with
    | ⟨0, _⟩ => by show i.val = if (8192 : Nat) = 1 then 0 else i.val; rw [if_neg (by decide)]
    | ⟨1, _⟩ => by show 0 = if (1 : Nat) = 1 then 0 else k.val; rw [if_pos rfl])

/-- The transpose read at (k, j) is the operand at (j, k). -/
theorem transpose_at (y : FVec Ideal S8192x512 .f32) (k : Fin 512) (j : Fin 8192) :
    transpose S512x8192 [1, 0] y transposes_S8192x512_S512x8192_1_0 (ix2 k j) = y (ix2 j k) :=
  transpose_apply [1, 0] y transposes_S8192x512_S512x8192_1_0 (ix2 k j) (ix2 j k) (fun b => match b with
    | ⟨0, _⟩ => rfl
    | ⟨1, _⟩ => rfl)

/-- The float sum along a row of 512 entries, from the zero word. -/
theorem rowsum512_apply (y : FVec Ideal S8192x512 .f32) (i : Fin 8192) :
    Host.reduceAdd (F := Ideal) y (constant S_ .f32 0x00000000#32) reducesTo_S8192x512_S8192_d1 h_S_ (ix1 i)
      = ∑ k : Fin 512, y (ix2 i k) := by
  have e : Host.reduceAdd (F := Ideal) y (constant S_ .f32 0x00000000#32) reducesTo_S8192x512_S8192_d1 h_S_ (ix1 i)
      = (constant (F := Ideal) S_ .f32 0x00000000#32) (Shape.Idx.first h_S_) + ∑ k : Fin 512, y (ix2 i k) := by
    simp only [Host.reduceAdd, Ideal.hostReduceAdd_def]
    rw [Ideal.hostReduceAdd_single reducesTo_S8192x512_S8192_d1 (by decide)]
    refine congrArg (_ + ·) (Finset.sum_congr rfl fun k _ => ?_)
    exact congrArg y (funext fun a => Fin.ext (by match a with | ⟨0, _⟩ => rfl | ⟨1, _⟩ => rfl))
  rw [e, constant_apply, Ideal.ofBits_zero_f32, zero_add]

/-- The float sum along a row of 8192 entries, from the zero word. -/
theorem rowsum8192_apply (y : FVec Ideal S8192x8192 .f32) (i : Fin 8192) :
    Host.reduceAdd (F := Ideal) y (constant S_ .f32 0x00000000#32) reducesTo_S8192x8192_S8192_d1 h_S_ (ix1 i)
      = ∑ j : Fin 8192, y (ix2 i j) := by
  have e : Host.reduceAdd (F := Ideal) y (constant S_ .f32 0x00000000#32) reducesTo_S8192x8192_S8192_d1 h_S_ (ix1 i)
      = (constant (F := Ideal) S_ .f32 0x00000000#32) (Shape.Idx.first h_S_) + ∑ j : Fin 8192, y (ix2 i j) := by
    simp only [Host.reduceAdd, Ideal.hostReduceAdd_def]
    rw [Ideal.hostReduceAdd_single reducesTo_S8192x8192_S8192_d1 (by decide)]
    refine congrArg (_ + ·) (Finset.sum_congr rfl fun k _ => ?_)
    exact congrArg y (funext fun a => Fin.ext (by match a with | ⟨0, _⟩ => rfl | ⟨1, _⟩ => rfl))
  rw [e, constant_apply, Ideal.ofBits_zero_f32, zero_add]

/-! ### The contraction -/

/-- The left operand's row coordinate is the result's: axis 0 of the left operand is its one free axis. -/
theorem dot_lhs_0 (i : S8192x8192.Idx) (q : dot_S8192x512_S512x8192_S8192x8192_1_0_0_1_n_n.contr.Idx) :
    (dot_S8192x512_S512x8192_S8192x8192_1_0_0_1_n_n.lhsIdx i q 0).val = (i 0).val := by
  unfold DotDims.lhsIdx
  rw [dif_neg (show ¬(0 : Fin S8192x512.rank) ∈ dot_S8192x512_S512x8192_S8192x8192_1_0_0_1_n_n.lhsBatch
        from List.not_mem_nil),
    dif_pos (show (0 : Fin S8192x512.rank) ∈ dot_S8192x512_S512x8192_S8192x8192_1_0_0_1_n_n.lhsNonContracting
        from List.mem_singleton.2 rfl)]
  rfl

/-- The right operand's column coordinate is the result's: axis 1 of the right operand is its one free axis. -/
theorem dot_rhs_1 (i : S8192x8192.Idx) (q : dot_S8192x512_S512x8192_S8192x8192_1_0_0_1_n_n.contr.Idx) :
    (dot_S8192x512_S512x8192_S8192x8192_1_0_0_1_n_n.rhsIdx i q 1).val = (i 1).val := by
  unfold DotDims.rhsIdx
  rw [dif_neg (show ¬(1 : Fin S512x8192.rank) ∈ dot_S8192x512_S512x8192_S8192x8192_1_0_0_1_n_n.rhsBatch
        from List.not_mem_nil),
    dif_pos (show (1 : Fin S512x8192.rank) ∈ dot_S8192x512_S512x8192_S8192x8192_1_0_0_1_n_n.rhsNonContracting
        from List.mem_singleton.2 rfl)]
  rfl

/-- The contraction of a 8192×512 array with a 512×8192 array, read at (i, j): the sum over the 512 shared
    coordinates. -/
theorem dot_at (l : FVec Ideal S8192x512 .f32) (r : FVec Ideal S512x8192 .f32) (i j : Fin 8192) :
    Host.dotGeneral (F := Ideal) dot_S8192x512_S512x8192_S8192x8192_1_0_0_1_n_n none l r (ix2 i j)
      = ∑ k : Fin 512, l (ix2 i k) * r (ix2 k j) := by
  simp only [Host.dotGeneral]
  rw [Ideal.dotGeneral_apply,
    ← Equiv.sum_comp (ValueIdx.contrEquiv1 dot_S8192x512_S512x8192_S8192x8192_1_0_0_1_n_n 512 rfl rfl).symm]
  refine Finset.sum_congr rfl fun k _ => ?_
  have hk := ValueIdx.contrEquiv1_symm_val dot_S8192x512_S512x8192_S8192x8192_1_0_0_1_n_n 512 rfl rfl k
  have el : dot_S8192x512_S512x8192_S8192x8192_1_0_0_1_n_n.lhsIdx (ix2 i j)
      ((ValueIdx.contrEquiv1 dot_S8192x512_S512x8192_S8192x8192_1_0_0_1_n_n 512 rfl rfl).symm k) = ix2 i k :=
    funext fun a => Fin.ext (by
      match a with
      | ⟨0, _⟩ => exact dot_lhs_0 _ _
      | ⟨1, _⟩ => exact (dot_S8192x512_S512x8192_S8192x8192_1_0_0_1_n_n.lhsIdx_val_of_single rfl _ _).trans hk)
  have er : dot_S8192x512_S512x8192_S8192x8192_1_0_0_1_n_n.rhsIdx (ix2 i j)
      ((ValueIdx.contrEquiv1 dot_S8192x512_S512x8192_S8192x8192_1_0_0_1_n_n 512 rfl rfl).symm k) = ix2 k j :=
    funext fun a => Fin.ext (by
      match a with
      | ⟨0, _⟩ => exact (dot_S8192x512_S512x8192_S8192x8192_1_0_0_1_n_n.rhsIdx_val_of_single rfl _ _).trans hk
      | ⟨1, _⟩ => exact dot_rhs_1 _ _)
  rw [el, er]

/-! ## The chain of the predicate's last conjunct -/

/-- The normalised rows, as the predicate computes them. -/
def rows (x1 : FVec Ideal S8192x512 .f32) : FVec Ideal S8192x512 .f32 :=
  Host.divf x1 (broadcastInDim S8192x512 ![0, 1] bcast_S8192x1_S8192x512_0_1
    (maximumf
      (Host.sqrt (broadcastInDim S8192x1 ![0] bcast_S8192_S8192x1_0
        (Host.reduceAdd (mulf x1 x1) (constant S_ .f32 0x00000000#32) reducesTo_S8192x512_S8192_d1 h_S_)))
      (broadcastInDim S8192x1 ![] bcast_S_S8192x1 (constant S_ .f32 0x2B8CBCCC#32))))

/-- The normalised rows at (i, k) are the specification's. -/
theorem rows_at (x1 : FVec Ideal S8192x512 .f32) (i : Fin 8192) (k : Fin 512) :
    rows x1 (ix2 i k) = Cert.Spec.s x1 i k := by
  unfold rows
  rw [hostDivf_apply, bcast_row_apply, maximumf_apply, hostSqrt_apply, bcast_col_apply, rowsum512_apply,
    bcast_scalar_col_apply, constant_apply]
  simp only [mulf_apply]
  rfl

/-- The row sums of the affinity, as a column, as the predicate computes them. -/
def rowSums (x1 : FVec Ideal S8192x512 .f32) : FVec Ideal S8192x1 .f32 :=
  broadcastInDim S8192x1 ![0] bcast_S8192_S8192x1_0
    (Host.reduceAdd
      (Host.dotGeneral dot_S8192x512_S512x8192_S8192x8192_1_0_0_1_n_n none (rows x1)
        (transpose S512x8192 [1, 0] (rows x1) transposes_S8192x512_S512x8192_1_0))
      (constant S_ .f32 0x00000000#32) reducesTo_S8192x8192_S8192_d1 h_S_)

/-- The row sums at (i, 0) are the specification's. -/
theorem rowSums_at (x1 : FVec Ideal S8192x512 .f32) (i : Fin 8192) (z : Fin 1) :
    rowSums x1 (ix2 i z) = Cert.Spec.R x1 i := by
  unfold rowSums Cert.Spec.R
  rw [bcast_col_apply, rowsum8192_apply]
  refine Finset.sum_congr rfl fun j _ => ?_
  unfold Cert.Spec.G
  rw [dot_at]
  refine Finset.sum_congr rfl fun k _ => ?_
  rw [transpose_at, rows_at, rows_at]

/-! ## The predicate -/

/-- "Every |x| is below +infinity", the one-bit scalar the predicate forms for an array. -/
abbrev allBelowInf {s : Shape} {axes : List (Fin s.rank)} (x : FVec Ideal s .f32)
    (hb : S_.BroadcastsInDim s (![] : Fin 0 → Fin s.rank)) (hr : s.ReducesTo axes S_) : IVec S_ 1 :=
  Host.reduce IntOp.andi (cmpf .olt (Host.absf x) (broadcastInDim s ![] hb (constant S_ .f32 0x7F800000#32)))
    (constantI S_ 1 1#1) hr h_S_

set_option maxHeartbeats 400000 in
/-- The predicate all ones: the three argument arrays have real entries and no row sum of the affinity is zero. -/
theorem pre_decode (x0 : FVec Ideal S8192x1024 .f32) (x1 : FVec Ideal S8192x512 .f32) (x2 : FVec Ideal S1024x1024 .f32)
    (h : Cert.Pre_finite_inputs.fn (F := Ideal) x0 x1 x2 = fun _ => 1#1) :
    Cert.Spec.Finite x0 ∧ Cert.Spec.Finite x1 ∧ Cert.Spec.Finite x2 ∧ ∀ i : Fin 8192, Cert.Spec.R x1 i ≠ 0 := by
  have h0 : andi (andi (andi (allBelowInf x0 bcast_S_S8192x1024 reducesTo_S8192x1024_S_d0_1)
        (allBelowInf x1 bcast_S_S8192x512 reducesTo_S8192x512_S_d0_1))
        (allBelowInf x2 bcast_S_S1024x1024 reducesTo_S1024x1024_S_d0_1))
      (Host.reduce IntOp.andi
        (cmpf .une (rowSums x1) (broadcastInDim S8192x1 ![] bcast_S_S8192x1 (constant S_ .f32 0x00000000#32)))
        (constantI S_ 1 1#1) reducesTo_S8192x1_S_d0_1 h_S_) ix0 = 1#1 := at_ix0_of_eq_one h
  obtain ⟨h123, h4⟩ := andi_ix0 h0
  obtain ⟨h12, h3⟩ := andi_ix0 h123
  obtain ⟨h1, h2⟩ := andi_ix0 h12
  refine ⟨finite_of_all x0 bcast_S_S8192x1024 reducesTo_S8192x1024_S_d0_1 h_S_ h1,
    finite_of_all x1 bcast_S_S8192x512 reducesTo_S8192x512_S_d0_1 h_S_ h2,
    finite_of_all x2 bcast_S_S1024x1024 reducesTo_S1024x1024_S_d0_1 h_S_ h3, fun i => ?_⟩
  have hi := all_of_reduce _ _ reducesTo_S8192x1_S_d0_1 h_S_ h4 (ix2 i (0 : Fin 1))
  rw [cmpf_apply, rowSums_at, bcast_scalar_col_apply, constant_apply, Ideal.ofBits_zero_f32] at hi
  exact ne_of_une hi

end Cert.PreDecode

end
-- ==== Proof.Algebra.lean ====
/-
  The algebraic law between the two arrangements, on the extended reals.

  One side forms the affinity `G = s sᵀ`, divides every entry by its row sum `R i = ∑ j, G i j` and applies
  the result to `x` and then to `w`. The other side uses associativity, `s (sᵀ x)`, and the row sums in the
  factored form `r i = ∑ k, s i k * (∑ j, s j k)`. Distributivity of the product over the sum fails on the
  extended reals at the infinities, so the law is proved on the reals and carried over: every input entry is
  a real number, the clamped row norm is a positive real, hence every normalised entry is a real, and every
  sum in sight is the coercion of a real sum. The hypothesis that no row sum is zero makes the division the
  real division.
-/
import proofs.«142103_j4440996184607_1_alg».proof.Proof.Spec
import proofs.«142103_j4440996184607_1_alg».proof.Proof.LibFinite
import Mathlib

noncomputable section

open scoped BigOperators

namespace Cert.Algebra

open Idealize.ShloMosaic Idealize.ShloMosaic.ValueIdx Cert.Finite

/-! ## The clamp and the row norms -/

/-- The clamp is a positive real: the word has sign bit zero, exponent field `87` and fraction `834764`,
    so it denotes `(2 ^ 23 + 834764) * 2 ^ (87 - 127 - 23)`. -/
theorem eps_pos_real : ∃ e : ℝ, 0 < e ∧ Spec.eps = (e : EReal) := by
  refine ⟨((2 ^ 23 + 834764 : ℕ) : ℝ) * (2 : ℝ) ^ ((87 : ℤ) - (2 ^ (8 - 1) - 1) - (23 : ℕ)), by positivity, ?_⟩
  simp [Spec.eps, Ideal.ofBits, Ideal.ieee, -EReal.coe_mul]

/-- The clamp is finite. -/
theorem eps_isReal : IsReal Spec.eps := by
  obtain ⟨e, _, h⟩ := eps_pos_real
  exact ⟨e, h⟩

/-- The clamp is positive. -/
theorem eps_pos : 0 < Spec.eps := by
  obtain ⟨e, he, h⟩ := eps_pos_real
  rw [h]
  exact EReal.coe_pos.mpr he

/-- The square root of a sum of squares of reals is a real. -/
theorem isReal_sqrt_sum_sq {κ : Type*} [Fintype κ] (a : κ → ℝ) :
    IsReal (Ideal.sqrt (∑ k, (a k : EReal) * (a k : EReal))) := by
  have h : (∑ k, (a k : EReal) * (a k : EReal)) = ((∑ k, a k * a k : ℝ) : EReal) := by
    simp only [coe_sum, EReal.coe_mul]
  rw [h, Ideal.sqrt_coe, if_neg (not_lt.mpr (Finset.sum_nonneg fun k _ => mul_self_nonneg (a k)))]
  exact isReal_coe _

/-- The clamped row norm of a row of reals is finite. -/
theorem nrm_isReal (sim : Spec.Arr2 8192 512) (hs : Spec.Finite sim) (i : Fin 8192) : IsReal (Spec.nrm sim i) := by
  obtain ⟨a, ha⟩ := exists_real_fun (fun k : Fin 512 => sim (ix2 i k)) (fun k => hs _)
  have ha' : ∀ k : Fin 512, sim (ix2 i k) = (a k : EReal) := ha
  unfold Spec.nrm
  simp only [ha']
  exact (isReal_sqrt_sum_sq a).max eps_isReal

/-- The clamped row norm is positive, being at least the clamp. -/
theorem nrm_pos (sim : Spec.Arr2 8192 512) (i : Fin 8192) : 0 < Spec.nrm sim i :=
  lt_of_lt_of_le eps_pos (le_max_right _ _)

/-- The clamped row norm is not zero. -/
theorem nrm_ne_zero (sim : Spec.Arr2 8192 512) (i : Fin 8192) : Spec.nrm sim i ≠ 0 :=
  (nrm_pos sim i).ne'

/-- Every normalised entry is a real number. -/
theorem s_isReal (sim : Spec.Arr2 8192 512) (hs : Spec.Finite sim) (i : Fin 8192) (k : Fin 512) :
    IsReal (Spec.s sim i k) :=
  IsReal.div (hs _) (nrm_isReal sim hs i) (nrm_ne_zero sim i)

/-! ## The law on the reals, over abstract finite index types -/

section RealLaw

variable {ι κ : Type*} [Fintype ι] [Fintype κ]

/-- The row sums of `σ σᵀ` in factored form: `∑ k, σ i k * (∑ j, σ j k) = ∑ j, ∑ k, σ i k * σ j k`. -/
theorem real_rowsum (σ : ι → κ → ℝ) (i : ι) :
    ∑ k, σ i k * ∑ j, σ j k = ∑ j, ∑ k, σ i k * σ j k := by
  rw [Finset.sum_comm]
  exact Finset.sum_congr rfl fun k _ => Finset.mul_sum _ _ _

/-- Associativity of the triple product: `∑ k, σ i k * (∑ j, σ j k * ξ j) = ∑ j, (∑ k, σ i k * σ j k) * ξ j`. -/
theorem real_assoc (σ : ι → κ → ℝ) (ξ : ι → ℝ) (i : ι) :
    ∑ k, σ i k * ∑ j, σ j k * ξ j = ∑ j, (∑ k, σ i k * σ j k) * ξ j := by
  simp only [Finset.mul_sum, Finset.sum_mul]
  rw [Finset.sum_comm]
  exact Finset.sum_congr rfl fun j _ => Finset.sum_congr rfl fun k _ => (mul_assoc _ _ _).symm

/-- Dividing after the product is dividing every entry of the affinity first. -/
theorem real_div_law (σ : ι → κ → ℝ) (ξ : ι → ℝ) (i : ι) (ρ : ℝ) :
    (∑ k, σ i k * ∑ j, σ j k * ξ j) / ρ = ∑ j, (∑ k, σ i k * σ j k) / ρ * ξ j := by
  rw [real_assoc, Finset.sum_div]
  exact Finset.sum_congr rfl fun j _ => by ring

end RealLaw

/-! ## The law carried over to coercions of reals -/

section CoeLaw

variable {ι κ : Type*} [Fintype ι] [Fintype κ]

/-- The two forms of the row sums agree on coercions of reals. -/
theorem coe_rowsum (σ : ι → κ → ℝ) (i : ι) :
    ∑ k, (σ i k : EReal) * ∑ j, (σ j k : EReal) = ∑ j, ∑ k, (σ i k : EReal) * (σ j k : EReal) := by
  have hl : ∑ k, (σ i k : EReal) * ∑ j, (σ j k : EReal) = ((∑ k, σ i k * ∑ j, σ j k : ℝ) : EReal) := by
    simp only [coe_sum, EReal.coe_mul]
  have hr : ∑ j, ∑ k, (σ i k : EReal) * (σ j k : EReal) = ((∑ j, ∑ k, σ i k * σ j k : ℝ) : EReal) := by
    simp only [coe_sum, EReal.coe_mul]
  rw [hl, hr, real_rowsum]

/-- The quotient law on coercions of reals, the divisor a nonzero real. -/
theorem coe_div_law (σ : ι → κ → ℝ) (ξ : ι → ℝ) (i : ι) {ρ : ℝ} (hρ : ρ ≠ 0) :
    Ideal.div (∑ k, (σ i k : EReal) * ∑ j, (σ j k : EReal) * (ξ j : EReal)) (ρ : EReal)
      = ∑ j, Ideal.div (∑ k, (σ i k : EReal) * (σ j k : EReal)) (ρ : EReal) * (ξ j : EReal) := by
  have hnum : ∑ k, (σ i k : EReal) * ∑ j, (σ j k : EReal) * (ξ j : EReal)
      = ((∑ k, σ i k * ∑ j, σ j k * ξ j : ℝ) : EReal) := by
    simp only [coe_sum, EReal.coe_mul]
  have hG : ∀ j, ∑ k, (σ i k : EReal) * (σ j k : EReal) = ((∑ k, σ i k * σ j k : ℝ) : EReal) := fun j => by
    simp only [coe_sum, EReal.coe_mul]
  rw [hnum, div_coe_coe _ hρ, real_div_law, coe_sum]
  refine Finset.sum_congr rfl fun j _ => ?_
  rw [hG j, div_coe_coe _ hρ, EReal.coe_mul]

end CoeLaw

/-! ## The two programs -/

/-- The row sums in factored form are the row sums of the affinity. -/
theorem r_eq_R (sim : Spec.Arr2 8192 512) (hs : Spec.Finite sim) (i : Fin 8192) : Spec.r sim i = Spec.R sim i := by
  obtain ⟨σ, hσ⟩ := exists_real_fun₂ (Spec.s sim) (s_isReal sim hs)
  unfold Spec.r Spec.u Spec.R Spec.G
  simp only [hσ]
  exact coe_rowsum σ i

/-- A row sum of the affinity is finite. -/
theorem R_isReal (sim : Spec.Arr2 8192 512) (hs : Spec.Finite sim) (i : Fin 8192) : IsReal (Spec.R sim i) :=
  isReal_sum_univ _ fun j => isReal_sum_univ _ fun k => (s_isReal sim hs i k).mul (s_isReal sim hs j k)

/-- The two sides agree when every input entry is a real number and no row sum of the affinity is zero. -/
theorem kerOut_eq_refOut (x : Spec.Arr2 8192 1024) (sim : Spec.Arr2 8192 512) (w : Spec.Arr2 1024 1024)
    (hx : Spec.Finite x) (hs : Spec.Finite sim) (hw : Spec.Finite w) (hR : ∀ i, Spec.R sim i ≠ 0)
    (i : Fin 8192) (o : Fin 1024) :
    Spec.kerOut x sim w i o = Spec.refOut x sim w i o := by
  have _ := hw
  obtain ⟨σ, hσ⟩ := exists_real_fun₂ (Spec.s sim) (s_isReal sim hs)
  obtain ⟨ξ, hξ⟩ := exists_real_fun₂ (fun (j : Fin 8192) (c : Fin 1024) => x (ix2 j c)) (fun j c => hx _)
  have hξ' : ∀ (j : Fin 8192) (c : Fin 1024), x (ix2 j c) = (ξ j c : EReal) := hξ
  obtain ⟨ρ, hρe⟩ := R_isReal sim hs i
  have hρ : ρ ≠ 0 := fun h0 => hR i (by rw [hρe, h0, EReal.coe_zero])
  unfold Spec.kerOut Spec.refOut
  rw [r_eq_R sim hs i, hρe]
  refine Finset.sum_congr rfl fun c _ => congrArg (· * w (ix2 c o)) ?_
  unfold Spec.T Spec.G
  simp only [hσ, hξ']
  exact coe_div_law σ (fun j => ξ j c) i hρ

end Cert.Algebra

end
-- ==== Proof.lean ====
/-
  The proof of the certificate's claim.

  The kernel program scales the rows of its second argument to unit length (`s`), then computes
  `((s (sᵀ x)) / r) w` with `r = s (sᵀ 1)` in two launches; the reference forms the affinity `G = s sᵀ`, divides
  each row by its sum `R` and computes `((G / R) x) w`. On the extended reals the two agree where every input is a
  real number and no row sum `R i` vanishes (where one does, the reference itself divides by zero): then every
  quantity is real, `r = R` by exchanging two finite sums, and `∑ j, (G i j / R i) x j c = (∑ k, s i k T k c) / R i`
  by distributivity. The three frames: each kernel launch is run body by body (the first carries its accumulator
  from point to point), the host operations in between by their own rule; the reference is a straight line of host
  operations.
-/
import proofs.«142103_j4440996184607_1_alg».proof.Defs
import proofs.«142103_j4440996184607_1_alg».proof.Proof.Gen.Kernel
import proofs.«142103_j4440996184607_1_alg».proof.Proof.Gen.KernelIdeal
import proofs.«142103_j4440996184607_1_alg».proof.Proof.Gen.ReferenceIdeal
import proofs.«142103_j4440996184607_1_alg».proof.Proof.Gen.Pre_finite_inputs
import proofs.«142103_j4440996184607_1_alg».proof.Proof.BR0
import proofs.«142103_j4440996184607_1_alg».proof.Proof.BRun
import proofs.«142103_j4440996184607_1_alg».proof.Proof.KR0
import proofs.«142103_j4440996184607_1_alg».proof.Proof.KRun
import proofs.«142103_j4440996184607_1_alg».proof.Proof.KValue
import proofs.«142103_j4440996184607_1_alg».proof.Proof.RefSide
import proofs.«142103_j4440996184607_1_alg».proof.Proof.PreDecode
import proofs.«142103_j4440996184607_1_alg».proof.Proof.Algebra
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_k : @Cert.frame_Kernel Cert.Kernel.Gen.facts Cert.Pre_finite_inputs.Gen.facts := fun m ρ _ =>
  Cert.Kernel.Hand.frame m ρ (Cert.Kernel.Hand.dat0 (F := Bits)) Cert.Kernel.Hand.A_eq0 (fun _ _ _ => rfl) (fun _ _ _ => rfl)
    Cert.Kernel.Hand.body_obligation0 Cert.Kernel.Hand.hin0 Cert.Kernel.Hand.hout0

/-- So does the idealized kernel program. -/
theorem frame_ki : @Cert.frame_KernelIdeal Cert.KernelIdeal.Gen.facts Cert.Pre_finite_inputs.Gen.facts := fun m ρ _ =>
  Cert.KernelIdeal.Hand.frame m ρ (Cert.KernelIdeal.Hand.dat0 (F := Ideal)) Cert.KernelIdeal.Hand.A_eq0 (fun _ _ _ => rfl) (fun _ _ _ => rfl)
    Cert.KernelIdeal.Hand.body_obligation0 Cert.KernelIdeal.Hand.hin0 Cert.KernelIdeal.Hand.hout0

/-- The reference is a line of host operations: its run, with the result dropped. -/
theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the reference's function of the arguments: the kernel's factored form equals
    it under the precondition (every input real, no vanishing row sum). -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => (fun idx => Cert.Spec.refOut (Cert.KernelIdeal.Value.ax m c) (Cert.KernelIdeal.Value.asim m c)
      (Cert.KernelIdeal.Value.aw m c) (idx 0) (idx 1) : FVec Ideal Cert.KernelIdeal.S8192x1024 .f32), ?_, ?_⟩
  · refine (θ_run Cert.KernelIdeal.defs _ _).mono (fun r h c => ⟨(h c).1.trans ?_, (h c).2⟩) (Cert.KernelIdeal.Value.run m ρ)
    obtain ⟨hx, hs, hw, hR⟩ := Cert.PreDecode.pre_decode _ _ _ (hpre c)
    funext idx
    exact Cert.Algebra.kerOut_eq_refOut _ _ _ hx hs hw hR (idx 0) (idx 1)
  · refine (θ_run Cert.ReferenceIdeal.defs _ _).mono (fun r h c => ⟨(h c).1.trans ?_, (h c).2⟩) (Cert.RefSide.ref_run m' ρ')
    rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
